-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v55)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v55) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v89) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S40000x12 : Shape := ⟨2, ![40000, 12]⟩
abbrev S2x640000 : Shape := ⟨2, ![2, 640000]⟩
abbrev S128x12 : Shape := ⟨2, ![128, 12]⟩
abbrev S128 : Shape := ⟨1, ![128]⟩
abbrev S128x128 : Shape := ⟨2, ![128, 128]⟩
abbrev S1x128 : Shape := ⟨2, ![1, 128]⟩
abbrev S1 : Shape := ⟨1, ![1]⟩
abbrev S_ : Shape := ⟨0, ![]⟩

class Facts : Prop where
  bcast_S_S40000x12 : S_.BroadcastsInDim S40000x12 (![] : Fin 0 → Fin S40000x12.rank)
  reducesTo_S40000x12_S_d0_1 : S40000x12.ReducesTo [0, 1] S_
  h_S_ : 0 < S_.numel
  bcast_S_S128x12 : S_.BroadcastsInDim S128x12 (![] : Fin 0 → Fin S128x12.rank)
  reducesTo_S128x12_S_d0_1 : S128x12.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S1x128 : S_.BroadcastsInDim S1x128 (![] : Fin 0 → Fin S1x128.rank)
  reducesTo_S1x128_S_d0_1 : S1x128.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg12 : FVec F S1 .f32) (main_v48 : IVec S_ 1) (main_v49 : FVec F S1x128 .f32) (main_v50 : FVec F S1x128 .f32) : IVec S_ 1 :=
  let main_v51 : IVec S1x128 1 := cmpf .olt main_v49 main_v50
  let main_c_19 : IVec S_ 1 := constantI S_ 1 1#1
  let main_v52 : IVec S_ 1 := (fun x v => Host.reduce IntOp.andi x v reducesTo_S1x128_S_d0_1 h_S_) main_v51 main_c_19
  let main_v53 : IVec S_ 1 := andi main_v48 main_v52
  let main_v54 : FVec F S1 .f32 := Host.absf main_arg12
  let main_cst_20 : FVec F S_ .f32 := constant S_ .f32 0x7F800000#32
  let main_v55 : FVec F S1 .f32 := broadcastInDim S1 ![] bcast_S_S1 main_cst_20
  let main_v56 : IVec S1 1 := cmpf .olt main_v54 main_v55
  let main_c_21 : IVec S_ 1 := constantI S_ 1 1#1
  let main_v57 : IVec S_ 1 := (fun x v => Host.reduce IntOp.andi x v reducesTo_S1_S_d0 h_S_) main_v56 main_c_21
  let main_v58 : IVec S_ 1 := andi main_v53 main_v57
  main_v58

def fn_part2 {F : FTy → Type} [FloatOps F] (main_arg8 : FVec F S128x128 .f32) (main_arg9 : FVec F S128 .f32) (main_arg10 : FVec F S128x128 .f32) (main_arg11 : FVec F S1x128 .f32) (main_arg12 : FVec F S1 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg10
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S1x128 .f32 := Host.absf main_arg11
  let main_cst_18 : FVec F S_ .f32 := constant S_ .f32 0x7F800000#32
  let main_v50 : FVec F S1x128 .f32 := broadcastInDim S1x128 ![] bcast_S_S1x128 main_cst_18
  fn_part3 (F := F) main_arg12 main_v48 main_v49 main_v50

def fn_part1 {F : FTy → Type} [FloatOps F] (main_arg5 : FVec F S128x128 .f32) (main_arg6 : FVec F S128 .f32) (main_arg7 : FVec F S128x128 .f32) (main_arg8 : FVec F S128x128 .f32) (main_arg9 : FVec F S128 .f32) (main_arg10 : FVec F S128x128 .f32) (main_arg11 : FVec F S1x128 .f32) (main_arg12 : FVec F S1 .f32) (main_v13 : IVec S_ 1) (main_v16 : IVec S128x12 1) : IVec S_ 1 :=
  let main_c_5 : IVec S_ 1 := constantI S_ 1 1#1
  let main_v17 : IVec S_ 1 := (fun x v => Host.reduce IntOp.andi x v reducesTo_S128x12_S_d0_1 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_arg10 main_arg11 main_arg12 main_v33

def fn {F : FTy → Type} [FloatOps F] (main_arg0 : FVec F S40000x12 .f32) (main_arg1 : IVec S2x640000 32) (main_arg2 : FVec F S128x12 .f32) (main_arg3 : FVec F S128 .f32) (main_arg4 : FVec F S128x12 .f32) (main_arg5 : FVec F S128x128 .f32) (main_arg6 : FVec F S128 .f32) (main_arg7 : FVec F S128x128 .f32) (main_arg8 : FVec F S128x128 .f32) (main_arg9 : FVec F S128 .f32) (main_arg10 : FVec F S128x128 .f32) (main_arg11 : FVec F S1x128 .f32) (main_arg12 : FVec F S1 .f32) : IVec S_ 1 :=
  let main_v0 : FVec F S40000x12 .f32 := Host.absf main_arg0
  let main_cst : FVec F S_ .f32 := constant S_ .f32 0x7F800000#32
  let main_v1 : FVec F S40000x12 .f32 := broadcastInDim S40000x12 ![] bcast_S_S40000x12 main_cst
  let main_v2 : IVec S40000x12 1 := cmpf .olt main_v0 main_v1
  let main_c : IVec S_ 1 := constantI S_ 1 1#1
  let main_v3 : IVec S_ 1 := (fun x v => Host.reduce IntOp.andi x v reducesTo_S40000x12_S_d0_1 h_S_) main_v2 main_c
  let main_v4 : FVec F S128x12 .f32 := Host.absf main_arg2
  let main_cst_0 : FVec F S_ .f32 := constant S_ .f32 0x7F800000#32
  let main_v5 : FVec F S128x12 .f32 := broadcastInDim S128x12 ![] bcast_S_S128x12 main_cst_0
  let main_v6 : IVec S128x12 1 := cmpf .olt main_v4 main_v5
  let main_c_1 : IVec S_ 1 := constantI S_ 1 1#1
  let main_v7 : IVec S_ 1 := (fun x v => Host.reduce IntOp.andi x v reducesTo_S128x12_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x12 .f32 := Host.absf main_arg4
  let main_cst_4 : FVec F S_ .f32 := constant S_ .f32 0x7F800000#32
  let main_v15 : FVec F S128x12 .f32 := broadcastInDim S128x12 ![] bcast_S_S128x12 main_cst_4
  let main_v16 : IVec S128x12 1 := cmpf .olt main_v14 main_v15
  fn_part1 (F := F) main_arg5 main_arg6 main_arg7 main_arg8 main_arg9 main_arg10 main_arg11 main_arg12 main_v13 main_v16
-- ==== Kernel.lean ====
abbrev S40000x12 : Shape := ⟨2, ![40000, 12]⟩
abbrev S2x640000 : Shape := ⟨2, ![2, 640000]⟩
abbrev S128x12 : Shape := ⟨2, ![128, 12]⟩
abbrev S128 : Shape := ⟨1, ![128]⟩
abbrev S128x128 : Shape := ⟨2, ![128, 128]⟩
abbrev S1x128 : Shape := ⟨2, ![1, 128]⟩
abbrev S1 : Shape := ⟨1, ![1]⟩
abbrev S1x640000 : Shape := ⟨2, ![1, 640000]⟩
abbrev S640000 : Shape := ⟨1, ![640000]⟩
abbrev S_ : Shape := ⟨0, ![]⟩
abbrev S40000 : Shape := ⟨1, ![40000]⟩
abbrev S640000x1 : Shape := ⟨2, ![640000, 1]⟩
abbrev S40000x1 : Shape := ⟨2, ![40000, 1]⟩
abbrev S640000x12 : Shape := ⟨2, ![640000, 12]⟩
abbrev S40000x128 : Shape := ⟨2, ![40000, 128]⟩
abbrev S2000x12 : Shape := ⟨2, ![2000, 12]⟩
abbrev S2000x128 : Shape := ⟨2, ![2000, 128]⟩
abbrev S640000x128 : Shape := ⟨2, ![640000, 128]⟩
abbrev S1x1 : Shape := ⟨2, ![1, 1]⟩
abbrev S4000x128 : Shape := ⟨2, ![4000, 128]⟩
abbrev S4000x1 : Shape := ⟨2, ![4000, 1]⟩
abbrev S4000 : Shape := ⟨1, ![4000]⟩

abbrev nBuf : Space → Nat
  | .hbm => 84
  | .vmem => 33
  | .smem => 0
  | _ => 0

abbrev bufTy : (tb : Table) → Fin (tcTables nBuf tb) → BufTy
  | .hbm, ⟨0, _⟩ => ⟨S40000x12, .f32⟩
  | .hbm, ⟨1, _⟩ => ⟨S2x640000, .i32⟩
  | .hbm, ⟨2, _⟩ => ⟨S128x12, .f32⟩
  | .hbm, ⟨3, _⟩ => ⟨S128, .f32⟩
  | .hbm, ⟨4, _⟩ => ⟨S128x12, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S1x128, .f32⟩
  | .hbm, ⟨12, _⟩ => ⟨S1, .f32⟩
  | .hbm, ⟨13, _⟩ => ⟨S1x640000, .i32⟩
  | .hbm, ⟨14, _⟩ => ⟨S640000, .i32⟩
  | .hbm, ⟨15, _⟩ => ⟨S1x640000, .i32⟩
  | .hbm, ⟨16, _⟩ => ⟨S640000, .i32⟩
  | .hbm, ⟨17, _⟩ => ⟨S_, .f32⟩
  | .hbm, ⟨18, _⟩ => ⟨S640000, .f32⟩
  | .hbm, ⟨19, _⟩ => ⟨S_, .f32⟩
  | .hbm, ⟨20, _⟩ => ⟨S40000, .f32⟩
  | .hbm, ⟨21, _⟩ => ⟨S640000x1, .i32⟩
  | .hbm, ⟨22, _⟩ => ⟨S40000, .f32⟩
  | .hbm, ⟨23, _⟩ => ⟨S_, .f32⟩
  | .hbm, ⟨24, _⟩ => ⟨S_, .f32⟩
  | .hbm, ⟨25, _⟩ => ⟨S40000, .f32⟩
  | .hbm, ⟨26, _⟩ => ⟨S40000, .f32⟩
  | .hbm, ⟨27, _⟩ => ⟨S_, .f32⟩
  | .hbm, ⟨28, _⟩ => ⟨S40000, .f32⟩
  | .hbm, ⟨29, _⟩ => ⟨S40000, .f32⟩
  | .hbm, ⟨30, _⟩ => ⟨S40000x1, .f32⟩
  | .hbm, ⟨31, _⟩ => ⟨S_, .i32⟩
  | .hbm, ⟨32, _⟩ => ⟨S640000, .i32⟩
  | .hbm, ⟨33, _⟩ => ⟨S640000, .i1⟩
  | .hbm, ⟨34, _⟩ => ⟨S_, .i32⟩
  | .hbm, ⟨35, _⟩ => ⟨S640000, .i32⟩
  | .hbm, ⟨36, _⟩ => ⟨S640000, .i32⟩
  | .hbm, ⟨37, _⟩ => ⟨S640000, .i32⟩
  | .hbm, ⟨38, _⟩ => ⟨S640000x1, .i32⟩
  | .hbm, ⟨39, _⟩ => ⟨S640000x12, .f32⟩
  | .hbm, ⟨40, _⟩ => ⟨S_, .f32⟩
  | .hbm, ⟨41, _⟩ => ⟨S40000x12, .f32⟩
  | .hbm, ⟨42, _⟩ => ⟨S640000x1, .i32⟩
  | .hbm, ⟨43, _⟩ => ⟨S40000x12, .f32⟩
  | .hbm, ⟨44, _⟩ => ⟨S40000x12, .f32⟩
  | .hbm, ⟨45, _⟩ => ⟨S40000x12, .f32⟩
  | .hbm, ⟨46, _⟩ => ⟨S1x128, .f32⟩
  | .hbm, ⟨47, _⟩ => ⟨S40000x128, .f32⟩
  | .hbm, ⟨48, _⟩ => ⟨S_, .i32⟩
  | .hbm, ⟨49, _⟩ => ⟨S640000, .i32⟩
  | .hbm, ⟨50, _⟩ => ⟨S640000, .i1⟩
  | .hbm, ⟨51, _⟩ => ⟨S_, .i32⟩
  | .hbm, ⟨52, _⟩ => ⟨S640000, .i32⟩
  | .hbm, ⟨53, _⟩ => ⟨S640000, .i32⟩
  | .hbm, ⟨54, _⟩ => ⟨S640000, .i32⟩
  | .hbm, ⟨55, _⟩ => ⟨S640000x1, .i32⟩
  | .hbm, ⟨56, _⟩ => ⟨S640000x128, .f32⟩
  | .hbm, ⟨57, _⟩ => ⟨S_, .f32⟩
  | .hbm, ⟨58, _⟩ => ⟨S40000x128, .f32⟩
  | .hbm, ⟨59, _⟩ => ⟨S640000x1, .i32⟩
  | .hbm, ⟨60, _⟩ => ⟨S40000x128, .f32⟩
  | .hbm, ⟨61, _⟩ => ⟨S40000x128, .f32⟩
  | .hbm, ⟨62, _⟩ => ⟨S40000x128, .f32⟩
  | .hbm, ⟨63, _⟩ => ⟨S1x128, .f32⟩
  | .hbm, ⟨64, _⟩ => ⟨S40000x128, .f32⟩
  | .hbm, ⟨65, _⟩ => ⟨S_, .i32⟩
  | .hbm, ⟨66, _⟩ => ⟨S640000, .i32⟩
  | .hbm, ⟨67, _⟩ => ⟨S640000, .i1⟩
  | .hbm, ⟨68, _⟩ => ⟨S_, .i32⟩
  | .hbm, ⟨69, _⟩ => ⟨S640000, .i32⟩
  | .hbm, ⟨70, _⟩ => ⟨S640000, .i32⟩
  | .hbm, ⟨71, _⟩ => ⟨S640000, .i32⟩
  | .hbm, ⟨72, _⟩ => ⟨S640000x1, .i32⟩
  | .hbm, ⟨73, _⟩ => ⟨S640000x128, .f32⟩
  | .hbm, ⟨74, _⟩ => ⟨S_, .f32⟩
  | .hbm, ⟨75, _⟩ => ⟨S40000x128, .f32⟩
  | .hbm, ⟨76, _⟩ => ⟨S640000x1, .i32⟩
  | .hbm, ⟨77, _⟩ => ⟨S40000x128, .f32⟩
  | .hbm, ⟨78, _⟩ => ⟨S40000x128, .f32⟩
  | .hbm, ⟨79, _⟩ => ⟨S40000x128, .f32⟩
  | .hbm, ⟨80, _⟩ => ⟨S1x128, .f32⟩
  | .hbm, ⟨81, _⟩ => ⟨S40000x128, .f32⟩
  | .hbm, ⟨82, _⟩ => ⟨S1x1, .f32⟩
  | .hbm, ⟨83, _⟩ => ⟨S40000x1, .f32⟩
  | .local _ .vmem, ⟨0, _⟩ => ⟨S2000x12, .f32⟩
  | .local _ .vmem, ⟨1, _⟩ => ⟨S2000x12, .f32⟩
  | .local _ .vmem, ⟨2, _⟩ => ⟨S2000x12, .f32⟩
  | .local _ .vmem, ⟨3, _⟩ => ⟨S2000x12, .f32⟩
  | .local _ .vmem, ⟨4, _⟩ => ⟨S128x12, .f32⟩
  | .local _ .vmem, ⟨5, _⟩ => ⟨S1x128, .f32⟩
  | .local _ .vmem, ⟨6, _⟩ => ⟨S128x12, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S128x128, .f32⟩
  | .local _ .vmem, ⟨14, _⟩ => ⟨S1x128, .f32⟩
  | .local _ .vmem, ⟨15, _⟩ => ⟨S128x128, .f32⟩
  | .local _ .vmem, ⟨16, _⟩ => ⟨S2000x128, .f32⟩
  | .local _ .vmem, ⟨17, _⟩ => ⟨S2000x128, .f32⟩
  | .local _ .vmem, ⟨18, _⟩ => ⟨S2000x128, .f32⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | .local _ .vmem, ⟨22, _⟩ => ⟨S128x128, .f32⟩
  | .local _ .vmem, ⟨23, _⟩ => ⟨S1x128, .f32⟩
  | .local _ .vmem, ⟨24, _⟩ => ⟨S128x128, .f32⟩
  | .local _ .vmem, ⟨25, _⟩ => ⟨S2000x128, .f32⟩
  | .local _ .vmem, ⟨26, _⟩ => ⟨S2000x128, .f32⟩
  | .local _ .vmem, ⟨27, _⟩ => ⟨S4000x128, .f32⟩
  | .local _ .vmem, ⟨28, _⟩ => ⟨S4000x128, .f32⟩
  | .local _ .vmem, ⟨29, _⟩ => ⟨S1x128, .f32⟩
  | .local _ .vmem, ⟨30, _⟩ => ⟨S1x1, .f32⟩
  | .local _ .vmem, ⟨31, _⟩ => ⟨S4000x1, .f32⟩
  | .local _ .vmem, ⟨32, _⟩ => ⟨S4000x1, .f32⟩
  | _, _ => ⟨S40000x12, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_cst_0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_1 : Ref sig .tc := ⟨.hbm, 23, rfl⟩
abbrev main_call0_v0 : Ref sig .tc := ⟨.hbm, 24, rfl⟩
abbrev main_call0_v1 : Ref sig .tc := ⟨.hbm, 25, rfl⟩
abbrev main_v8 : Ref sig .tc := ⟨.hbm, 26, rfl⟩
abbrev main_cst_2 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_c : Ref sig .tc := ⟨.hbm, 31, rfl⟩
abbrev main_v12 : Ref sig .tc := ⟨.hbm, 32, rfl⟩
abbrev main_v13 : Ref sig .tc := ⟨.hbm, 33, rfl⟩
abbrev main_c_3 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_cst_4 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_c_5 : Ref sig .tc := ⟨.hbm, 48, rfl⟩
abbrev main_v26 : Ref sig .tc := ⟨.hbm, 49, rfl⟩
abbrev main_v27 : Ref sig .tc := ⟨.hbm, 50, rfl⟩
abbrev main_c_6 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_cst_7 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_c_8 : Ref sig .tc := ⟨.hbm, 65, rfl⟩
abbrev main_v40 : Ref sig .tc := ⟨.hbm, 66, rfl⟩
abbrev main_v41 : Ref sig .tc := ⟨.hbm, 67, rfl⟩
abbrev main_c_9 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_cst_10 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg2_0 : Ref sig .tc := ⟨.vmem, 30, rfl⟩
abbrev cc3_stg3_0 : Ref sig .tc := ⟨.vmem, 31, rfl⟩
abbrev cc3_stg3_1 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26
abbrev cc3_sem0_0 : DmaSem sig := 27
abbrev cc3_sem0_1 : DmaSem sig := 28
abbrev cc3_sem1_0 : DmaSem sig := 29
abbrev cc3_sem2_0 : DmaSem sig := 30
abbrev cc3_sem3_0 : DmaSem sig := 31
abbrev cc3_sem3_1 : DmaSem sig := 32

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x12 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x12 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x12 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x12 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x1 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S4000x1 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S_S40000 : S_.BroadcastsInDim S40000 (![] : Fin 0 → Fin S40000.rank)
  bcast_S640000_S640000x1_0 : S640000.BroadcastsInDim S640000x1 (![0] : Fin 1 → Fin S640000x1.rank)
  bcast_S40000_S40000x1_0 : S40000.BroadcastsInDim S40000x1 (![0] : Fin 1 → Fin S40000x1.rank)
  bcast_S_S40000x12 : S_.BroadcastsInDim S40000x12 (![] : Fin 0 → Fin S40000x12.rank)
  bcast_S40000x1_S40000x12_0_1 : S40000x1.BroadcastsInDim S40000x12 (![0, 1] : Fin 2 → Fin S40000x12.rank)
  shapeCasts_S128_S1x128 : S128.ShapeCasts S1x128
  inb_S2000x12_S2000x12_0_0 : ∀ a, (![0, 0] : Fin 2 → Nat) a + S2000x12.size a ≤ S2000x12.size a
  h_S2000x12 : 0 < S2000x12.numel
  shapeCasts_S2000x12_S2000x12 : S2000x12.ShapeCasts S2000x12
  bitsLt_bf16_f32 : FTy.bits .bf16 < FTy.bits .f32
  inb_S128x12_S128x12_0_0 : ∀ a, (![0, 0] : Fin 2 → Nat) a + S128x12.size a ≤ S128x12.size a
  h_S128x12 : 0 < S128x12.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S2000x128_S2000x128_0_0 : ∀ a, (![0, 0] : Fin 2 → Nat) a + S2000x128.size a ≤ S2000x128.size a
  h_S2000x128 : 0 < S2000x128.numel
  bcast_S_S40000x128 : S_.BroadcastsInDim S40000x128 (![] : Fin 0 → Fin S40000x128.rank)
  bcast_S40000x1_S40000x128_0_1 : S40000x1.BroadcastsInDim S40000x128 (![0, 1] : Fin 2 → Fin S40000x128.rank)
  shapeCasts_S2000x128_S2000x128 : S2000x128.ShapeCasts S2000x128
  inb_S128x128_S128x128_0_0 : ∀ a, (![0, 0] : Fin 2 → Nat) a + S128x128.size a ≤ S128x128.size a
  h_S128x128 : 0 < S128x128.numel
  shapeCasts_S1_S1x1 : S1.ShapeCasts S1x1
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x128_S4000x128 : S1x128.Broadcasts S4000x128
  reduces_S4000x128_S4000 : S4000x128.Reduces [1] S4000
  shapeCasts_S4000_S4000x1 : S4000.ShapeCasts S4000x1
  broadcasts_S1x1_S4000x1 : S1x1.Broadcasts S4000x1
  inb_S4000x1_S4000x1_0_0 : ∀ a, (![0, 0] : Fin 2 → Nat) a + S4000x1.size a ≤ S4000x1.size a
  h_S4000x1 : 0 < S4000x1.numel
  scatter_S40000_S640000x1_S640000_n_0_0_1_wf : ScatterDims.WF S40000 S640000x1 S640000 [] [0] [0] 1
  gather_S40000x12_S640000x1_S640000x12_1_0_n_n_0_1_112_wf : GatherDims.WF S40000x12 S640000x1 S640000x12 [1] [0] [] [0] [] 1 ![1, 12]
  scatter_S40000x12_S640000x1_S640000x12_1_0_0_1_wf : ScatterDims.WF S40000x12 S640000x1 S640000x12 [1] [0] [0] 1
  dot_S2000x12_S128x12_S2000x128_1_1_0_0_n_n_wf : DotDims.WF S2000x12 S128x12 S2000x128 [1] [1] [0] [0] [] []
  gather_S40000x128_S640000x1_S640000x128_1_0_n_n_0_1_1128_wf : GatherDims.WF S40000x128 S640000x1 S640000x128 [1] [0] [] [0] [] 1 ![1, 128]
  scatter_S40000x128_S640000x1_S640000x128_1_0_0_1_wf : ScatterDims.WF S40000x128 S640000x1 S640000x128 [1] [0] [0] 1
  dot_S2000x128_S128x128_S2000x128_1_1_0_0_n_n_wf : DotDims.WF S2000x128 S128x128 S2000x128 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x12.size a ≤ S40000x12.size a
  hwx0_0 : ∀ i : grid0.Coords, EltTy.bits .f32 = 32 ∨ (Rect.block (s := S40000x12) S2000x12.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x12.size a ≤ S40000x12.size a
  hwx0_1 : ∀ i : grid0.Coords, EltTy.bits .f32 = 32 ∨ (Rect.block (s := S40000x12) S2000x12.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x12.size a ≤ S128x12.size a
  hwx0_2 : ∀ i : grid0.Coords, EltTy.bits .f32 = 32 ∨ (Rect.block (s := S128x12) S128x12.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x12.size a ≤ S128x12.size a
  hwx0_4 : ∀ i : grid0.Coords, EltTy.bits .f32 = 32 ∨ (Rect.block (s := S128x12) S128x12.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S40000x128.size a
  hwx0_5 : ∀ i : grid0.Coords, EltTy.bits .f32 = 32 ∨ (Rect.block (s := S40000x128) S2000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S40000x128.size a
  hwx1_0 : ∀ i : grid1.Coords, EltTy.bits .f32 = 32 ∨ (Rect.block (s := S40000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S40000x128.size a
  hwx1_1 : ∀ i : grid1.Coords, EltTy.bits .f32 = 32 ∨ (Rect.block (s := S40000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S40000x128.size a
  hwx1_5 : ∀ i : grid1.Coords, EltTy.bits .f32 = 32 ∨ (Rect.block (s := S40000x128) S2000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S40000x128.size a
  hwx2_0 : ∀ i : grid2.Coords, EltTy.bits .f32 = 32 ∨ (Rect.block (s := S40000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S40000x128.size a
  hwx2_1 : ∀ i : grid2.Coords, EltTy.bits .f32 = 32 ∨ (Rect.block (s := S40000x128) S2000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x128.size a ≤ S40000x128.size a
  hwx2_5 : ∀ i : grid2.Coords, EltTy.bits .f32 = 32 ∨ (Rect.block (s := S40000x128) S2000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x128.size a ≤ S40000x128.size a
  hwx3_0 : ∀ i : grid3.Coords, EltTy.bits .f32 = 32 ∨ (Rect.block (s := S40000x128) S4000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x1.size a ≤ S1x1.size a
  hwx3_2 : ∀ i : grid3.Coords, EltTy.bits .f32 = 32 ∨ (Rect.block (s := S1x1) S1x1.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S4000x1.size a ≤ S40000x1.size a
  hwx3_3 : ∀ i : grid3.Coords, EltTy.bits .f32 = 32 ∨ (Rect.block (s := S40000x1) S4000x1.size (cc3_transform_3 i) (hinb3_3 i)).WholeWords (EltTy.packing .f32)

variable [Facts₀]

def scatter_S40000_S640000x1_S640000_n_0_0_1 : ScatterDims S40000 S640000x1 S640000 where
  updateWindowDims := []
  insertedWindowDims := [0]
  scatterDimsToOperandDims := [0]
  indexVectorDim := 1
  wf := scatter_S40000_S640000x1_S640000_n_0_0_1_wf
def gather_S40000x12_S640000x1_S640000x12_1_0_n_n_0_1_112 : GatherDims S40000x12 S640000x1 S640000x12 where
  offsetDims := [1]
  collapsedSliceDims := [0]
  operandBatchingDims := []
  startIndicesBatchingDims := []
  startIndexMap := [0]
  indexVectorDim := 1
  sliceSizes := ![1, 12]
  wf := gather_S40000x12_S640000x1_S640000x12_1_0_n_n_0_1_112_wf
def scatter_S40000x12_S640000x1_S640000x12_1_0_0_1 : ScatterDims S40000x12 S640000x1 S640000x12 where
  updateWindowDims := [1]
  insertedWindowDims := [0]
  scatterDimsToOperandDims := [0]
  indexVectorDim := 1
  wf := scatter_S40000x12_S640000x1_S640000x12_1_0_0_1_wf
def dot_S2000x12_S128x12_S2000x128_1_1_0_0_n_n : DotDims S2000x12 S128x12 S2000x128 where
  lhsContracting := [1]
  rhsContracting := [1]
  lhsNonContracting := [0]
  rhsNonContracting := [0]
  lhsBatch := []
  rhsBatch := []
  wf := dot_S2000x12_S128x12_S2000x128_1_1_0_0_n_n_wf
def gather_S40000x128_S640000x1_S640000x128_1_0_n_n_0_1_1128 : GatherDims S40000x128 S640000x1 S640000x128 where
  offsetDims := [1]
  collapsedSliceDims := [0]
  operandBatchingDims := []
  startIndicesBatchingDims := []
  startIndexMap := [0]
  indexVectorDim := 1
  sliceSizes := ![1, 128]
  wf := gather_S40000x128_S640000x1_S640000x128_1_0_n_n_0_1_1128_wf
def scatter_S40000x128_S640000x1_S640000x128_1_0_0_1 : ScatterDims S40000x128 S640000x1 S640000x128 where
  updateWindowDims := [1]
  insertedWindowDims := [0]
  scatterDimsToOperandDims := [0]
  indexVectorDim := 1
  wf := scatter_S40000x128_S640000x1_S640000x128_1_0_0_1_wf
def dot_S2000x128_S128x128_S2000x128_1_1_0_0_n_n : DotDims S2000x128 S128x128 S2000x128 where
  lhsContracting := [1]
  rhsContracting := [1]
  lhsNonContracting := [0]
  rhsNonContracting := [0]
  lhsBatch := []
  rhsBatch := []
  wf := dot_S2000x128_S128x128_S2000x128_1_1_0_0_n_n_wf

abbrev win0_0 : Pipeline.Window sig grid0 :=
  Pipeline.Window.ofSpec (Memref.whole main_v23) S2000x12.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x12.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x12.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v24) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x12.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v25) S2000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v37) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v25) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v38) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v39) S2000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v51) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v39) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg8) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v52) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg10) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v53) S2000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v53) S4000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg11) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v54) S1x1.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v55) S4000x1.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S40000x12 : Shape := ⟨2, ![40000, 12]⟩
abbrev S2x640000 : Shape := ⟨2, ![2, 640000]⟩
abbrev S128x12 : Shape := ⟨2, ![128, 12]⟩
abbrev S128 : Shape := ⟨1, ![128]⟩
abbrev S128x128 : Shape := ⟨2, ![128, 128]⟩
abbrev S1x128 : Shape := ⟨2, ![1, 128]⟩
abbrev S1 : Shape := ⟨1, ![1]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x12 : Shape := ⟨2, ![640000, 12]⟩
abbrev S40000 : Shape := ⟨1, ![40000]⟩
abbrev S40000x1 : Shape := ⟨2, ![40000, 1]⟩
abbrev S12x128 : Shape := ⟨2, ![12, 128]⟩
abbrev S40000x128 : Shape := ⟨2, ![40000, 128]⟩
abbrev S640000x128 : Shape := ⟨2, ![640000, 128]⟩
abbrev S128x1 : Shape := ⟨2, ![128, 1]⟩
abbrev S1x1 : Shape := ⟨2, ![1, 1]⟩

abbrev nBuf : Space → Nat
  | .hbm => 169
  | .vmem => 0
  | .smem => 0
  | _ => 0

abbrev hbmTy0_0 (i : Nat) : BufTy := match i % 128 with
  | 0 => ⟨S40000x12, .f32⟩
  | 1 => ⟨S2x640000, .i32⟩
  | 2 => ⟨S128x12, .f32⟩
  | 3 => ⟨S128, .f32⟩
  | 4 => ⟨S128x12, .f32⟩
  | 5 => ⟨S128x128, .f32⟩
  | 6 => ⟨S128, .f32⟩
  | 7 => ⟨S128x128, .f32⟩
  | 8 => ⟨S128x128, .f32⟩
  | 9 => ⟨S128, .f32⟩
  | 10 => ⟨S128x128, .f32⟩
  | 11 => ⟨S1x128, .f32⟩
  | 12 => ⟨S1, .f32⟩
  | 13 => ⟨S1x640000, .i32⟩
  | 14 => ⟨S640000, .i32⟩
  | 15 => ⟨S1x640000, .i32⟩
  | 16 => ⟨S640000, .i32⟩
  | 17 => ⟨S_, .i32⟩
  | 18 => ⟨S640000, .i32⟩
  | 19 => ⟨S640000, .i1⟩
  | 20 => ⟨S_, .i32⟩
  | 21 => ⟨S640000, .i32⟩
  | 22 => ⟨S640000, .i32⟩
  | 23 => ⟨S640000, .i32⟩
  | 24 => ⟨S640000x1, .i32⟩
  | 25 => ⟨S640000x12, .f32⟩
  | 26 => ⟨S_, .f32⟩
  | 27 => ⟨S40000x12, .f32⟩
  | 28 => ⟨S640000x1, .i32⟩
  | 29 => ⟨S40000x12, .f32⟩
  | 30 => ⟨S_, .f32⟩
  | 31 => ⟨S640000, .f32⟩
  | 32 => ⟨S_, .f32⟩
  | 33 => ⟨S40000, .f32⟩
  | 34 => ⟨S640000x1, .i32⟩
  | 35 => ⟨S40000, .f32⟩
  | 36 => ⟨S_, .f32⟩
  | 37 => ⟨S_, .f32⟩
  | 38 => ⟨S40000, .f32⟩
  | 39 => ⟨S40000, .f32⟩
  | 40 => ⟨S40000x1, .f32⟩
  | 41 => ⟨S40000x12, .f32⟩
  | 42 => ⟨S40000x12, .f32⟩
  | 43 => ⟨S12x128, .f32⟩
  | 44 => ⟨S40000x128, .f32⟩
  | 45 => ⟨S1x128, .f32⟩
  | 46 => ⟨S40000x128, .f32⟩
  | 47 => ⟨S40000x128, .f32⟩
  | 48 => ⟨S12x128, .f32⟩
  | 49 => ⟨S40000x128, .f32⟩
  | 50 => ⟨S40000x128, .f32⟩
  | 51 => ⟨S_, .f32⟩
  | 52 => ⟨S40000x128, .f32⟩
  | 53 => ⟨S40000x128, .i1⟩
  | 54 => ⟨S_, .f32⟩
  | 55 => ⟨S40000x128, .f32⟩
  | 56 => ⟨S40000x128, .i1⟩
  | 57 => ⟨S_, .f32⟩
  | 58 => ⟨S_, .f32⟩
  | 59 => ⟨S40000x128, .f32⟩
  | 60 => ⟨S40000x128, .f32⟩
  | 61 => ⟨S40000x128, .f32⟩
  | 62 => ⟨S_, .f32⟩
  | 63 => ⟨S40000x128, .f32⟩
  | 64 => ⟨S40000x128, .f32⟩
  | 65 => ⟨S40000x128, .f32⟩
  | 66 => ⟨S_, .i32⟩
  | 67 => ⟨S640000, .i32⟩
  | 68 => ⟨S640000, .i1⟩
  | 69 => ⟨S_, .i32⟩
  | 70 => ⟨S640000, .i32⟩
  | 71 => ⟨S640000, .i32⟩
  | 72 => ⟨S640000, .i32⟩
  | 73 => ⟨S640000x1, .i32⟩
  | 74 => ⟨S640000x128, .f32⟩
  | 75 => ⟨S_, .f32⟩
  | 76 => ⟨S40000x128, .f32⟩
  | 77 => ⟨S640000x1, .i32⟩
  | 78 => ⟨S40000x128, .f32⟩
  | 79 => ⟨S_, .f32⟩
  | 80 => ⟨S640000, .f32⟩
  | 81 => ⟨S_, .f32⟩
  | 82 => ⟨S40000, .f32⟩
  | 83 => ⟨S640000x1, .i32⟩
  | 84 => ⟨S40000, .f32⟩
  | 85 => ⟨S_, .f32⟩
  | 86 => ⟨S_, .f32⟩
  | 87 => ⟨S40000, .f32⟩
  | 88 => ⟨S40000, .f32⟩
  | 89 => ⟨S40000x1, .f32⟩
  | 90 => ⟨S40000x128, .f32⟩
  | 91 => ⟨S40000x128, .f32⟩
  | 92 => ⟨S128x128, .f32⟩
  | 93 => ⟨S40000x128, .f32⟩
  | 94 => ⟨S1x128, .f32⟩
  | 95 => ⟨S40000x128, .f32⟩
  | 96 => ⟨S40000x128, .f32⟩
  | 97 => ⟨S128x128, .f32⟩
  | 98 => ⟨S40000x128, .f32⟩
  | 99 => ⟨S40000x128, .f32⟩
  | 100 => ⟨S_, .f32⟩
  | 101 => ⟨S40000x128, .f32⟩
  | 102 => ⟨S40000x128, .i1⟩
  | 103 => ⟨S_, .f32⟩
  | 104 => ⟨S40000x128, .f32⟩
  | 105 => ⟨S40000x128, .i1⟩
  | 106 => ⟨S_, .f32⟩
  | 107 => ⟨S_, .f32⟩
  | 108 => ⟨S40000x128, .f32⟩
  | 109 => ⟨S40000x128, .f32⟩
  | 110 => ⟨S40000x128, .f32⟩
  | 111 => ⟨S_, .f32⟩
  | 112 => ⟨S40000x128, .f32⟩
  | 113 => ⟨S40000x128, .f32⟩
  | 114 => ⟨S40000x128, .f32⟩
  | 115 => ⟨S_, .i32⟩
  | 116 => ⟨S640000, .i32⟩
  | 117 => ⟨S640000, .i1⟩
  | 118 => ⟨S_, .i32⟩
  | 119 => ⟨S640000, .i32⟩
  | 120 => ⟨S640000, .i32⟩
  | 121 => ⟨S640000, .i32⟩
  | 122 => ⟨S640000x1, .i32⟩
  | 123 => ⟨S640000x128, .f32⟩
  | 124 => ⟨S_, .f32⟩
  | 125 => ⟨S40000x128, .f32⟩
  | 126 => ⟨S640000x1, .i32⟩
  | 127 => ⟨S40000x128, .f32⟩
  | _ => ⟨S40000x12, .f32⟩

abbrev hbmTy0_1 (i : Nat) : BufTy := match i % 128 with
  | 0 => ⟨S_, .f32⟩
  | 1 => ⟨S640000, .f32⟩
  | 2 => ⟨S_, .f32⟩
  | 3 => ⟨S40000, .f32⟩
  | 4 => ⟨S640000x1, .i32⟩
  | 5 => ⟨S40000, .f32⟩
  | 6 => ⟨S_, .f32⟩
  | 7 => ⟨S_, .f32⟩
  | 8 => ⟨S40000, .f32⟩
  | 9 => ⟨S40000, .f32⟩
  | 10 => ⟨S40000x1, .f32⟩
  | 11 => ⟨S40000x128, .f32⟩
  | 12 => ⟨S40000x128, .f32⟩
  | 13 => ⟨S128x128, .f32⟩
  | 14 => ⟨S40000x128, .f32⟩
  | 15 => ⟨S1x128, .f32⟩
  | 16 => ⟨S40000x128, .f32⟩
  | 17 => ⟨S40000x128, .f32⟩
  | 18 => ⟨S128x128, .f32⟩
  | 19 => ⟨S40000x128, .f32⟩
  | 20 => ⟨S40000x128, .f32⟩
  | 21 => ⟨S_, .f32⟩
  | 22 => ⟨S40000x128, .f32⟩
  | 23 => ⟨S40000x128, .i1⟩
  | 24 => ⟨S_, .f32⟩
  | 25 => ⟨S40000x128, .f32⟩
  | 26 => ⟨S40000x128, .i1⟩
  | 27 => ⟨S_, .f32⟩
  | 28 => ⟨S_, .f32⟩
  | 29 => ⟨S40000x128, .f32⟩
  | 30 => ⟨S40000x128, .f32⟩
  | 31 => ⟨S40000x128, .f32⟩
  | 32 => ⟨S_, .f32⟩
  | 33 => ⟨S40000x128, .f32⟩
  | 34 => ⟨S40000x128, .f32⟩
  | 35 => ⟨S40000x128, .f32⟩
  | 36 => ⟨S128x1, .f32⟩
  | 37 => ⟨S40000x1, .f32⟩
  | 38 => ⟨S1x1, .f32⟩
  | 39 => ⟨S40000x1, .f32⟩
  | 40 => ⟨S40000x1, .f32⟩
  | _ => ⟨S40000x12, .f32⟩

abbrev hbmTy (i : Nat) : BufTy := match i / 128 with
  | 0 => hbmTy0_0 i
  | 1 => hbmTy0_1 i
  | _ => ⟨S40000x12, .f32⟩

abbrev bufTy : (tb : Table) → Fin (tcTables nBuf tb) → BufTy
  | .hbm, ⟨i, _⟩ => hbmTy i
  | _, _ => ⟨S40000x12, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_1 : Ref sig .tc := ⟨.hbm, 30, rfl⟩
abbrev main_v14 : Ref sig .tc := ⟨.hbm, 31, rfl⟩
abbrev main_cst_2 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_cst_3 : Ref sig .tc := ⟨.hbm, 36, rfl⟩
abbrev main_call0_v0 : Ref sig .tc := ⟨.hbm, 37, rfl⟩
abbrev main_call0_v1 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_call1_cst : Ref sig .tc := ⟨.hbm, 51, rfl⟩
abbrev main_call1_v0 : Ref sig .tc := ⟨.hbm, 52, rfl⟩
abbrev main_call1_v1 : Ref sig .tc := ⟨.hbm, 53, rfl⟩
abbrev main_call1_cst_0 : Ref sig .tc := ⟨.hbm, 54, rfl⟩
abbrev main_call1_v2 : Ref sig .tc := ⟨.hbm, 55, rfl⟩
abbrev main_call1_v3 : Ref sig .tc := ⟨.hbm, 56, rfl⟩
abbrev main_call1_cst_1 : Ref sig .tc := ⟨.hbm, 57, rfl⟩
abbrev main_call1_call0_v0 : Ref sig .tc := ⟨.hbm, 58, rfl⟩
abbrev main_call1_call0_v1 : Ref sig .tc := ⟨.hbm, 59, rfl⟩
abbrev main_call1_v4 : Ref sig .tc := ⟨.hbm, 60, rfl⟩
abbrev main_call1_v5 : Ref sig .tc := ⟨.hbm, 61, rfl⟩
abbrev main_call1_cst_2 : Ref sig .tc := ⟨.hbm, 62, rfl⟩
abbrev main_call1_v6 : Ref sig .tc := ⟨.hbm, 63, rfl⟩
abbrev main_call1_v7 : Ref sig .tc := ⟨.hbm, 64, rfl⟩
abbrev main_v30 : Ref sig .tc := ⟨.hbm, 65, rfl⟩
abbrev main_c_4 : Ref sig .tc := ⟨.hbm, 66, rfl⟩
abbrev main_v31 : Ref sig .tc := ⟨.hbm, 67, rfl⟩
abbrev main_v32 : Ref sig .tc := ⟨.hbm, 68, rfl⟩
abbrev main_c_5 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_cst_6 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_cst_7 : Ref sig .tc := ⟨.hbm, 79, rfl⟩
abbrev main_v41 : Ref sig .tc := ⟨.hbm, 80, rfl⟩
abbrev main_cst_8 : Ref sig .tc := ⟨.hbm, 81, rfl⟩
abbrev main_v42 : Ref sig .tc := ⟨.hbm, 82, rfl⟩
abbrev main_v43 : Ref sig .tc := ⟨.hbm, 83, rfl⟩
abbrev main_v44 : Ref sig .tc := ⟨.hbm, 84, rfl⟩
abbrev main_cst_9 : Ref sig .tc := ⟨.hbm, 85, rfl⟩
abbrev main_call2_v0 : Ref sig .tc := ⟨.hbm, 86, rfl⟩
abbrev main_call2_v1 : Ref sig .tc := ⟨.hbm, 87, rfl⟩
abbrev main_v45 : Ref sig .tc := ⟨.hbm, 88, rfl⟩
abbrev main_v46 : Ref sig .tc := ⟨.hbm, 89, rfl⟩
abbrev main_v47 : Ref sig .tc := ⟨.hbm, 90, rfl⟩
abbrev main_v48 : Ref sig .tc := ⟨.hbm, 91, rfl⟩
abbrev main_v49 : Ref sig .tc := ⟨.hbm, 92, rfl⟩
abbrev main_v50 : Ref sig .tc := ⟨.hbm, 93, rfl⟩
abbrev main_v51 : Ref sig .tc := ⟨.hbm, 94, rfl⟩
abbrev main_v52 : Ref sig .tc := ⟨.hbm, 95, rfl⟩
abbrev main_v53 : Ref sig .tc := ⟨.hbm, 96, rfl⟩
abbrev main_v54 : Ref sig .tc := ⟨.hbm, 97, rfl⟩
abbrev main_v55 : Ref sig .tc := ⟨.hbm, 98, rfl⟩
abbrev main_v56 : Ref sig .tc := ⟨.hbm, 99, rfl⟩
abbrev main_call3_cst : Ref sig .tc := ⟨.hbm, 100, rfl⟩
abbrev main_call3_v0 : Ref sig .tc := ⟨.hbm, 101, rfl⟩
abbrev main_call3_v1 : Ref sig .tc := ⟨.hbm, 102, rfl⟩
abbrev main_call3_cst_0 : Ref sig .tc := ⟨.hbm, 103, rfl⟩
abbrev main_call3_v2 : Ref sig .tc := ⟨.hbm, 104, rfl⟩
abbrev main_call3_v3 : Ref sig .tc := ⟨.hbm, 105, rfl⟩
abbrev main_call3_cst_1 : Ref sig .tc := ⟨.hbm, 106, rfl⟩
abbrev main_call3_call0_v0 : Ref sig .tc := ⟨.hbm, 107, rfl⟩
abbrev main_call3_call0_v1 : Ref sig .tc := ⟨.hbm, 108, rfl⟩
abbrev main_call3_v4 : Ref sig .tc := ⟨.hbm, 109, rfl⟩
abbrev main_call3_v5 : Ref sig .tc := ⟨.hbm, 110, rfl⟩
abbrev main_call3_cst_2 : Ref sig .tc := ⟨.hbm, 111, rfl⟩
abbrev main_call3_v6 : Ref sig .tc := ⟨.hbm, 112, rfl⟩
abbrev main_call3_v7 : Ref sig .tc := ⟨.hbm, 113, rfl⟩
abbrev main_v57 : Ref sig .tc := ⟨.hbm, 114, rfl⟩
abbrev main_c_10 : Ref sig .tc := ⟨.hbm, 115, rfl⟩
abbrev main_v58 : Ref sig .tc := ⟨.hbm, 116, rfl⟩
abbrev main_v59 : Ref sig .tc := ⟨.hbm, 117, rfl⟩
abbrev main_c_11 : Ref sig .tc := ⟨.hbm, 118, rfl⟩
abbrev main_v60 : Ref sig .tc := ⟨.hbm, 119, rfl⟩
abbrev main_v61 : Ref sig .tc := ⟨.hbm, 120, rfl⟩
abbrev main_v62 : Ref sig .tc := ⟨.hbm, 121, rfl⟩
abbrev main_v63 : Ref sig .tc := ⟨.hbm, 122, rfl⟩
abbrev main_v64 : Ref sig .tc := ⟨.hbm, 123, rfl⟩
abbrev main_cst_12 : Ref sig .tc := ⟨.hbm, 124, rfl⟩
abbrev main_v65 : Ref sig .tc := ⟨.hbm, 125, rfl⟩
abbrev main_v66 : Ref sig .tc := ⟨.hbm, 126, rfl⟩
abbrev main_v67 : Ref sig .tc := ⟨.hbm, 127, rfl⟩
abbrev main_cst_13 : Ref sig .tc := ⟨.hbm, 128, rfl⟩
abbrev main_v68 : Ref sig .tc := ⟨.hbm, 129, rfl⟩
abbrev main_cst_14 : Ref sig .tc := ⟨.hbm, 130, rfl⟩
abbrev main_v69 : Ref sig .tc := ⟨.hbm, 131, rfl⟩
abbrev main_v70 : Ref sig .tc := ⟨.hbm, 132, rfl⟩
abbrev main_v71 : Ref sig .tc := ⟨.hbm, 133, rfl⟩
abbrev main_cst_15 : Ref sig .tc := ⟨.hbm, 134, rfl⟩
abbrev main_call4_v0 : Ref sig .tc := ⟨.hbm, 135, rfl⟩
abbrev main_call4_v1 : Ref sig .tc := ⟨.hbm, 136, rfl⟩
abbrev main_v72 : Ref sig .tc := ⟨.hbm, 137, rfl⟩
abbrev main_v73 : Ref sig .tc := ⟨.hbm, 138, rfl⟩
abbrev main_v74 : Ref sig .tc := ⟨.hbm, 139, rfl⟩
abbrev main_v75 : Ref sig .tc := ⟨.hbm, 140, rfl⟩
abbrev main_v76 : Ref sig .tc := ⟨.hbm, 141, rfl⟩
abbrev main_v77 : Ref sig .tc := ⟨.hbm, 142, rfl⟩
abbrev main_v78 : Ref sig .tc := ⟨.hbm, 143, rfl⟩
abbrev main_v79 : Ref sig .tc := ⟨.hbm, 144, rfl⟩
abbrev main_v80 : Ref sig .tc := ⟨.hbm, 145, rfl⟩
abbrev main_v81 : Ref sig .tc := ⟨.hbm, 146, rfl⟩
abbrev main_v82 : Ref sig .tc := ⟨.hbm, 147, rfl⟩
abbrev main_v83 : Ref sig .tc := ⟨.hbm, 148, rfl⟩
abbrev main_call5_cst : Ref sig .tc := ⟨.hbm, 149, rfl⟩
abbrev main_call5_v0 : Ref sig .tc := ⟨.hbm, 150, rfl⟩
abbrev main_call5_v1 : Ref sig .tc := ⟨.hbm, 151, rfl⟩
abbrev main_call5_cst_0 : Ref sig .tc := ⟨.hbm, 152, rfl⟩
abbrev main_call5_v2 : Ref sig .tc := ⟨.hbm, 153, rfl⟩
abbrev main_call5_v3 : Ref sig .tc := ⟨.hbm, 154, rfl⟩
abbrev main_call5_cst_1 : Ref sig .tc := ⟨.hbm, 155, rfl⟩
abbrev main_call5_call0_v0 : Ref sig .tc := ⟨.hbm, 156, rfl⟩
abbrev main_call5_call0_v1 : Ref sig .tc := ⟨.hbm, 157, rfl⟩
abbrev main_call5_v4 : Ref sig .tc := ⟨.hbm, 158, rfl⟩
abbrev main_call5_v5 : Ref sig .tc := ⟨.hbm, 159, rfl⟩
abbrev main_call5_cst_2 : Ref sig .tc := ⟨.hbm, 160, rfl⟩
abbrev main_call5_v6 : Ref sig .tc := ⟨.hbm, 161, rfl⟩
abbrev main_call5_v7 : Ref sig .tc := ⟨.hbm, 162, rfl⟩
abbrev main_v84 : Ref sig .tc := ⟨.hbm, 163, rfl⟩
abbrev main_v85 : Ref sig .tc := ⟨.hbm, 164, rfl⟩
abbrev main_v86 : Ref sig .tc := ⟨.hbm, 165, rfl⟩
abbrev main_v87 : Ref sig .tc := ⟨.hbm, 166, rfl⟩
abbrev main_v88 : Ref sig .tc := ⟨.hbm, 167, rfl⟩
abbrev main_v89 : Ref sig .tc := ⟨.hbm, 168, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S_S40000x12 : S_.BroadcastsInDim S40000x12 (![] : Fin 0 → Fin S40000x12.rank)
  bcast_S_S40000 : S_.BroadcastsInDim S40000 (![] : Fin 0 → Fin S40000.rank)
  bcast_S40000_S40000x1_0 : S40000.BroadcastsInDim S40000x1 (![0] : Fin 1 → Fin S40000x1.rank)
  bcast_S40000x1_S40000x12_0_1 : S40000x1.BroadcastsInDim S40000x12 (![0, 1] : Fin 2 → Fin S40000x12.rank)
  transposes_S128x12_S12x128_1_0 : S128x12.Transposes [1, 0] S12x128
  bcast_S128_S1x128_1 : S128.BroadcastsInDim S1x128 (![1] : Fin 1 → Fin S1x128.rank)
  bcast_S1x128_S40000x128_0_1 : S1x128.BroadcastsInDim S40000x128 (![0, 1] : Fin 2 → Fin S40000x128.rank)
  bcast_S_S40000x128 : S_.BroadcastsInDim S40000x128 (![] : Fin 0 → Fin S40000x128.rank)
  bcast_S40000x1_S40000x128_0_1 : S40000x1.BroadcastsInDim S40000x128 (![0, 1] : Fin 2 → Fin S40000x128.rank)
  transposes_S128x128_S128x128_1_0 : S128x128.Transposes [1, 0] S128x128
  transposes_S1x128_S128x1_1_0 : S1x128.Transposes [1, 0] S128x1
  bcast_S1_S1x1_1 : S1.BroadcastsInDim S1x1 (![1] : Fin 1 → Fin S1x1.rank)
  bcast_S1x1_S40000x1_0_1 : S1x1.BroadcastsInDim S40000x1 (![0, 1] : Fin 2 → Fin S40000x1.rank)
  gather_S40000x12_S640000x1_S640000x12_1_0_n_n_0_1_112_wf : GatherDims.WF S40000x12 S640000x1 S640000x12 [1] [0] [] [0] [] 1 ![1, 12]
  scatter_S40000x12_S640000x1_S640000x12_1_0_0_1_wf : ScatterDims.WF S40000x12 S640000x1 S640000x12 [1] [0] [0] 1
  scatter_S40000_S640000x1_S640000_n_0_0_1_wf : ScatterDims.WF S40000 S640000x1 S640000 [] [0] [0] 1
  dot_S40000x12_S12x128_S40000x128_1_0_0_1_n_n_wf : DotDims.WF S40000x12 S12x128 S40000x128 [1] [0] [0] [1] [] []
  gather_S40000x128_S640000x1_S640000x128_1_0_n_n_0_1_1128_wf : GatherDims.WF S40000x128 S640000x1 S640000x128 [1] [0] [] [0] [] 1 ![1, 128]
  scatter_S40000x128_S640000x1_S640000x128_1_0_0_1_wf : ScatterDims.WF S40000x128 S640000x1 S640000x128 [1] [0] [0] 1
  dot_S40000x128_S128x128_S40000x128_1_0_0_1_n_n_wf : DotDims.WF S40000x128 S128x128 S40000x128 [1] [0] [0] [1] [] []
  dot_S40000x128_S128x1_S40000x1_1_0_0_1_n_n_wf : DotDims.WF S40000x128 S128x1 S40000x1 [1] [0] [0] [1] [] []

variable [Facts₀]

def gather_S40000x12_S640000x1_S640000x12_1_0_n_n_0_1_112 : GatherDims S40000x12 S640000x1 S640000x12 where
  offsetDims := [1]
  collapsedSliceDims := [0]
  operandBatchingDims := []
  startIndicesBatchingDims := []
  startIndexMap := [0]
  indexVectorDim := 1
  sliceSizes := ![1, 12]
  wf := gather_S40000x12_S640000x1_S640000x12_1_0_n_n_0_1_112_wf
def scatter_S40000x12_S640000x1_S640000x12_1_0_0_1 : ScatterDims S40000x12 S640000x1 S640000x12 where
  updateWindowDims := [1]
  insertedWindowDims := [0]
  scatterDimsToOperandDims := [0]
  indexVectorDim := 1
  wf := scatter_S40000x12_S640000x1_S640000x12_1_0_0_1_wf
def scatter_S40000_S640000x1_S640000_n_0_0_1 : ScatterDims S40000 S640000x1 S640000 where
  updateWindowDims := []
  insertedWindowDims := [0]
  scatterDimsToOperandDims := [0]
  indexVectorDim := 1
  wf := scatter_S40000_S640000x1_S640000_n_0_0_1_wf
def dot_S40000x12_S12x128_S40000x128_1_0_0_1_n_n : DotDims S40000x12 S12x128 S40000x128 where
  lhsContracting := [1]
  rhsContracting := [0]
  lhsNonContracting := [0]
  rhsNonContracting := [1]
  lhsBatch := []
  rhsBatch := []
  wf := dot_S40000x12_S12x128_S40000x128_1_0_0_1_n_n_wf
def gather_S40000x128_S640000x1_S640000x128_1_0_n_n_0_1_1128 : GatherDims S40000x128 S640000x1 S640000x128 where
  offsetDims := [1]
  collapsedSliceDims := [0]
  operandBatchingDims := []
  startIndicesBatchingDims := []
  startIndexMap := [0]
  indexVectorDim := 1
  sliceSizes := ![1, 128]
  wf := gather_S40000x128_S640000x1_S640000x128_1_0_n_n_0_1_1128_wf
def scatter_S40000x128_S640000x1_S640000x128_1_0_0_1 : ScatterDims S40000x128 S640000x1 S640000x128 where
  updateWindowDims := [1]
  insertedWindowDims := [0]
  scatterDimsToOperandDims := [0]
  indexVectorDim := 1
  wf := scatter_S40000x128_S640000x1_S640000x128_1_0_0_1_wf
def dot_S40000x128_S128x128_S40000x128_1_0_0_1_n_n : DotDims S40000x128 S128x128 S40000x128 where
  lhsContracting := [1]
  rhsContracting := [0]
  lhsNonContracting := [0]
  rhsNonContracting := [1]
  lhsBatch := []
  rhsBatch := []
  wf := dot_S40000x128_S128x128_S40000x128_1_0_0_1_n_n_wf
def dot_S40000x128_S128x1_S40000x1_1_0_0_1_n_n : DotDims S40000x128 S128x1 S40000x1 where
  lhsContracting := [1]
  rhsContracting := [0]
  lhsNonContracting := [0]
  rhsNonContracting := [1]
  lhsBatch := []
  rhsBatch := []
  wf := dot_S40000x128_S128x1_S40000x1_1_0_0_1_n_n_wf

class Facts : Prop extends Facts₀ where

variable [Facts]
-- ==== Proof.KRun.lean ====
/- The kernel program's run with its result named: every weakly fair execution of @main on the TensorCores
   terminates without a fault; in every final state the result buffer holds what the last region's write-backs
   leave (the last boundary's contents `Gen.W10` at the result's reference) and every argument array is as launched. -/
import proofs.«162061_j5377299055106_1_alg».proof.Proof.Gen.KernelIdeal.Frame

set_option maxRecDepth 16384

noncomputable section

namespace Cert.KernelIdeal.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of the whole program with its value: from any memory with zero counters, every weakly fair execution of
    @main on the TensorCores terminates, nothing faulting, and in every final state the result array is the last
    boundary's contents at the result's reference (what the fourth region's write-backs leave in its output array),
    while each of the thirteen argument arrays holds what it held at launch. -/
theorem run_value : θ_run defs (onTc (τ := τ) (main (F := F))) ⟨m, fun _ => 0, ρ⟩ (fun r => ∀ c : Dev nD,
      r.2.mem ((c.tc : Thread nD τ).loc main_v55) = W10 m ρ c (Proc.devRef .tc main_v55)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v55 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c),
       (h c _ (mem_uc main_arg9 (by decide))).trans (W10_main_arg9 m ρ c),
       (h c _ (mem_uc main_arg10 (by decide))).trans (W10_main_arg10 m ρ c),
       (h c _ (mem_uc main_arg11 (by decide))).trans (W10_main_arg11 m ρ c),
       (h c _ (mem_uc main_arg12 (by decide))).trans (W10_main_arg12 m ρ c)⟩)

end Cert.KernelIdeal.KRun

end
-- ==== Proof.KStretch.lean ====
/- The host stretches of the kernel program, read as values. The computation between the kernel regions is named
   as small functions of the arrays (the wrapped source-node column, the destination-node column, the clipped in-degree,
   its reciprocal as a column, the scatter-add of gathered rows, the mean as that sum times the reciprocal degree), and
   every buffer a region reads on entry is identified, through the fold of buffer contents along @main, with these
   functions of the launch arrays and of the previous region's output array. -/
import proofs.«162061_j5377299055106_1_alg».proof.Proof.Gen.KernelIdeal.Frame
import Idealize.ShloMosaic.Lib.StableHlo.Run

set_option maxRecDepth 16384

noncomputable section

namespace Cert.KernelIdeal.KStretch

open Idealize.ShloMosaic Idealize.ShloMosaic.TcCoe Idealize.SL.Sem
open Idealize.ShloMosaic.StableHlo
open Cert.KernelIdeal Cert.KernelIdeal.Gen

variable {F : FTy → Type} [FloatOps F]

attribute [local irreducible] Host.gather Host.scatterAdd Host.divf

/-! ## The host computation, as functions of arrays -/

/-- Row 0 of the edge list (the source nodes) as a vector of length 640000. -/
def srcRow (e : (⟨S2x640000, .i32⟩ : BufTy).Contents (Elt F)) : (⟨S640000, .i32⟩ : BufTy).Contents (Elt F) :=
  fun i => shapeCast S640000 (extractStridedSlice S1x640000 ![0, 0] e slices_S2x640000_S1x640000_0_0) shapeCasts_S1x640000_S640000 i

/-- Row 1 of the edge list (the destination nodes) as a vector of length 640000. -/
def dstRow (e : (⟨S2x640000, .i32⟩ : BufTy).Contents (Elt F)) : (⟨S640000, .i32⟩ : BufTy).Contents (Elt F) :=
  fun i => shapeCast S640000 (extractStridedSlice S1x640000 ![1, 0] e slices_S2x640000_S1x640000_1_0) shapeCasts_S1x640000_S640000 i

/-- A node vector `s` with negative entries wrapped (`s + 40000` where `s < 0`), as a column [640000,1]. -/
def wrapCol (s : (⟨S640000, .i32⟩ : BufTy).Contents (Elt F)) : (⟨S640000x1, .i32⟩ : BufTy).Contents (Elt F) :=
  broadcastInDim S640000x1 ![0] bcast_S640000_S640000x1_0
    (select (cmpi .slt s (broadcastInDim S640000 ![] bcast_S_S640000 (constantI S_ 32 0#32)))
      (addi s (broadcastInDim S640000 ![] bcast_S_S640000 (constantI S_ 32 40000#32))) s)

/-- A node vector as a column [640000,1]. -/
def col (d : (⟨S640000, .i32⟩ : BufTy).Contents (Elt F)) : (⟨S640000x1, .i32⟩ : BufTy).Contents (Elt F) :=
  broadcastInDim S640000x1 ![0] bcast_S640000_S640000x1_0 d

/-- The gather's index column: the source nodes, wrapped. -/
def srcIdx (e : (⟨S2x640000, .i32⟩ : BufTy).Contents (Elt F)) : (⟨S640000x1, .i32⟩ : BufTy).Contents (Elt F) :=
  wrapCol (srcRow e)

/-- The scatter's index column: the destination nodes. -/
def dstIdx (e : (⟨S2x640000, .i32⟩ : BufTy).Contents (Elt F)) : (⟨S640000x1, .i32⟩ : BufTy).Contents (Elt F) :=
  col (dstRow e)

/-- The clipped in-degree: `max 1 (number of edges into the node)`, the count as a scatter-add of ones into zeros. -/
def degClip (e : (⟨S2x640000, .i32⟩ : BufTy).Contents (Elt F)) : (⟨S40000, .f32⟩ : BufTy).Contents (Elt F) :=
  maximumf (broadcastInDim S40000 ![] bcast_S_S40000 (id (constant (F := F) S_ .f32 0x3F800000#32)))
    (Host.scatterAdd scatter_S40000_S640000x1_S640000_n_0_0_1
      (broadcastInDim S40000 ![] bcast_S_S40000 (constant (F := F) S_ .f32 0x00000000#32)) (dstIdx e)
      (broadcastInDim S640000 ![] bcast_S_S640000 (constant (F := F) S_ .f32 0x3F800000#32)))

/-- The reciprocal of the clipped in-degree, as a column [40000,1]. -/
def invDeg (e : (⟨S2x640000, .i32⟩ : BufTy).Contents (Elt F)) : (⟨S40000x1, .f32⟩ : BufTy).Contents (Elt F) :=
  broadcastInDim S40000x1 ![0] bcast_S40000_S40000x1_0
    (Host.divf (broadcastInDim S40000 ![] bcast_S_S40000 (constant (F := F) S_ .f32 0x3F800000#32)) (degClip e))

/-- The neighbour sum of 12-column rows: the rows gathered at the source nodes, scatter-added at the destination nodes. -/
def agg12 (x : (⟨S40000x12, .f32⟩ : BufTy).Contents (Elt F)) (e : (⟨S2x640000, .i32⟩ : BufTy).Contents (Elt F)) :
    (⟨S40000x12, .f32⟩ : BufTy).Contents (Elt F) :=
  Host.scatterAdd scatter_S40000x12_S640000x1_S640000x12_1_0_0_1
    (broadcastInDim S40000x12 ![] bcast_S_S40000x12 (constant (F := F) S_ .f32 0x00000000#32)) (dstIdx e)
    (Host.gather gather_S40000x12_S640000x1_S640000x12_1_0_n_n_0_1_112 x (srcIdx e))

/-- The neighbour sum of 128-column rows. -/
def agg128 (h : (⟨S40000x128, .f32⟩ : BufTy).Contents (Elt F)) (e : (⟨S2x640000, .i32⟩ : BufTy).Contents (Elt F)) :
    (⟨S40000x128, .f32⟩ : BufTy).Contents (Elt F) :=
  Host.scatterAdd scatter_S40000x128_S640000x1_S640000x128_1_0_0_1
    (broadcastInDim S40000x128 ![] bcast_S_S40000x128 (constant (F := F) S_ .f32 0x00000000#32)) (dstIdx e)
    (Host.gather gather_S40000x128_S640000x1_S640000x128_1_0_n_n_0_1_1128 h (srcIdx e))

/-- The neighbour mean of 12-column rows: the neighbour sum times the reciprocal clipped degree of the row's node. -/
def mean12 (x : (⟨S40000x12, .f32⟩ : BufTy).Contents (Elt F)) (e : (⟨S2x640000, .i32⟩ : BufTy).Contents (Elt F)) :
    (⟨S40000x12, .f32⟩ : BufTy).Contents (Elt F) :=
  mulf (agg12 x e) (broadcastInDim S40000x12 ![0, 1] bcast_S40000x1_S40000x12_0_1 (invDeg e))

/-- The neighbour mean of 128-column rows. -/
def mean128 (h : (⟨S40000x128, .f32⟩ : BufTy).Contents (Elt F)) (e : (⟨S2x640000, .i32⟩ : BufTy).Contents (Elt F)) :
    (⟨S40000x128, .f32⟩ : BufTy).Contents (Elt F) :=
  mulf (agg128 h e) (broadcastInDim S40000x128 ![0, 1] bcast_S40000x1_S40000x128_0_1 (invDeg e))

/-- A bias vector of length 128 as a row [1,128]. -/
def row128 (b : (⟨S128, .f32⟩ : BufTy).Contents (Elt F)) : (⟨S1x128, .f32⟩ : BufTy).Contents (Elt F) :=
  fun i => shapeCast S1x128 b shapeCasts_S128_S1x128 i

/-- A one-element vector as a [1,1] array. -/
def cell1 (b : (⟨S1, .f32⟩ : BufTy).Contents (Elt F)) : (⟨S1x1, .f32⟩ : BufTy).Contents (Elt F) :=
  fun i => shapeCast S1x1 b shapeCasts_S1_S1x1 i

/-! ## What each stretch writes, and that it leaves every other buffer alone -/

/-- A reference in a list is, as a device buffer, in the list's image. -/
theorem sub_of_mem {L : List (Ref sig .tc)} {y : Ref sig .tc} (h : y ∈ L) :
    ({Proc.devRef .tc y} : Finset (DevRef τ sig)) ⊆ (L.map (Proc.devRef (τ := τ) .tc)).toFinset :=
  Finset.singleton_subset_iff.mpr (List.mem_toFinset.mpr (List.mem_map.mpr ⟨y, h, rfl⟩))

/-- The buffers the first stretch writes. -/
def wr0 : List (Ref sig .tc) := [main_v0, main_v1, main_v2, main_v3, main_cst, main_v4, main_cst_0, main_v5, main_v6, main_v7, main_cst_1]
/-- The buffers the degree's clip writes. -/
def wr01 : List (Ref sig .tc) := [main_call0_v0, main_call0_v1, main_v8]
/-- The buffers the stretch before the first region writes. -/
def wr02 : List (Ref sig .tc) := [main_cst_2, main_v9, main_v10, main_v11, main_c, main_v12, main_v13, main_c_3, main_v14, main_v15, main_v16, main_v17, main_v18, main_cst_4, main_v19, main_v20, main_v21, main_v22, main_v23, main_v24]
/-- The buffers the stretch before the second region writes. -/
def wr1 : List (Ref sig .tc) := [main_c_5, main_v26, main_v27, main_c_6, main_v28, main_v29, main_v30, main_v31, main_v32, main_cst_7, main_v33, main_v34, main_v35, main_v36, main_v37, main_v38]
/-- The buffers the stretch before the third region writes. -/
def wr2 : List (Ref sig .tc) := [main_c_8, main_v40, main_v41, main_c_9, main_v42, main_v43, main_v44, main_v45, main_v46, main_cst_10, main_v47, main_v48, main_v49, main_v50, main_v51, main_v52]
/-- The buffer the stretch before the last region writes. -/
def wr3 : List (Ref sig .tc) := [main_v54]

/-- Proves that each operation of a literal stretch writes inside the stretch's list of written buffers. -/
macro "writes_sub" : tactic =>
  `(tactic| (simp only [hostOps0, hostOps0_1, hostOps0_2, hostOps1, hostOps2, hostOps3, List.Forall,
      StableHlo.nullary_writes, StableHlo.unary_writes, StableHlo.binary_writes, StableHlo.ternary_writes, StableHlo.reshape_writes]
             repeat' apply And.intro
             all_goals exact sub_of_mem (by decide)))

theorem hostOps0_writes : (hostOps0 : List (HloOp τ sig (Elt F))).Forall fun op => op.writes ⊆ (wr0.map (Proc.devRef (τ := τ) .tc)).toFinset := by writes_sub
theorem hostOps0_1_writes : (hostOps0_1 : List (HloOp τ sig (Elt F))).Forall fun op => op.writes ⊆ (wr01.map (Proc.devRef (τ := τ) .tc)).toFinset := by writes_sub
theorem hostOps0_2_writes : (hostOps0_2 : List (HloOp τ sig (Elt F))).Forall fun op => op.writes ⊆ (wr02.map (Proc.devRef (τ := τ) .tc)).toFinset := by writes_sub
theorem hostOps1_writes : (hostOps1 : List (HloOp τ sig (Elt F))).Forall fun op => op.writes ⊆ (wr1.map (Proc.devRef (τ := τ) .tc)).toFinset := by writes_sub
theorem hostOps2_writes : (hostOps2 : List (HloOp τ sig (Elt F))).Forall fun op => op.writes ⊆ (wr2.map (Proc.devRef (τ := τ) .tc)).toFinset := by writes_sub
theorem hostOps3_writes : (hostOps3 : List (HloOp τ sig (Elt F))).Forall fun op => op.writes ⊆ (wr3.map (Proc.devRef (τ := τ) .tc)).toFinset := by writes_sub

section Generic
variable (W : Valuation τ sig (Elt F))

/-- A buffer a stretch does not write holds after it what it held before. -/
theorem keep0 (r : Ref sig .tc) (h : r ∉ wr0) : StableHlo.after hostOps0 W (Proc.devRef .tc r) = W (Proc.devRef .tc r) :=
  StableHlo.after_of_writes_sub hostOps0 W hostOps0_writes h
theorem keep01 (r : Ref sig .tc) (h : r ∉ wr01) : StableHlo.after hostOps0_1 W (Proc.devRef .tc r) = W (Proc.devRef .tc r) :=
  StableHlo.after_of_writes_sub hostOps0_1 W hostOps0_1_writes h
theorem keep02 (r : Ref sig .tc) (h : r ∉ wr02) : StableHlo.after hostOps0_2 W (Proc.devRef .tc r) = W (Proc.devRef .tc r) :=
  StableHlo.after_of_writes_sub hostOps0_2 W hostOps0_2_writes h
theorem keep1 (r : Ref sig .tc) (h : r ∉ wr1) : StableHlo.after hostOps1 W (Proc.devRef .tc r) = W (Proc.devRef .tc r) :=
  StableHlo.after_of_writes_sub hostOps1 W hostOps1_writes h
theorem keep2 (r : Ref sig .tc) (h : r ∉ wr2) : StableHlo.after hostOps2 W (Proc.devRef .tc r) = W (Proc.devRef .tc r) :=
  StableHlo.after_of_writes_sub hostOps2 W hostOps2_writes h
theorem keep3 (r : Ref sig .tc) (h : r ∉ wr3) : StableHlo.after hostOps3 W (Proc.devRef .tc r) = W (Proc.devRef .tc r) :=
  StableHlo.after_of_writes_sub hostOps3 W hostOps3_writes h

/-! ## Each stretch's results, over any contents `W` it starts from -/

/-- The first stretch leaves the source nodes in `%1`. -/
theorem h0_v1 : StableHlo.after hostOps0 W (Proc.devRef .tc main_v1) = srcRow (W (Proc.devRef .tc main_arg1)) := by
  after_results; rfl
/-- The first stretch leaves the destination nodes in `%3`. -/
theorem h0_v3 : StableHlo.after hostOps0 W (Proc.devRef .tc main_v3) = dstRow (W (Proc.devRef .tc main_arg1)) := by
  after_results; rfl
/-- The first stretch leaves the in-degree count in `%7`. -/
theorem h0_v7 : StableHlo.after hostOps0 W (Proc.devRef .tc main_v7)
    = Host.scatterAdd scatter_S40000_S640000x1_S640000_n_0_0_1
        (broadcastInDim S40000 ![] bcast_S_S40000 (constant (F := F) S_ .f32 0x00000000#32)) (dstIdx (W (Proc.devRef .tc main_arg1)))
        (broadcastInDim S640000 ![] bcast_S_S640000 (constant (F := F) S_ .f32 0x3F800000#32)) := by
  after_results; rfl
/-- The first stretch leaves the constant one in `%cst_1`. -/
theorem h0_cst1 : StableHlo.after hostOps0 W (Proc.devRef .tc main_cst_1) = constant (F := F) S_ .f32 0x3F800000#32 := by
  after_results
/-- The clip leaves `max (broadcast of the scalar) (the count)` in `%8`. -/
theorem h01_v8 : StableHlo.after hostOps0_1 W (Proc.devRef .tc main_v8)
    = maximumf (broadcastInDim S40000 ![] bcast_S_S40000 (id (W (Proc.devRef .tc main_cst_1)))) (W (Proc.devRef .tc main_v7)) := by
  after_results; rfl
/-- The stretch before the first region leaves the reciprocal of `%8`, as a column, in `%11`. -/
theorem h02_v11 : StableHlo.after hostOps0_2 W (Proc.devRef .tc main_v11)
    = broadcastInDim S40000x1 ![0] bcast_S40000_S40000x1_0
        (Host.divf (broadcastInDim S40000 ![] bcast_S_S40000 (constant (F := F) S_ .f32 0x3F800000#32)) (W (Proc.devRef .tc main_v8))) := by
  after_results
/-- The stretch before the first region leaves in `%23` the neighbour sum of `%arg0`'s rows times the reciprocal
    of `%8`, the indices read from `%1` and `%3`. -/
theorem h02_v23 : StableHlo.after hostOps0_2 W (Proc.devRef .tc main_v23)
    = mulf (Host.scatterAdd scatter_S40000x12_S640000x1_S640000x12_1_0_0_1
              (broadcastInDim S40000x12 ![] bcast_S_S40000x12 (constant (F := F) S_ .f32 0x00000000#32)) (col (W (Proc.devRef .tc main_v3)))
              (Host.gather gather_S40000x12_S640000x1_S640000x12_1_0_n_n_0_1_112 (W (Proc.devRef .tc main_arg0)) (wrapCol (W (Proc.devRef .tc main_v1)))))
        (broadcastInDim S40000x12 ![0, 1] bcast_S40000x1_S40000x12_0_1
          (broadcastInDim S40000x1 ![0] bcast_S40000_S40000x1_0
            (Host.divf (broadcastInDim S40000 ![] bcast_S_S40000 (constant (F := F) S_ .f32 0x3F800000#32)) (W (Proc.devRef .tc main_v8))))) := by
  after_results_simp; rfl
/-- The stretch before the first region leaves the first bias as a row in `%24`. -/
theorem h02_v24 : StableHlo.after hostOps0_2 W (Proc.devRef .tc main_v24) = row128 (W (Proc.devRef .tc main_arg3)) := by
  after_results; rfl
/-- The stretch before the second region leaves in `%37` the neighbour sum of `%25`'s rows times `%11`. -/
theorem h1_v37 : StableHlo.after hostOps1 W (Proc.devRef .tc main_v37)
    = mulf (Host.scatterAdd scatter_S40000x128_S640000x1_S640000x128_1_0_0_1
              (broadcastInDim S40000x128 ![] bcast_S_S40000x128 (constant (F := F) S_ .f32 0x00000000#32)) (col (W (Proc.devRef .tc main_v3)))
              (Host.gather gather_S40000x128_S640000x1_S640000x128_1_0_n_n_0_1_1128 (W (Proc.devRef .tc main_v25)) (wrapCol (W (Proc.devRef .tc main_v1)))))
        (broadcastInDim S40000x128 ![0, 1] bcast_S40000x1_S40000x128_0_1 (W (Proc.devRef .tc main_v11))) := by
  after_results_simp; rfl
/-- The stretch before the second region leaves the second bias as a row in `%38`. -/
theorem h1_v38 : StableHlo.after hostOps1 W (Proc.devRef .tc main_v38) = row128 (W (Proc.devRef .tc main_arg6)) := by
  after_results; rfl
/-- The stretch before the third region leaves in `%51` the neighbour sum of `%39`'s rows times `%11`. -/
theorem h2_v51 : StableHlo.after hostOps2 W (Proc.devRef .tc main_v51)
    = mulf (Host.scatterAdd scatter_S40000x128_S640000x1_S640000x128_1_0_0_1
              (broadcastInDim S40000x128 ![] bcast_S_S40000x128 (constant (F := F) S_ .f32 0x00000000#32)) (col (W (Proc.devRef .tc main_v3)))
              (Host.gather gather_S40000x128_S640000x1_S640000x128_1_0_n_n_0_1_1128 (W (Proc.devRef .tc main_v39)) (wrapCol (W (Proc.devRef .tc main_v1)))))
        (broadcastInDim S40000x128 ![0, 1] bcast_S40000x1_S40000x128_0_1 (W (Proc.devRef .tc main_v11))) := by
  after_results_simp; rfl
/-- The stretch before the third region leaves the third bias as a row in `%52`. -/
theorem h2_v52 : StableHlo.after hostOps2 W (Proc.devRef .tc main_v52) = row128 (W (Proc.devRef .tc main_arg9)) := by
  after_results; rfl
/-- The stretch before the last region leaves the head's bias as a [1,1] array in `%54`. -/
theorem h3_v54 : StableHlo.after hostOps3 W (Proc.devRef .tc main_v54) = cell1 (W (Proc.devRef .tc main_arg12)) := by
  after_results; rfl

end Generic

/-! ## The fold of buffer contents along @main, read at the buffers the regions enter with -/

section Run
variable (m : (ℓ : Loc nD τ sig) → Buf (Elt F) ℓ) (ρ : Dev nD → PrngReg) (c : Dev nD)

/-! ### A buffer nothing has written yet holds its launch contents -/

theorem W1_launch (r : Ref sig .tc) (h0 : r ∉ wr0) : W1 m ρ c (Proc.devRef .tc r) = m ((c : Thread nD τ).loc r) :=
  keep0 (W0 m ρ c) r h0
theorem W2_launch (r : Ref sig .tc) (h0 : r ∉ wr0) (h1 : r ∉ wr01) : W2 m ρ c (Proc.devRef .tc r) = m ((c : Thread nD τ).loc r) :=
  (keep01 (W1 m ρ c) r h1).trans (W1_launch m ρ c r h0)
theorem W3_launch (r : Ref sig .tc) (h0 : r ∉ wr0) (h1 : r ∉ wr01) (h2 : r ∉ wr02) :
    W3 m ρ c (Proc.devRef .tc r) = m ((c : Thread nD τ).loc r) :=
  (keep02 (W2 m ρ c) r h2).trans (W2_launch m ρ c r h0 h1)
theorem W4_launch (r : Ref sig .tc) (h0 : r ∉ wr0) (h1 : r ∉ wr01) (h2 : r ∉ wr02) (s0 : ∀ w, Pipeline.arrRef spec0 w ≠ r) :
    W4 m ρ c (Proc.devRef .tc r) = m ((c : Thread nD τ).loc r) :=
  (W4_of_ne m ρ c r s0).trans (W3_launch m ρ c r h0 h1 h2)
theorem W5_launch (r : Ref sig .tc) (h0 : r ∉ wr0) (h1 : r ∉ wr01) (h2 : r ∉ wr02) (s0 : ∀ w, Pipeline.arrRef spec0 w ≠ r)
    (h3 : r ∉ wr1) : W5 m ρ c (Proc.devRef .tc r) = m ((c : Thread nD τ).loc r) :=
  (keep1 (W4 m ρ c) r h3).trans (W4_launch m ρ c r h0 h1 h2 s0)
theorem W6_launch (r : Ref sig .tc) (h0 : r ∉ wr0) (h1 : r ∉ wr01) (h2 : r ∉ wr02) (s0 : ∀ w, Pipeline.arrRef spec0 w ≠ r)
    (h3 : r ∉ wr1) (s1 : ∀ w, Pipeline.arrRef spec1 w ≠ r) : W6 m ρ c (Proc.devRef .tc r) = m ((c : Thread nD τ).loc r) :=
  (W6_of_ne m ρ c r s1).trans (W5_launch m ρ c r h0 h1 h2 s0 h3)
theorem W7_launch (r : Ref sig .tc) (h0 : r ∉ wr0) (h1 : r ∉ wr01) (h2 : r ∉ wr02) (s0 : ∀ w, Pipeline.arrRef spec0 w ≠ r)
    (h3 : r ∉ wr1) (s1 : ∀ w, Pipeline.arrRef spec1 w ≠ r) (h4 : r ∉ wr2) :
    W7 m ρ c (Proc.devRef .tc r) = m ((c : Thread nD τ).loc r) :=
  (keep2 (W6 m ρ c) r h4).trans (W6_launch m ρ c r h0 h1 h2 s0 h3 s1)
theorem W8_launch (r : Ref sig .tc) (h0 : r ∉ wr0) (h1 : r ∉ wr01) (h2 : r ∉ wr02) (s0 : ∀ w, Pipeline.arrRef spec0 w ≠ r)
    (h3 : r ∉ wr1) (s1 : ∀ w, Pipeline.arrRef spec1 w ≠ r) (h4 : r ∉ wr2) (s2 : ∀ w, Pipeline.arrRef spec2 w ≠ r) :
    W8 m ρ c (Proc.devRef .tc r) = m ((c : Thread nD τ).loc r) :=
  (W8_of_ne m ρ c r s2).trans (W7_launch m ρ c r h0 h1 h2 s0 h3 s1 h4)
theorem W9_launch (r : Ref sig .tc) (h0 : r ∉ wr0) (h1 : r ∉ wr01) (h2 : r ∉ wr02) (s0 : ∀ w, Pipeline.arrRef spec0 w ≠ r)
    (h3 : r ∉ wr1) (s1 : ∀ w, Pipeline.arrRef spec1 w ≠ r) (h4 : r ∉ wr2) (s2 : ∀ w, Pipeline.arrRef spec2 w ≠ r) (h5 : r ∉ wr3) :
    W9 m ρ c (Proc.devRef .tc r) = m ((c : Thread nD τ).loc r) :=
  (keep3 (W8 m ρ c) r h5).trans (W8_launch m ρ c r h0 h1 h2 s0 h3 s1 h4 s2)

/-! ### The index vectors and the reciprocal degree, written by the first stretches, at every later boundary -/

theorem W1_v7 : W1 m ρ c (Proc.devRef .tc main_v7)
    = Host.scatterAdd scatter_S40000_S640000x1_S640000_n_0_0_1
        (broadcastInDim S40000 ![] bcast_S_S40000 (constant (F := F) S_ .f32 0x00000000#32)) (dstIdx (m ((c : Thread nD τ).loc main_arg1)))
        (broadcastInDim S640000 ![] bcast_S_S640000 (constant (F := F) S_ .f32 0x3F800000#32)) := h0_v7 (W0 m ρ c)
theorem W1_cst1 : W1 m ρ c (Proc.devRef .tc main_cst_1) = constant (F := F) S_ .f32 0x3F800000#32 := h0_cst1 (W0 m ρ c)
theorem W2_v8 : W2 m ρ c (Proc.devRef .tc main_v8) = degClip (m ((c : Thread nD τ).loc main_arg1)) :=
  (h01_v8 (W1 m ρ c)).trans (by rw [W1_cst1, W1_v7]; rfl)
theorem W2_v1 : W2 m ρ c (Proc.devRef .tc main_v1) = srcRow (m ((c : Thread nD τ).loc main_arg1)) :=
  (keep01 (W1 m ρ c) main_v1 (by decide)).trans (h0_v1 (W0 m ρ c))
theorem W2_v3 : W2 m ρ c (Proc.devRef .tc main_v3) = dstRow (m ((c : Thread nD τ).loc main_arg1)) :=
  (keep01 (W1 m ρ c) main_v3 (by decide)).trans (h0_v3 (W0 m ρ c))
theorem W3_v1 : W3 m ρ c (Proc.devRef .tc main_v1) = srcRow (m ((c : Thread nD τ).loc main_arg1)) := (keep02 (W2 m ρ c) main_v1 (by decide)).trans (W2_v1 m ρ c)
theorem W3_v3 : W3 m ρ c (Proc.devRef .tc main_v3) = dstRow (m ((c : Thread nD τ).loc main_arg1)) := (keep02 (W2 m ρ c) main_v3 (by decide)).trans (W2_v3 m ρ c)
theorem W3_v11 : W3 m ρ c (Proc.devRef .tc main_v11) = invDeg (m ((c : Thread nD τ).loc main_arg1)) :=
  (h02_v11 (W2 m ρ c)).trans (by rw [W2_v8]; rfl)
theorem W4_v1 : W4 m ρ c (Proc.devRef .tc main_v1) = srcRow (m ((c : Thread nD τ).loc main_arg1)) := (W4_of_ne m ρ c main_v1 (by decide)).trans (W3_v1 m ρ c)
theorem W4_v3 : W4 m ρ c (Proc.devRef .tc main_v3) = dstRow (m ((c : Thread nD τ).loc main_arg1)) := (W4_of_ne m ρ c main_v3 (by decide)).trans (W3_v3 m ρ c)
theorem W4_v11 : W4 m ρ c (Proc.devRef .tc main_v11) = invDeg (m ((c : Thread nD τ).loc main_arg1)) := (W4_of_ne m ρ c main_v11 (by decide)).trans (W3_v11 m ρ c)
theorem W6_v1 : W6 m ρ c (Proc.devRef .tc main_v1) = srcRow (m ((c : Thread nD τ).loc main_arg1)) :=
  (W6_of_ne m ρ c main_v1 (by decide)).trans ((keep1 (W4 m ρ c) main_v1 (by decide)).trans (W4_v1 m ρ c))
theorem W6_v3 : W6 m ρ c (Proc.devRef .tc main_v3) = dstRow (m ((c : Thread nD τ).loc main_arg1)) :=
  (W6_of_ne m ρ c main_v3 (by decide)).trans ((keep1 (W4 m ρ c) main_v3 (by decide)).trans (W4_v3 m ρ c))
theorem W6_v11 : W6 m ρ c (Proc.devRef .tc main_v11) = invDeg (m ((c : Thread nD τ).loc main_arg1)) :=
  (W6_of_ne m ρ c main_v11 (by decide)).trans ((keep1 (W4 m ρ c) main_v11 (by decide)).trans (W4_v11 m ρ c))

/-! ### Region 0: its five input arrays on entry, its output array on exit -/

/-- The first region's first operand is the neighbour mean of the node features. -/
theorem entry0_mean : V3 m ρ c main_v23 = mean12 (m ((c : Thread nD τ).loc main_arg0)) (m ((c : Thread nD τ).loc main_arg1)) :=
  (h02_v23 (W2 m ρ c)).trans (by
    rw [W2_v3, W2_v1, W2_v8, W2_launch m ρ c main_arg0 (by decide) (by decide)]; rfl)
/-- Its second operand is the node features as launched. -/
theorem entry0_h : V3 m ρ c main_arg0 = (m ((c : Thread nD τ).loc main_arg0)) := W3_launch m ρ c main_arg0 (by decide) (by decide) (by decide)
/-- Its third operand is the first neighbour weight as launched. -/
theorem entry0_wl : V3 m ρ c main_arg2 = (m ((c : Thread nD τ).loc main_arg2)) := W3_launch m ρ c main_arg2 (by decide) (by decide) (by decide)
/-- Its fourth operand is the first bias, as a row. -/
theorem entry0_bl : V3 m ρ c main_v24 = row128 (m ((c : Thread nD τ).loc main_arg3)) :=
  (h02_v24 (W2 m ρ c)).trans (congrArg row128 (W2_launch m ρ c main_arg3 (by decide) (by decide)))
/-- Its fifth operand is the first root weight as launched. -/
theorem entry0_wr : V3 m ρ c main_arg4 = (m ((c : Thread nD τ).loc main_arg4)) := W3_launch m ρ c main_arg4 (by decide) (by decide) (by decide)
/-- After the first region its output array holds what the region's write-backs leave. -/
theorem exit0 : W4 m ρ c (Proc.devRef .tc main_v25) = (dat0 (V3 m ρ) c).arrAt 5 cfg0.N := W4_arr m ρ c 5

/-! ### Region 1 -/

/-- The second region's first operand is the neighbour mean of the first layer's output. -/
theorem entry1_mean : V5 m ρ c main_v37 = mean128 (W4 m ρ c (Proc.devRef .tc main_v25)) (m ((c : Thread nD τ).loc main_arg1)) :=
  (h1_v37 (W4 m ρ c)).trans (by rw [W4_v3, W4_v1, W4_v11]; rfl)
/-- Its second operand is the first layer's output. -/
theorem entry1_h : V5 m ρ c main_v25 = W4 m ρ c (Proc.devRef .tc main_v25) := keep1 (W4 m ρ c) main_v25 (by decide)
/-- Its third operand is the second neighbour weight as launched. -/
theorem entry1_wl : V5 m ρ c main_arg5 = (m ((c : Thread nD τ).loc main_arg5)) := W5_launch m ρ c main_arg5 (by decide) (by decide) (by decide) (by decide) (by decide)
/-- Its fourth operand is the second bias, as a row. -/
theorem entry1_bl : V5 m ρ c main_v38 = row128 (m ((c : Thread nD τ).loc main_arg6)) :=
  (h1_v38 (W4 m ρ c)).trans (congrArg row128 (W4_launch m ρ c main_arg6 (by decide) (by decide) (by decide) (by decide)))
/-- Its fifth operand is the second root weight as launched. -/
theorem entry1_wr : V5 m ρ c main_arg7 = (m ((c : Thread nD τ).loc main_arg7)) := W5_launch m ρ c main_arg7 (by decide) (by decide) (by decide) (by decide) (by decide)
/-- After the second region its output array holds what the region's write-backs leave. -/
theorem exit1 : W6 m ρ c (Proc.devRef .tc main_v39) = (dat1 (V5 m ρ) c).arrAt 5 cfg1.N := W6_arr m ρ c 5

/-! ### Region 2 -/

/-- The third region's first operand is the neighbour mean of the second layer's output. -/
theorem entry2_mean : V7 m ρ c main_v51 = mean128 (W6 m ρ c (Proc.devRef .tc main_v39)) (m ((c : Thread nD τ).loc main_arg1)) :=
  (h2_v51 (W6 m ρ c)).trans (by rw [W6_v3, W6_v1, W6_v11]; rfl)
/-- Its second operand is the second layer's output. -/
theorem entry2_h : V7 m ρ c main_v39 = W6 m ρ c (Proc.devRef .tc main_v39) := keep2 (W6 m ρ c) main_v39 (by decide)
/-- Its third operand is the third neighbour weight as launched. -/
theorem entry2_wl : V7 m ρ c main_arg8 = (m ((c : Thread nD τ).loc main_arg8)) := W7_launch m ρ c main_arg8 (by decide) (by decide) (by decide) (by decide) (by decide) (by decide) (by decide)
/-- Its fourth operand is the third bias, as a row. -/
theorem entry2_bl : V7 m ρ c main_v52 = row128 (m ((c : Thread nD τ).loc main_arg9)) :=
  (h2_v52 (W6 m ρ c)).trans (congrArg row128 (W6_launch m ρ c main_arg9 (by decide) (by decide) (by decide) (by decide) (by decide) (by decide)))
/-- Its fifth operand is the third root weight as launched. -/
theorem entry2_wr : V7 m ρ c main_arg10 = (m ((c : Thread nD τ).loc main_arg10)) := W7_launch m ρ c main_arg10 (by decide) (by decide) (by decide) (by decide) (by decide) (by decide) (by decide)
/-- After the third region its output array holds what the region's write-backs leave. -/
theorem exit2 : W8 m ρ c (Proc.devRef .tc main_v53) = (dat2 (V7 m ρ) c).arrAt 5 cfg2.N := W8_arr m ρ c 5

/-! ### Region 3 -/

/-- The last region's first operand is the third layer's output. -/
theorem entry3_h : V9 m ρ c main_v53 = W8 m ρ c (Proc.devRef .tc main_v53) := keep3 (W8 m ρ c) main_v53 (by decide)
/-- Its second operand is the head's weight as launched. -/
theorem entry3_w : V9 m ρ c main_arg11 = (m ((c : Thread nD τ).loc main_arg11)) := W9_launch m ρ c main_arg11 (by decide) (by decide) (by decide) (by decide) (by decide) (by decide) (by decide) (by decide) (by decide)
/-- Its third operand is the head's bias, as a [1,1] array. -/
theorem entry3_b : V9 m ρ c main_v54 = cell1 (m ((c : Thread nD τ).loc main_arg12)) :=
  (h3_v54 (W8 m ρ c)).trans (congrArg cell1 (W8_launch m ρ c main_arg12 (by decide) (by decide) (by decide) (by decide) (by decide) (by decide) (by decide) (by decide)))
/-- After the last region its output array, the program's result, holds what the region's write-backs leave. -/
theorem exit3 : W10 m ρ c (Proc.devRef .tc main_v55) = (dat3 (V9 m ρ) c).arrAt 3 cfg3.N := W10_arr m ρ c 3

end Run

end Cert.KernelIdeal.KStretch

end
-- ==== Proof.SageSpec.lean ====
/-
  The network both programs compute, as one function on the extended reals.

  A graph of 40000 nodes; every edge e carries a source and a destination node. One layer maps node features
  h (f per node) to 128 new features per node:
      mean(r, k)  = a(r, k) / d(r)                         a = the sum of h over the edges arriving at r, d = the number
                                                            of such edges, at least 1
      z(r, j)     = (Σ_k mean(r, k) · Wl(j, k) + bl(j)) + Σ_k h(r, k) · Wr(j, k)
      out(r, j)   = ELU(z(r, j)),     ELU(z) = z if 0 < z, else exp z − 1.
  Three layers (12 → 128 → 128 → 128 features) and a linear head  y(r) = Σ_k h(r, k) · w(k) + b.
  The edge sums a and the clipped degree d are computed by the same host operations in both programs, so they enter
  here as parameters: `A12`, `A128` (an array of node features to the array of its edge sums) and `d`.

  Below the definitions: the scalar laws by which two different spellings of these formulas agree on EVERY extended
  real, infinities included — a product with the reciprocal of a nonzero divisor is the quotient; a maximum with one is
  not zero; ELU written with exp z − 1 or with 1 · (exp(z or 0) − 1); a three-term sum grouped either way.
-/
import Idealize.ShloMosaic.PureOps.Ideal
import Idealize.ShloMosaic.PureOps.Ideal.Laws
import Idealize.ShloMosaic.PureOps.IdealRules
import Idealize.ShloMosaic.Lib.ValueIdx

noncomputable section

open Idealize.ShloMosaic Idealize.ShloMosaic.ValueIdx

namespace SageSpec

/-- Node features: 40000 rows of `f` numbers. -/
abbrev Rows (f : Nat) : Shape := ⟨2, ![40000, f]⟩
/-- A layer's weight matrix: 128 output features by `f` input features. -/
abbrev Wts (f : Nat) : Shape := ⟨2, ![128, f]⟩
abbrev Nodes : Shape := ⟨1, ![40000]⟩
abbrev Hid : Shape := ⟨1, ![128]⟩

/-- The exponential linear unit on the extended reals. -/
def elu (z : EReal) : EReal := if 0 < z then z else Ideal.exp z - 1

/-- The mean over the arriving edges: the edge sum divided by the clipped degree. -/
def meanAt {f : Nat} (a : (Rows f).Idx → EReal) (d : Nodes.Idx → EReal) (r : Fin 40000) (k : Fin f) : EReal :=
  Ideal.div (a (ix2 r k)) (d (ix1 r))

/-- A layer before its nonlinearity, at node `r` and output feature `j`. -/
def preAt {f : Nat} (a h : (Rows f).Idx → EReal) (d : Nodes.Idx → EReal) (Wl Wr : (Wts f).Idx → EReal)
    (bl : Hid.Idx → EReal) (r : Fin 40000) (j : Fin 128) : EReal :=
  (∑ k : Fin f, meanAt a d r k * Wl (ix2 j k) + bl (ix1 j)) + ∑ k : Fin f, h (ix2 r k) * Wr (ix2 j k)

/-- One layer: node features `h` with edge sums `a` to 128 features per node. -/
def layer {f : Nat} (a h : (Rows f).Idx → EReal) (d : Nodes.Idx → EReal) (Wl Wr : (Wts f).Idx → EReal)
    (bl : Hid.Idx → EReal) : (Rows 128).Idx → EReal :=
  fun i => elu (preAt a h d Wl Wr bl (i 0) (i 1))

theorem layer_ix2 {f : Nat} (a h : (Rows f).Idx → EReal) (d : Nodes.Idx → EReal) (Wl Wr : (Wts f).Idx → EReal)
    (bl : Hid.Idx → EReal) (r : Fin 40000) (j : Fin 128) :
    layer a h d Wl Wr bl (ix2 r j) = elu (preAt a h d Wl Wr bl r j) := rfl

/-- The linear head at node `r`. -/
def headAt (h : (Rows 128).Idx → EReal) (w : (⟨2, ![1, 128]⟩ : Shape).Idx → EReal) (b : (⟨1, ![1]⟩ : Shape).Idx → EReal)
    (r : Fin 40000) : EReal :=
  ∑ k : Fin 128, h (ix2 r k) * w (ix2 0 k) + b (ix1 0)

def head (h : (Rows 128).Idx → EReal) (w : (⟨2, ![1, 128]⟩ : Shape).Idx → EReal) (b : (⟨1, ![1]⟩ : Shape).Idx → EReal) :
    (⟨2, ![40000, 1]⟩ : Shape).Idx → EReal :=
  fun i => headAt h w b (i 0)

/-- The whole network: three layers and the head, over the edge-sum maps `A12`, `A128` and the clipped degree `d`. -/
def net (A12 : ((Rows 12).Idx → EReal) → (Rows 12).Idx → EReal) (A128 : ((Rows 128).Idx → EReal) → (Rows 128).Idx → EReal)
    (d : Nodes.Idx → EReal) (x : (Rows 12).Idx → EReal)
    (Wl1 : (Wts 12).Idx → EReal) (bl1 : Hid.Idx → EReal) (Wr1 : (Wts 12).Idx → EReal)
    (Wl2 : (Wts 128).Idx → EReal) (bl2 : Hid.Idx → EReal) (Wr2 : (Wts 128).Idx → EReal)
    (Wl3 : (Wts 128).Idx → EReal) (bl3 : Hid.Idx → EReal) (Wr3 : (Wts 128).Idx → EReal)
    (w : (⟨2, ![1, 128]⟩ : Shape).Idx → EReal) (b : (⟨1, ![1]⟩ : Shape).Idx → EReal) :
    (⟨2, ![40000, 1]⟩ : Shape).Idx → EReal :=
  let h1 := layer (A12 x) x d Wl1 Wr1 bl1
  let h2 := layer (A128 h1) h1 d Wl2 Wr2 bl2
  let h3 := layer (A128 h2) h2 d Wl3 Wr3 bl3
  head h3 w b

/-! ## The scalar laws -/

/-- The single-precision pattern of 1.0 denotes the extended real 1. -/
theorem one_f32 : Ideal.ofBits .f32 0x3F800000#32 = 1 := IdealRules.sign_bit.ideal_onePat .f32

/-- The single-precision pattern of 0.0 denotes 0. -/
theorem zero_f32 : Ideal.ofBits .f32 0x00000000#32 = 0 := Ideal.ofBits_zero_f32

/-- Off zero, the product with the reciprocal is the quotient — at the infinities too, where both sides are the
    product with the inverse `(±∞)⁻¹ = 0`. -/
theorem mul_div_one {a y : EReal} (hy : y ≠ 0) : a * Ideal.div 1 y = Ideal.div a y := by
  unfold Ideal.div
  rw [if_neg hy, if_neg hy, one_mul]

/-- A maximum with one is above zero. -/
theorem max_one_ne_zero (t : EReal) : max 1 t ≠ 0 :=
  ne_of_gt (lt_of_lt_of_le zero_lt_one (le_max_left 1 t))

/-- The comparison "greater than" as a one-bit value selects by the order. -/
theorem select_ogt {α : Type} (z y : EReal) (p q : α) :
    Scalar.select (Ideal.cmp .ogt z y) p q = if y < z then p else q := by
  unfold Scalar.select Ideal.cmp
  by_cases h : y < z <;> simp [h]

/-- ELU written as "z where positive, else exp z − 1". -/
theorem elu_sub (z : EReal) : (if 0 < z then z else Ideal.exp z - 1) = elu z := rfl

/-- ELU written as "z where positive, else 1 · (exp(0 where positive, else z) − 1)": off the positive branch the inner
    choice is z itself. -/
theorem elu_guarded (z : EReal) : (if 0 < z then z else 1 * (Ideal.exp (if 0 < z then 0 else z) - 1)) = elu z := by
  unfold elu
  by_cases h : 0 < z
  · rw [if_pos h, if_pos h]
  · rw [if_neg h, if_neg h, if_neg h, one_mul]

/-- A sum of three terms grouped either way. -/
theorem add_group (p q c : EReal) : (p + q) + c = (p + c) + q := add_right_comm p q c

end SageSpec

end
-- ==== Proof.K0Value.lean ====
/-
  Layer 1 of the network on the matrix unit, read as one function of whole arrays.

  The region walks 20 blocks of 2000 nodes. At block t the body loads rows 2000·t … 2000·t + 1999 of the mean array and
  of the feature array, the two weight matrices and the bias row whole, and stores for node r of the block and output
  feature j
      ELU((Σ_k mean(r, k) · Wl(j, k) + Σ_k h(r, k) · Wr(j, k)) + bl(0, j))
  (the narrowing of the matrix operands to half precision is the identity on the extended reals, and a product
  accumulated into zero is the plain sum over the contracted feature). Block t of the output array is written back from
  exactly that buffer, the 20 blocks tile the 40000 rows, so after the region the output array is the same formula of the
  WHOLE arrays at every node: `region_out`.
-/
import proofs.«162061_j5377299055106_1_alg».proof.Proof.Gen.KernelIdeal.Frame
import proofs.«162061_j5377299055106_1_alg».proof.Proof.SageSpec
import Idealize.ShloMosaic.Lib.Pipeline.Value
import Idealize.ShloMosaic.Lib.ValueIdx
import Idealize.ShloMosaic.PureOps.Ideal.Laws

noncomputable section

open Idealize.ShloMosaic Idealize.ShloMosaic.TcCoe Idealize.SL.Sem Idealize.ShloMosaic.ValueIdx
open Idealize.ShloMosaic.Pipeline (Dat)

namespace Cert.KernelIdeal.Layer1

open Cert.KernelIdeal Cert.KernelIdeal.Gen

/-- The contraction the body's two products share: rows of a [2000, 12] block against rows of a [128, 12] matrix. -/
abbrev D := dot_S2000x12_S128x12_S2000x128_1_1_0_0_n_n

theorem hz : (![0, 0] : Fin 2 → Nat) = fun _ => 0 := funext fun a => by fin_cases a <;> rfl

/-! ## The operand indices of the contraction, coordinate by coordinate -/

theorem lhs_row (i : S2000x128.Idx) (q : D.contr.Idx) : (D.lhsIdx i q 0).val = (i 0).val := by
  unfold DotDims.lhsIdx
  rw [dif_neg (show ¬(0 : Fin S2000x12.rank) ∈ D.lhsBatch by decide), dif_pos (show (0 : Fin S2000x12.rank) ∈ D.lhsNonContracting by decide)]
  rfl

theorem lhs_col (i : S2000x128.Idx) (q : D.contr.Idx) : (D.lhsIdx i q 1).val = (q ⟨0, by decide⟩).val :=
  D.lhsIdx_val_of_single rfl i q

theorem rhs_row (i : S2000x128.Idx) (q : D.contr.Idx) : (D.rhsIdx i q 0).val = (i 1).val := by
  unfold DotDims.rhsIdx
  rw [dif_neg (show ¬(0 : Fin S128x12.rank) ∈ D.rhsBatch by decide), dif_pos (show (0 : Fin S128x12.rank) ∈ D.rhsNonContracting by decide)]
  rfl

theorem rhs_col (i : S2000x128.Idx) (q : D.contr.Idx) : (D.rhsIdx i q 1).val = (q ⟨0, by decide⟩).val :=
  D.rhsIdx_val_of_single rfl i q

/-- A block of rows times the transpose of a weight matrix, accumulated into zero: at row `p` and output feature `q` the sum
    over the 12 input features of the products. -/
theorem matmul_at {φ₁ φ₂ : FTy} (l : FVec Ideal S2000x12 φ₁) (r : FVec Ideal S128x12 φ₂) (p : Fin 2000) (q : Fin 128) :
    matmul D none l r (constant S2000x128 .f32 0x00000000#32) (ix2 p q) = ∑ k : Fin 12, l (ix2 p k) * r (ix2 q k) := by
  refine (Ideal.matmul_constant_zero_apply D none l r (ix2 p q)).trans ?_
  rw [← Equiv.sum_comp (contrEquiv1 D 12 rfl rfl).symm]
  refine Finset.sum_congr rfl fun k _ => ?_
  have hk := contrEquiv1_symm_val D 12 rfl rfl k
  have el : D.lhsIdx (ix2 p q) ((contrEquiv1 D 12 rfl rfl).symm k) = ix2 p k := funext fun a => Fin.ext (by
    match a with
    | ⟨0, _⟩ => exact lhs_row _ _
    | ⟨1, _⟩ => exact (lhs_col _ _).trans hk)
  have er : D.rhsIdx (ix2 p q) ((contrEquiv1 D 12 rfl rfl).symm k) = ix2 q k := funext fun a => Fin.ext (by
    match a with
    | ⟨0, _⟩ => exact rhs_row _ _
    | ⟨1, _⟩ => exact (rhs_col _ _).trans hk)
  rw [el, er]

/-- The body's nonlinearity at an element: `z` where it is above zero, else `exp z − 1`. -/
theorem elu_vec (z : FVec Ideal S2000x128 .f32) (i : S2000x128.Idx) :
    select (cmpf .ogt z (broadcast S2000x128 (Scalar.ofBits .f32 0x00000000#32))) z
      (subf (exp z) (broadcast S2000x128 (Scalar.ofBits .f32 0x3F800000#32))) i = SageSpec.elu (z i) := by
  show Scalar.select (Ideal.cmp .ogt (z i) (Ideal.ofBits .f32 0x00000000#32)) (z i) (Ideal.exp (z i) - Ideal.ofBits .f32 0x3F800000#32) = _
  rw [SageSpec.select_ogt, SageSpec.zero_f32, SageSpec.one_f32]
  rfl

/-- What the body stores, at row `p` of the block and output feature `q`. -/
theorem pay_at (x0 x1 : Vec Ideal S2000x12 .f32) (x2 x4 : Vec Ideal S128x12 .f32) (x3 : Vec Ideal S1x128 .f32) (p : Fin 2000) (q : Fin 128) :
    k0_pay1 x0 x1 x2 x4 x3 (ix2 p q)
      = SageSpec.elu ((∑ k : Fin 12, x0 (ix2 p k) * x2 (ix2 q k) + ∑ k : Fin 12, x1 (ix2 p k) * x4 (ix2 q k)) + x3 (ix2 0 q)) := by
  unfold k0_pay1
  simp only [shapeCast_self]
  refine (elu_vec _ (ix2 p q)).trans (congrArg SageSpec.elu ?_)
  refine congrArg₂ (· + ·) (congrArg₂ (· + ·) (matmul_at _ _ p q) (matmul_at _ _ p q)) ?_
  exact broadcastTo_apply x3 _ (ix2 p q) (ix2 0 q) (fun a => by
    match a with
    | ⟨0, _⟩ => rfl
    | ⟨1, _⟩ => rfl)

/-! ## The blocks as rows of the arrays the region finds -/

variable (V : (c : Dev nD) → (b : Ref sig .tc) → Buf (Elt Ideal) ((c : Thread nD τ).loc b))

/-- The printed index maps over the 20 points: the row windows and the output move one block per point, the weights and
    the bias stay. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The layer over whole arrays: mean `mn`, features `h`, weights `Wl`, `Wr`, bias row `bl`. -/
def G (mn h : S40000x12.Idx → EReal) (Wl Wr : S128x12.Idx → EReal) (bl : S1x128.Idx → EReal) : S40000x128.Idx → EReal :=
  fun i => SageSpec.elu ((∑ k : Fin 12, mn (ix2 (i 0) k) * Wl (ix2 (i 1) k) + ∑ k : Fin 12, h (ix2 (i 0) k) * Wr (ix2 (i 1) k)) + bl (ix2 0 (i 1)))

/-- Row `p` of the mean window's block at point `t` is row `2000·t + p` of the mean array. -/
theorem rows_mean (c : Dev nD) (t : Fin cfg0.N) (p : Fin 2000) (k : Fin 12) (r : Fin 40000) (hr : r.val = 2000 * t.val + p.val) :
    (iblk0 V c 0 t : Vec Ideal S2000x12 .f32) (ix2 p k) = (V c main_v23 : S40000x12.Idx → EReal) (ix2 r k) := by
  obtain ⟨e0, e1, -⟩ := idx_facts t
  unfold iblk0
  rw [View.read_apply]
  refine congrArg (V c main_v23 : S40000x12.Idx → EReal) ?_
  funext a
  apply Fin.ext
  match a with
  | ⟨0, _⟩ => show win0_0.index t 0 * 2000 + 1 * p.val = r.val; rw [e0, hr]; omega
  | ⟨1, _⟩ => show win0_0.index t 1 * 12 + 1 * k.val = k.val; rw [e1]; omega

/-- The same for the feature window. -/
theorem rows_h (c : Dev nD) (t : Fin cfg0.N) (p : Fin 2000) (k : Fin 12) (r : Fin 40000) (hr : r.val = 2000 * t.val + p.val) :
    (iblk0 V c 1 t : Vec Ideal S2000x12 .f32) (ix2 p k) = (V c main_arg0 : S40000x12.Idx → EReal) (ix2 r k) := by
  obtain ⟨-, -, e0, e1, -⟩ := idx_facts t
  unfold iblk0
  rw [View.read_apply]
  refine congrArg (V c main_arg0 : S40000x12.Idx → EReal) ?_
  funext a
  apply Fin.ext
  match a with
  | ⟨0, _⟩ => show win0_1.index t 0 * 2000 + 1 * p.val = r.val; rw [e0, hr]; omega
  | ⟨1, _⟩ => show win0_1.index t 1 * 12 + 1 * k.val = k.val; rw [e1]; omega

/-- The weight windows' one block is the whole matrix. -/
theorem whole_wl (c : Dev nD) (t : Fin cfg0.N) (q : Fin 128) (k : Fin 12) :
    (iblk0 V c 2 t : Vec Ideal S128x12 .f32) (ix2 q k) = (V c main_arg2 : S128x12.Idx → EReal) (ix2 q k) := by
  obtain ⟨-, -, -, -, e0, e1, -⟩ := idx_facts t
  unfold iblk0
  rw [View.read_apply]
  refine congrArg (V c main_arg2 : S128x12.Idx → EReal) ?_
  funext a
  apply Fin.ext
  match a with
  | ⟨0, _⟩ => show win0_2.index t 0 * 128 + 1 * q.val = q.val; rw [e0]; omega
  | ⟨1, _⟩ => show win0_2.index t 1 * 12 + 1 * k.val = k.val; rw [e1]; omega

theorem whole_wr (c : Dev nD) (t : Fin cfg0.N) (q : Fin 128) (k : Fin 12) :
    (iblk0 V c 4 t : Vec Ideal S128x12 .f32) (ix2 q k) = (V c main_arg4 : S128x12.Idx → EReal) (ix2 q k) := by
  obtain ⟨-, -, -, -, -, -, -, -, e0, e1, -⟩ := idx_facts t
  unfold iblk0
  rw [View.read_apply]
  refine congrArg (V c main_arg4 : S128x12.Idx → EReal) ?_
  funext a
  apply Fin.ext
  match a with
  | ⟨0, _⟩ => show win0_4.index t 0 * 128 + 1 * q.val = q.val; rw [e0]; omega
  | ⟨1, _⟩ => show win0_4.index t 1 * 12 + 1 * k.val = k.val; rw [e1]; omega

/-- The bias window's one block is the whole row. -/
theorem whole_bl (c : Dev nD) (t : Fin cfg0.N) (q : Fin 128) :
    (iblk0 V c 3 t : Vec Ideal S1x128 .f32) (ix2 0 q) = (V c main_v24 : S1x128.Idx → EReal) (ix2 0 q) := by
  obtain ⟨-, -, -, -, -, -, e0, e1, -⟩ := idx_facts t
  unfold iblk0
  rw [View.read_apply]
  refine congrArg (V c main_v24 : S1x128.Idx → EReal) ?_
  funext a
  apply Fin.ext
  match a with
  | ⟨0, _⟩ => show win0_3.index t 0 * 1 + 1 * 0 = 0; rw [e0]
  | ⟨1, _⟩ => show win0_3.index t 1 * 128 + 1 * q.val = q.val; rw [e1]; omega

/-- WHAT POINT `t` WRITES BACK is block `t` of the layer's formula over the arrays the region finds. -/
theorem flushed_eq (c : Dev nD) (t : Fin cfg0.N) :
    (dat0 V c).flushed 5 t = ((cfg0.win 5).blk t).view.read (Elt Ideal)
      (G (V c main_v23) (V c main_arg0) (V c main_arg2) (V c main_arg4) (V c main_v24)) := by
  show (cfg0.win 5).cut (grid0.coords t) ((dat0 V c).after 5 t) = _
  rw [after0_5]
  unfold out0_5
  rw [View.canon_unit_zero hz]
  simp only [View.ld_unit_zero (S := S2000x12) hz, View.ld_unit_zero (S := S128x12) hz, View.ld_unit_zero (S := S1x128) hz]
  funext y
  obtain ⟨p, q, rfl⟩ : ∃ (p : Fin 2000) (q : Fin 128), y = ix2 p q := ⟨y 0, y 1, eq_ix2 y⟩
  obtain ⟨-, -, -, -, -, -, -, -, -, -, e0, e1⟩ := idx_facts t
  have ht : t.val < 20 := by have := t.isLt; have hN : cfg0.N = 20 := N_0; omega
  have hemb : ((cfg0.win 5).blk t).view.emb (ix2 p q) = ix2 (⟨2000 * t.val + p.val, by have := p.isLt; omega⟩ : Fin 40000) q := by
    funext a
    apply Fin.ext
    match a with
    | ⟨0, _⟩ => show win0_5.index t 0 * 2000 + 1 * p.val = 2000 * t.val + p.val; rw [e0]; omega
    | ⟨1, _⟩ => show win0_5.index t 1 * 128 + 1 * q.val = q.val; rw [e1]; omega
  show k0_pay1 (iblk0 V c 0 t) (iblk0 V c 1 t) (iblk0 V c 2 t) (iblk0 V c 4 t) (iblk0 V c 3 t) (ix2 p q)
    = G (V c main_v23) (V c main_arg0) (V c main_arg2) (V c main_arg4) (V c main_v24) (((cfg0.win 5).blk t).view.emb (ix2 p q))
  rw [hemb]
  refine (pay_at _ _ _ _ _ p q).trans ?_
  unfold G
  refine congrArg SageSpec.elu (congrArg₂ (· + ·) (congrArg₂ (· + ·) ?_ ?_) (whole_bl V c t q))
  · exact Finset.sum_congr rfl fun k _ => congrArg₂ (· * ·) (rows_mean V c t p k _ rfl) (whole_wl V c t q k)
  · exact Finset.sum_congr rfl fun k _ => congrArg₂ (· * ·) (rows_h V c t p k _ rfl) (whole_wr V c t q k)

/-- Every node's row lies in the block of the point `row / 2000`. -/
theorem cover (i : S40000x128.Idx) : ∃ t : Fin cfg0.N, (cfg0.win 5).flush t = true ∧ i ∈ ((cfg0.win 5).blk t).view.set := by
  have hi0 : (i 0).val < 40000 := (i 0).isLt
  have hi1 : (i 1).val < 128 := (i 1).isLt
  let t : Fin cfg0.N := ⟨(i 0).val / 2000, by rw [show cfg0.N = 20 from N_0]; omega⟩
  obtain ⟨-, -, -, -, -, -, -, -, -, -, e0, e1⟩ := idx_facts t
  have e0' : win0_5.index t (0 : Fin 2) = (i 0).val / 2000 := e0
  refine ⟨t, flush0_5 t, ?_⟩
  show i ∈ ((View.whole main_v25).slice (win0_5.rect t)).set
  rw [View.set_slice_whole, Rect.mem_set_unit]
  intro a
  match a with
  | ⟨0, _⟩ => show win0_5.index t (0 : Fin 2) * 2000 ≤ (i 0).val ∧ (i 0).val < win0_5.index t (0 : Fin 2) * 2000 + 2000; rw [e0']; omega
  | ⟨1, _⟩ => show win0_5.index t (1 : Fin 2) * 128 ≤ (i 1).val ∧ (i 1).val < win0_5.index t (1 : Fin 2) * 128 + 128; rw [e1]; omega

/-- THE OUTPUT ARRAY after the region: the layer's formula of the whole arrays the region was entered with. -/
theorem region_out (c : Dev nD) :
    (dat0 V c).arrAt 5 cfg0.N = G (V c main_v23) (V c main_arg0) (V c main_arg2) (V c main_arg4) (V c main_v24) :=
  (dat0 V c).arrAt_eq_of_cover 5 _ (fun t _ => flushed_eq V c t) cover

end Cert.KernelIdeal.Layer1

end
-- ==== Proof.K1Value.lean ====
/-
  Layer 2 of the network on the matrix unit, read as one function of whole arrays.

  The region walks 20 blocks of 2000 nodes. At block t the body loads rows 2000·t … 2000·t + 1999 of the mean array and
  of the feature array, the two weight matrices and the bias row whole, and stores for node r of the block and output
  feature j
      ELU((Σ_k mean(r, k) · Wl(j, k) + Σ_k h(r, k) · Wr(j, k)) + bl(0, j))
  (the narrowing of the matrix operands to half precision is the identity on the extended reals, and a product
  accumulated into zero is the plain sum over the contracted feature). Block t of the output array is written back from
  exactly that buffer, the 20 blocks tile the 40000 rows, so after the region the output array is the same formula of the
  WHOLE arrays at every node: `region_out`.
-/
import proofs.«162061_j5377299055106_1_alg».proof.Proof.Gen.KernelIdeal.Frame
import proofs.«162061_j5377299055106_1_alg».proof.Proof.SageSpec
import Idealize.ShloMosaic.Lib.Pipeline.Value
import Idealize.ShloMosaic.Lib.ValueIdx
import Idealize.ShloMosaic.PureOps.Ideal.Laws

noncomputable section

open Idealize.ShloMosaic Idealize.ShloMosaic.TcCoe Idealize.SL.Sem Idealize.ShloMosaic.ValueIdx
open Idealize.ShloMosaic.Pipeline (Dat)

namespace Cert.KernelIdeal.Layer2

open Cert.KernelIdeal Cert.KernelIdeal.Gen

/-- The contraction the body's two products share: rows of a [2000, 128] block against rows of a [128, 128] matrix. -/
abbrev D := dot_S2000x128_S128x128_S2000x128_1_1_0_0_n_n

theorem hz : (![0, 0] : Fin 2 → Nat) = fun _ => 0 := funext fun a => by fin_cases a <;> rfl

/-! ## The operand indices of the contraction, coordinate by coordinate -/

theorem lhs_row (i : S2000x128.Idx) (q : D.contr.Idx) : (D.lhsIdx i q 0).val = (i 0).val := by
  unfold DotDims.lhsIdx
  rw [dif_neg (show ¬(0 : Fin S2000x128.rank) ∈ D.lhsBatch by decide), dif_pos (show (0 : Fin S2000x128.rank) ∈ D.lhsNonContracting by decide)]
  rfl

theorem lhs_col (i : S2000x128.Idx) (q : D.contr.Idx) : (D.lhsIdx i q 1).val = (q ⟨0, by decide⟩).val :=
  D.lhsIdx_val_of_single rfl i q

theorem rhs_row (i : S2000x128.Idx) (q : D.contr.Idx) : (D.rhsIdx i q 0).val = (i 1).val := by
  unfold DotDims.rhsIdx
  rw [dif_neg (show ¬(0 : Fin S128x128.rank) ∈ D.rhsBatch by decide), dif_pos (show (0 : Fin S128x128.rank) ∈ D.rhsNonContracting by decide)]
  rfl

theorem rhs_col (i : S2000x128.Idx) (q : D.contr.Idx) : (D.rhsIdx i q 1).val = (q ⟨0, by decide⟩).val :=
  D.rhsIdx_val_of_single rfl i q

/-- A block of rows times the transpose of a weight matrix, accumulated into zero: at row `p` and output feature `q` the sum
    over the 128 input features of the products. -/
theorem matmul_at {φ₁ φ₂ : FTy} (l : FVec Ideal S2000x128 φ₁) (r : FVec Ideal S128x128 φ₂) (p : Fin 2000) (q : Fin 128) :
    matmul D none l r (constant S2000x128 .f32 0x00000000#32) (ix2 p q) = ∑ k : Fin 128, l (ix2 p k) * r (ix2 q k) := by
  refine (Ideal.matmul_constant_zero_apply D none l r (ix2 p q)).trans ?_
  rw [← Equiv.sum_comp (contrEquiv1 D 128 rfl rfl).symm]
  refine Finset.sum_congr rfl fun k _ => ?_
  have hk := contrEquiv1_symm_val D 128 rfl rfl k
  have el : D.lhsIdx (ix2 p q) ((contrEquiv1 D 128 rfl rfl).symm k) = ix2 p k := funext fun a => Fin.ext (by
    match a with
    | ⟨0, _⟩ => exact lhs_row _ _
    | ⟨1, _⟩ => exact (lhs_col _ _).trans hk)
  have er : D.rhsIdx (ix2 p q) ((contrEquiv1 D 128 rfl rfl).symm k) = ix2 q k := funext fun a => Fin.ext (by
    match a with
    | ⟨0, _⟩ => exact rhs_row _ _
    | ⟨1, _⟩ => exact (rhs_col _ _).trans hk)
  rw [el, er]

/-- The body's nonlinearity at an element: `z` where it is above zero, else `exp z − 1`. -/
theorem elu_vec (z : FVec Ideal S2000x128 .f32) (i : S2000x128.Idx) :
    select (cmpf .ogt z (broadcast S2000x128 (Scalar.ofBits .f32 0x00000000#32))) z
      (subf (exp z) (broadcast S2000x128 (Scalar.ofBits .f32 0x3F800000#32))) i = SageSpec.elu (z i) := by
  show Scalar.select (Ideal.cmp .ogt (z i) (Ideal.ofBits .f32 0x00000000#32)) (z i) (Ideal.exp (z i) - Ideal.ofBits .f32 0x3F800000#32) = _
  rw [SageSpec.select_ogt, SageSpec.zero_f32, SageSpec.one_f32]
  rfl

/-- What the body stores, at row `p` of the block and output feature `q`. -/
theorem pay_at (x0 x1 : Vec Ideal S2000x128 .f32) (x2 x4 : Vec Ideal S128x128 .f32) (x3 : Vec Ideal S1x128 .f32) (p : Fin 2000) (q : Fin 128) :
    k1_pay1 x0 x1 x2 x4 x3 (ix2 p q)
      = SageSpec.elu ((∑ k : Fin 128, x0 (ix2 p k) * x2 (ix2 q k) + ∑ k : Fin 128, x1 (ix2 p k) * x4 (ix2 q k)) + x3 (ix2 0 q)) := by
  unfold k1_pay1
  simp only [shapeCast_self]
  refine (elu_vec _ (ix2 p q)).trans (congrArg SageSpec.elu ?_)
  refine congrArg₂ (· + ·) (congrArg₂ (· + ·) (matmul_at _ _ p q) (matmul_at _ _ p q)) ?_
  exact broadcastTo_apply x3 _ (ix2 p q) (ix2 0 q) (fun a => by
    match a with
    | ⟨0, _⟩ => rfl
    | ⟨1, _⟩ => rfl)

/-! ## The blocks as rows of the arrays the region finds -/

variable (V : (c : Dev nD) → (b : Ref sig .tc) → Buf (Elt Ideal) ((c : Thread nD τ).loc b))

/-- The printed index maps over the 20 points: the row windows and the output move one block per point, the weights and
    the bias stay. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- The layer over whole arrays: mean `mn`, features `h`, weights `Wl`, `Wr`, bias row `bl`. -/
def G (mn h : S40000x128.Idx → EReal) (Wl Wr : S128x128.Idx → EReal) (bl : S1x128.Idx → EReal) : S40000x128.Idx → EReal :=
  fun i => SageSpec.elu ((∑ k : Fin 128, mn (ix2 (i 0) k) * Wl (ix2 (i 1) k) + ∑ k : Fin 128, h (ix2 (i 0) k) * Wr (ix2 (i 1) k)) + bl (ix2 0 (i 1)))

/-- Row `p` of the mean window's block at point `t` is row `2000·t + p` of the mean array. -/
theorem rows_mean (c : Dev nD) (t : Fin cfg1.N) (p : Fin 2000) (k : Fin 128) (r : Fin 40000) (hr : r.val = 2000 * t.val + p.val) :
    (iblk1 V c 0 t : Vec Ideal S2000x128 .f32) (ix2 p k) = (V c main_v37 : S40000x128.Idx → EReal) (ix2 r k) := by
  obtain ⟨e0, e1, -⟩ := idx_facts t
  unfold iblk1
  rw [View.read_apply]
  refine congrArg (V c main_v37 : S40000x128.Idx → EReal) ?_
  funext a
  apply Fin.ext
  match a with
  | ⟨0, _⟩ => show win1_0.index t 0 * 2000 + 1 * p.val = r.val; rw [e0, hr]; omega
  | ⟨1, _⟩ => show win1_0.index t 1 * 128 + 1 * k.val = k.val; rw [e1]; omega

/-- The same for the feature window. -/
theorem rows_h (c : Dev nD) (t : Fin cfg1.N) (p : Fin 2000) (k : Fin 128) (r : Fin 40000) (hr : r.val = 2000 * t.val + p.val) :
    (iblk1 V c 1 t : Vec Ideal S2000x128 .f32) (ix2 p k) = (V c main_v25 : S40000x128.Idx → EReal) (ix2 r k) := by
  obtain ⟨-, -, e0, e1, -⟩ := idx_facts t
  unfold iblk1
  rw [View.read_apply]
  refine congrArg (V c main_v25 : S40000x128.Idx → EReal) ?_
  funext a
  apply Fin.ext
  match a with
  | ⟨0, _⟩ => show win1_1.index t 0 * 2000 + 1 * p.val = r.val; rw [e0, hr]; omega
  | ⟨1, _⟩ => show win1_1.index t 1 * 128 + 1 * k.val = k.val; rw [e1]; omega

/-- The weight windows' one block is the whole matrix. -/
theorem whole_wl (c : Dev nD) (t : Fin cfg1.N) (q : Fin 128) (k : Fin 128) :
    (iblk1 V c 2 t : Vec Ideal S128x128 .f32) (ix2 q k) = (V c main_arg5 : S128x128.Idx → EReal) (ix2 q k) := by
  obtain ⟨-, -, -, -, e0, e1, -⟩ := idx_facts t
  unfold iblk1
  rw [View.read_apply]
  refine congrArg (V c main_arg5 : S128x128.Idx → EReal) ?_
  funext a
  apply Fin.ext
  match a with
  | ⟨0, _⟩ => show win1_2.index t 0 * 128 + 1 * q.val = q.val; rw [e0]; omega
  | ⟨1, _⟩ => show win1_2.index t 1 * 128 + 1 * k.val = k.val; rw [e1]; omega

theorem whole_wr (c : Dev nD) (t : Fin cfg1.N) (q : Fin 128) (k : Fin 128) :
    (iblk1 V c 4 t : Vec Ideal S128x128 .f32) (ix2 q k) = (V c main_arg7 : S128x128.Idx → EReal) (ix2 q k) := by
  obtain ⟨-, -, -, -, -, -, -, -, e0, e1, -⟩ := idx_facts t
  unfold iblk1
  rw [View.read_apply]
  refine congrArg (V c main_arg7 : S128x128.Idx → EReal) ?_
  funext a
  apply Fin.ext
  match a with
  | ⟨0, _⟩ => show win1_4.index t 0 * 128 + 1 * q.val = q.val; rw [e0]; omega
  | ⟨1, _⟩ => show win1_4.index t 1 * 128 + 1 * k.val = k.val; rw [e1]; omega

/-- The bias window's one block is the whole row. -/
theorem whole_bl (c : Dev nD) (t : Fin cfg1.N) (q : Fin 128) :
    (iblk1 V c 3 t : Vec Ideal S1x128 .f32) (ix2 0 q) = (V c main_v38 : S1x128.Idx → EReal) (ix2 0 q) := by
  obtain ⟨-, -, -, -, -, -, e0, e1, -⟩ := idx_facts t
  unfold iblk1
  rw [View.read_apply]
  refine congrArg (V c main_v38 : S1x128.Idx → EReal) ?_
  funext a
  apply Fin.ext
  match a with
  | ⟨0, _⟩ => show win1_3.index t 0 * 1 + 1 * 0 = 0; rw [e0]
  | ⟨1, _⟩ => show win1_3.index t 1 * 128 + 1 * q.val = q.val; rw [e1]; omega

/-- WHAT POINT `t` WRITES BACK is block `t` of the layer's formula over the arrays the region finds. -/
theorem flushed_eq (c : Dev nD) (t : Fin cfg1.N) :
    (dat1 V c).flushed 5 t = ((cfg1.win 5).blk t).view.read (Elt Ideal)
      (G (V c main_v37) (V c main_v25) (V c main_arg5) (V c main_arg7) (V c main_v38)) := by
  show (cfg1.win 5).cut (grid1.coords t) ((dat1 V c).after 5 t) = _
  rw [after1_5]
  unfold out1_5
  rw [View.canon_unit_zero hz]
  simp only [View.ld_unit_zero (S := S2000x128) hz, View.ld_unit_zero (S := S128x128) hz, View.ld_unit_zero (S := S1x128) hz]
  funext y
  obtain ⟨p, q, rfl⟩ : ∃ (p : Fin 2000) (q : Fin 128), y = ix2 p q := ⟨y 0, y 1, eq_ix2 y⟩
  obtain ⟨-, -, -, -, -, -, -, -, -, -, e0, e1⟩ := idx_facts t
  have ht : t.val < 20 := by have := t.isLt; have hN : cfg1.N = 20 := N_1; omega
  have hemb : ((cfg1.win 5).blk t).view.emb (ix2 p q) = ix2 (⟨2000 * t.val + p.val, by have := p.isLt; omega⟩ : Fin 40000) q := by
    funext a
    apply Fin.ext
    match a with
    | ⟨0, _⟩ => show win1_5.index t 0 * 2000 + 1 * p.val = 2000 * t.val + p.val; rw [e0]; omega
    | ⟨1, _⟩ => show win1_5.index t 1 * 128 + 1 * q.val = q.val; rw [e1]; omega
  show k1_pay1 (iblk1 V c 0 t) (iblk1 V c 1 t) (iblk1 V c 2 t) (iblk1 V c 4 t) (iblk1 V c 3 t) (ix2 p q)
    = G (V c main_v37) (V c main_v25) (V c main_arg5) (V c main_arg7) (V c main_v38) (((cfg1.win 5).blk t).view.emb (ix2 p q))
  rw [hemb]
  refine (pay_at _ _ _ _ _ p q).trans ?_
  unfold G
  refine congrArg SageSpec.elu (congrArg₂ (· + ·) (congrArg₂ (· + ·) ?_ ?_) (whole_bl V c t q))
  · exact Finset.sum_congr rfl fun k _ => congrArg₂ (· * ·) (rows_mean V c t p k _ rfl) (whole_wl V c t q k)
  · exact Finset.sum_congr rfl fun k _ => congrArg₂ (· * ·) (rows_h V c t p k _ rfl) (whole_wr V c t q k)

/-- Every node's row lies in the block of the point `row / 2000`. -/
theorem cover (i : S40000x128.Idx) : ∃ t : Fin cfg1.N, (cfg1.win 5).flush t = true ∧ i ∈ ((cfg1.win 5).blk t).view.set := by
  have hi0 : (i 0).val < 40000 := (i 0).isLt
  have hi1 : (i 1).val < 128 := (i 1).isLt
  let t : Fin cfg1.N := ⟨(i 0).val / 2000, by rw [show cfg1.N = 20 from N_1]; omega⟩
  obtain ⟨-, -, -, -, -, -, -, -, -, -, e0, e1⟩ := idx_facts t
  have e0' : win1_5.index t (0 : Fin 2) = (i 0).val / 2000 := e0
  refine ⟨t, flush1_5 t, ?_⟩
  show i ∈ ((View.whole main_v39).slice (win1_5.rect t)).set
  rw [View.set_slice_whole, Rect.mem_set_unit]
  intro a
  match a with
  | ⟨0, _⟩ => show win1_5.index t (0 : Fin 2) * 2000 ≤ (i 0).val ∧ (i 0).val < win1_5.index t (0 : Fin 2) * 2000 + 2000; rw [e0']; omega
  | ⟨1, _⟩ => show win1_5.index t (1 : Fin 2) * 128 ≤ (i 1).val ∧ (i 1).val < win1_5.index t (1 : Fin 2) * 128 + 128; rw [e1]; omega

/-- THE OUTPUT ARRAY after the region: the layer's formula of the whole arrays the region was entered with. -/
theorem region_out (c : Dev nD) :
    (dat1 V c).arrAt 5 cfg1.N = G (V c main_v37) (V c main_v25) (V c main_arg5) (V c main_arg7) (V c main_v38) :=
  (dat1 V c).arrAt_eq_of_cover 5 _ (fun t _ => flushed_eq V c t) cover

end Cert.KernelIdeal.Layer2

end
-- ==== Proof.K2Value.lean ====
/-
  Layer 3 of the network on the matrix unit, read as one function of whole arrays.

  The region walks 20 blocks of 2000 nodes. At block t the body loads rows 2000·t … 2000·t + 1999 of the mean array and
  of the feature array, the two weight matrices and the bias row whole, and stores for node r of the block and output
  feature j
      ELU((Σ_k mean(r, k) · Wl(j, k) + Σ_k h(r, k) · Wr(j, k)) + bl(0, j))
  (the narrowing of the matrix operands to half precision is the identity on the extended reals, and a product
  accumulated into zero is the plain sum over the contracted feature). Block t of the output array is written back from
  exactly that buffer, the 20 blocks tile the 40000 rows, so after the region the output array is the same formula of the
  WHOLE arrays at every node: `region_out`.
-/
import proofs.«162061_j5377299055106_1_alg».proof.Proof.Gen.KernelIdeal.Frame
import proofs.«162061_j5377299055106_1_alg».proof.Proof.SageSpec
import Idealize.ShloMosaic.Lib.Pipeline.Value
import Idealize.ShloMosaic.Lib.ValueIdx
import Idealize.ShloMosaic.PureOps.Ideal.Laws

noncomputable section

open Idealize.ShloMosaic Idealize.ShloMosaic.TcCoe Idealize.SL.Sem Idealize.ShloMosaic.ValueIdx
open Idealize.ShloMosaic.Pipeline (Dat)

namespace Cert.KernelIdeal.Layer3

open Cert.KernelIdeal Cert.KernelIdeal.Gen

/-- The contraction the body's two products share: rows of a [2000, 128] block against rows of a [128, 128] matrix. -/
abbrev D := dot_S2000x128_S128x128_S2000x128_1_1_0_0_n_n

theorem hz : (![0, 0] : Fin 2 → Nat) = fun _ => 0 := funext fun a => by fin_cases a <;> rfl

/-! ## The operand indices of the contraction, coordinate by coordinate -/

theorem lhs_row (i : S2000x128.Idx) (q : D.contr.Idx) : (D.lhsIdx i q 0).val = (i 0).val := by
  unfold DotDims.lhsIdx
  rw [dif_neg (show ¬(0 : Fin S2000x128.rank) ∈ D.lhsBatch by decide), dif_pos (show (0 : Fin S2000x128.rank) ∈ D.lhsNonContracting by decide)]
  rfl

theorem lhs_col (i : S2000x128.Idx) (q : D.contr.Idx) : (D.lhsIdx i q 1).val = (q ⟨0, by decide⟩).val :=
  D.lhsIdx_val_of_single rfl i q

theorem rhs_row (i : S2000x128.Idx) (q : D.contr.Idx) : (D.rhsIdx i q 0).val = (i 1).val := by
  unfold DotDims.rhsIdx
  rw [dif_neg (show ¬(0 : Fin S128x128.rank) ∈ D.rhsBatch by decide), dif_pos (show (0 : Fin S128x128.rank) ∈ D.rhsNonContracting by decide)]
  rfl

theorem rhs_col (i : S2000x128.Idx) (q : D.contr.Idx) : (D.rhsIdx i q 1).val = (q ⟨0, by decide⟩).val :=
  D.rhsIdx_val_of_single rfl i q

/-- A block of rows times the transpose of a weight matrix, accumulated into zero: at row `p` and output feature `q` the sum
    over the 128 input features of the products. -/
theorem matmul_at {φ₁ φ₂ : FTy} (l : FVec Ideal S2000x128 φ₁) (r : FVec Ideal S128x128 φ₂) (p : Fin 2000) (q : Fin 128) :
    matmul D none l r (constant S2000x128 .f32 0x00000000#32) (ix2 p q) = ∑ k : Fin 128, l (ix2 p k) * r (ix2 q k) := by
  refine (Ideal.matmul_constant_zero_apply D none l r (ix2 p q)).trans ?_
  rw [← Equiv.sum_comp (contrEquiv1 D 128 rfl rfl).symm]
  refine Finset.sum_congr rfl fun k _ => ?_
  have hk := contrEquiv1_symm_val D 128 rfl rfl k
  have el : D.lhsIdx (ix2 p q) ((contrEquiv1 D 128 rfl rfl).symm k) = ix2 p k := funext fun a => Fin.ext (by
    match a with
    | ⟨0, _⟩ => exact lhs_row _ _
    | ⟨1, _⟩ => exact (lhs_col _ _).trans hk)
  have er : D.rhsIdx (ix2 p q) ((contrEquiv1 D 128 rfl rfl).symm k) = ix2 q k := funext fun a => Fin.ext (by
    match a with
    | ⟨0, _⟩ => exact rhs_row _ _
    | ⟨1, _⟩ => exact (rhs_col _ _).trans hk)
  rw [el, er]

/-- The body's nonlinearity at an element: `z` where it is above zero, else `exp z − 1`. -/
theorem elu_vec (z : FVec Ideal S2000x128 .f32) (i : S2000x128.Idx) :
    select (cmpf .ogt z (broadcast S2000x128 (Scalar.ofBits .f32 0x00000000#32))) z
      (subf (exp z) (broadcast S2000x128 (Scalar.ofBits .f32 0x3F800000#32))) i = SageSpec.elu (z i) := by
  show Scalar.select (Ideal.cmp .ogt (z i) (Ideal.ofBits .f32 0x00000000#32)) (z i) (Ideal.exp (z i) - Ideal.ofBits .f32 0x3F800000#32) = _
  rw [SageSpec.select_ogt, SageSpec.zero_f32, SageSpec.one_f32]
  rfl

/-- What the body stores, at row `p` of the block and output feature `q`. -/
theorem pay_at (x0 x1 : Vec Ideal S2000x128 .f32) (x2 x4 : Vec Ideal S128x128 .f32) (x3 : Vec Ideal S1x128 .f32) (p : Fin 2000) (q : Fin 128) :
    k2_pay1 x0 x1 x2 x4 x3 (ix2 p q)
      = SageSpec.elu ((∑ k : Fin 128, x0 (ix2 p k) * x2 (ix2 q k) + ∑ k : Fin 128, x1 (ix2 p k) * x4 (ix2 q k)) + x3 (ix2 0 q)) := by
  unfold k2_pay1
  simp only [shapeCast_self]
  refine (elu_vec _ (ix2 p q)).trans (congrArg SageSpec.elu ?_)
  refine congrArg₂ (· + ·) (congrArg₂ (· + ·) (matmul_at _ _ p q) (matmul_at _ _ p q)) ?_
  exact broadcastTo_apply x3 _ (ix2 p q) (ix2 0 q) (fun a => by
    match a with
    | ⟨0, _⟩ => rfl
    | ⟨1, _⟩ => rfl)

/-! ## The blocks as rows of the arrays the region finds -/

variable (V : (c : Dev nD) → (b : Ref sig .tc) → Buf (Elt Ideal) ((c : Thread nD τ).loc b))

/-- The printed index maps over the 20 points: the row windows and the output move one block per point, the weights and
    the bias stay. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- The layer over whole arrays: mean `mn`, features `h`, weights `Wl`, `Wr`, bias row `bl`. -/
def G (mn h : S40000x128.Idx → EReal) (Wl Wr : S128x128.Idx → EReal) (bl : S1x128.Idx → EReal) : S40000x128.Idx → EReal :=
  fun i => SageSpec.elu ((∑ k : Fin 128, mn (ix2 (i 0) k) * Wl (ix2 (i 1) k) + ∑ k : Fin 128, h (ix2 (i 0) k) * Wr (ix2 (i 1) k)) + bl (ix2 0 (i 1)))

/-- Row `p` of the mean window's block at point `t` is row `2000·t + p` of the mean array. -/
theorem rows_mean (c : Dev nD) (t : Fin cfg2.N) (p : Fin 2000) (k : Fin 128) (r : Fin 40000) (hr : r.val = 2000 * t.val + p.val) :
    (iblk2 V c 0 t : Vec Ideal S2000x128 .f32) (ix2 p k) = (V c main_v51 : S40000x128.Idx → EReal) (ix2 r k) := by
  obtain ⟨e0, e1, -⟩ := idx_facts t
  unfold iblk2
  rw [View.read_apply]
  refine congrArg (V c main_v51 : S40000x128.Idx → EReal) ?_
  funext a
  apply Fin.ext
  match a with
  | ⟨0, _⟩ => show win2_0.index t 0 * 2000 + 1 * p.val = r.val; rw [e0, hr]; omega
  | ⟨1, _⟩ => show win2_0.index t 1 * 128 + 1 * k.val = k.val; rw [e1]; omega

/-- The same for the feature window. -/
theorem rows_h (c : Dev nD) (t : Fin cfg2.N) (p : Fin 2000) (k : Fin 128) (r : Fin 40000) (hr : r.val = 2000 * t.val + p.val) :
    (iblk2 V c 1 t : Vec Ideal S2000x128 .f32) (ix2 p k) = (V c main_v39 : S40000x128.Idx → EReal) (ix2 r k) := by
  obtain ⟨-, -, e0, e1, -⟩ := idx_facts t
  unfold iblk2
  rw [View.read_apply]
  refine congrArg (V c main_v39 : S40000x128.Idx → EReal) ?_
  funext a
  apply Fin.ext
  match a with
  | ⟨0, _⟩ => show win2_1.index t 0 * 2000 + 1 * p.val = r.val; rw [e0, hr]; omega
  | ⟨1, _⟩ => show win2_1.index t 1 * 128 + 1 * k.val = k.val; rw [e1]; omega

/-- The weight windows' one block is the whole matrix. -/
theorem whole_wl (c : Dev nD) (t : Fin cfg2.N) (q : Fin 128) (k : Fin 128) :
    (iblk2 V c 2 t : Vec Ideal S128x128 .f32) (ix2 q k) = (V c main_arg8 : S128x128.Idx → EReal) (ix2 q k) := by
  obtain ⟨-, -, -, -, e0, e1, -⟩ := idx_facts t
  unfold iblk2
  rw [View.read_apply]
  refine congrArg (V c main_arg8 : S128x128.Idx → EReal) ?_
  funext a
  apply Fin.ext
  match a with
  | ⟨0, _⟩ => show win2_2.index t 0 * 128 + 1 * q.val = q.val; rw [e0]; omega
  | ⟨1, _⟩ => show win2_2.index t 1 * 128 + 1 * k.val = k.val; rw [e1]; omega

theorem whole_wr (c : Dev nD) (t : Fin cfg2.N) (q : Fin 128) (k : Fin 128) :
    (iblk2 V c 4 t : Vec Ideal S128x128 .f32) (ix2 q k) = (V c main_arg10 : S128x128.Idx → EReal) (ix2 q k) := by
  obtain ⟨-, -, -, -, -, -, -, -, e0, e1, -⟩ := idx_facts t
  unfold iblk2
  rw [View.read_apply]
  refine congrArg (V c main_arg10 : S128x128.Idx → EReal) ?_
  funext a
  apply Fin.ext
  match a with
  | ⟨0, _⟩ => show win2_4.index t 0 * 128 + 1 * q.val = q.val; rw [e0]; omega
  | ⟨1, _⟩ => show win2_4.index t 1 * 128 + 1 * k.val = k.val; rw [e1]; omega

/-- The bias window's one block is the whole row. -/
theorem whole_bl (c : Dev nD) (t : Fin cfg2.N) (q : Fin 128) :
    (iblk2 V c 3 t : Vec Ideal S1x128 .f32) (ix2 0 q) = (V c main_v52 : S1x128.Idx → EReal) (ix2 0 q) := by
  obtain ⟨-, -, -, -, -, -, e0, e1, -⟩ := idx_facts t
  unfold iblk2
  rw [View.read_apply]
  refine congrArg (V c main_v52 : S1x128.Idx → EReal) ?_
  funext a
  apply Fin.ext
  match a with
  | ⟨0, _⟩ => show win2_3.index t 0 * 1 + 1 * 0 = 0; rw [e0]
  | ⟨1, _⟩ => show win2_3.index t 1 * 128 + 1 * q.val = q.val; rw [e1]; omega

/-- WHAT POINT `t` WRITES BACK is block `t` of the layer's formula over the arrays the region finds. -/
theorem flushed_eq (c : Dev nD) (t : Fin cfg2.N) :
    (dat2 V c).flushed 5 t = ((cfg2.win 5).blk t).view.read (Elt Ideal)
      (G (V c main_v51) (V c main_v39) (V c main_arg8) (V c main_arg10) (V c main_v52)) := by
  show (cfg2.win 5).cut (grid2.coords t) ((dat2 V c).after 5 t) = _
  rw [after2_5]
  unfold out2_5
  rw [View.canon_unit_zero hz]
  simp only [View.ld_unit_zero (S := S2000x128) hz, View.ld_unit_zero (S := S128x128) hz, View.ld_unit_zero (S := S1x128) hz]
  funext y
  obtain ⟨p, q, rfl⟩ : ∃ (p : Fin 2000) (q : Fin 128), y = ix2 p q := ⟨y 0, y 1, eq_ix2 y⟩
  obtain ⟨-, -, -, -, -, -, -, -, -, -, e0, e1⟩ := idx_facts t
  have ht : t.val < 20 := by have := t.isLt; have hN : cfg2.N = 20 := N_2; omega
  have hemb : ((cfg2.win 5).blk t).view.emb (ix2 p q) = ix2 (⟨2000 * t.val + p.val, by have := p.isLt; omega⟩ : Fin 40000) q := by
    funext a
    apply Fin.ext
    match a with
    | ⟨0, _⟩ => show win2_5.index t 0 * 2000 + 1 * p.val = 2000 * t.val + p.val; rw [e0]; omega
    | ⟨1, _⟩ => show win2_5.index t 1 * 128 + 1 * q.val = q.val; rw [e1]; omega
  show k2_pay1 (iblk2 V c 0 t) (iblk2 V c 1 t) (iblk2 V c 2 t) (iblk2 V c 4 t) (iblk2 V c 3 t) (ix2 p q)
    = G (V c main_v51) (V c main_v39) (V c main_arg8) (V c main_arg10) (V c main_v52) (((cfg2.win 5).blk t).view.emb (ix2 p q))
  rw [hemb]
  refine (pay_at _ _ _ _ _ p q).trans ?_
  unfold G
  refine congrArg SageSpec.elu (congrArg₂ (· + ·) (congrArg₂ (· + ·) ?_ ?_) (whole_bl V c t q))
  · exact Finset.sum_congr rfl fun k _ => congrArg₂ (· * ·) (rows_mean V c t p k _ rfl) (whole_wl V c t q k)
  · exact Finset.sum_congr rfl fun k _ => congrArg₂ (· * ·) (rows_h V c t p k _ rfl) (whole_wr V c t q k)

/-- Every node's row lies in the block of the point `row / 2000`. -/
theorem cover (i : S40000x128.Idx) : ∃ t : Fin cfg2.N, (cfg2.win 5).flush t = true ∧ i ∈ ((cfg2.win 5).blk t).view.set := by
  have hi0 : (i 0).val < 40000 := (i 0).isLt
  have hi1 : (i 1).val < 128 := (i 1).isLt
  let t : Fin cfg2.N := ⟨(i 0).val / 2000, by rw [show cfg2.N = 20 from N_2]; omega⟩
  obtain ⟨-, -, -, -, -, -, -, -, -, -, e0, e1⟩ := idx_facts t
  have e0' : win2_5.index t (0 : Fin 2) = (i 0).val / 2000 := e0
  refine ⟨t, flush2_5 t, ?_⟩
  show i ∈ ((View.whole main_v53).slice (win2_5.rect t)).set
  rw [View.set_slice_whole, Rect.mem_set_unit]
  intro a
  match a with
  | ⟨0, _⟩ => show win2_5.index t (0 : Fin 2) * 2000 ≤ (i 0).val ∧ (i 0).val < win2_5.index t (0 : Fin 2) * 2000 + 2000; rw [e0']; omega
  | ⟨1, _⟩ => show win2_5.index t (1 : Fin 2) * 128 ≤ (i 1).val ∧ (i 1).val < win2_5.index t (1 : Fin 2) * 128 + 128; rw [e1]; omega

/-- THE OUTPUT ARRAY after the region: the layer's formula of the whole arrays the region was entered with. -/
theorem region_out (c : Dev nD) :
    (dat2 V c).arrAt 5 cfg2.N = G (V c main_v51) (V c main_v39) (V c main_arg8) (V c main_arg10) (V c main_v52) :=
  (dat2 V c).arrAt_eq_of_cover 5 _ (fun t _ => flushed_eq V c t) cover

end Cert.KernelIdeal.Layer3

end
-- ==== Proof.K3Value.lean ====
/-
  The linear head on the vector unit, read as one function of whole arrays.

  The region walks 10 blocks of 4000 nodes. At block t the body loads rows 4000·t … 4000·t + 3999 of the feature array,
  the weight row and the one-entry bias whole, multiplies each row by the weight row, sums each row over its 128 lanes
  (a lane sum from zero is the plain sum), and adds the bias: for node r of the block
      Σ_k h(r, k) · w(0, k) + b(0, 0).
  Block t of the [40000, 1] output is written back from that buffer; the 10 blocks tile the rows: `region_out`.
-/
import proofs.«162061_j5377299055106_1_alg».proof.Proof.Gen.KernelIdeal.Frame
import proofs.«162061_j5377299055106_1_alg».proof.Proof.SageSpec
import Idealize.ShloMosaic.Lib.Pipeline.Value
import Idealize.ShloMosaic.Lib.ValueIdx
import Idealize.ShloMosaic.PureOps.Ideal.Laws

noncomputable section

open Idealize.ShloMosaic Idealize.ShloMosaic.TcCoe Idealize.SL.Sem Idealize.ShloMosaic.ValueIdx
open Idealize.ShloMosaic.Pipeline (Dat)

namespace Cert.KernelIdeal.HeadValue

open Cert.KernelIdeal Cert.KernelIdeal.Gen

theorem hz : (![0, 0] : Fin 2 → Nat) = fun _ => 0 := funext fun a => by fin_cases a <;> rfl

/-- A lane sum from zero over the second axis, at row `p`: the sum of the row's 128 entries. -/
theorem rowsum_at (src : FVec Ideal S4000x128 .f32) (hφ : FKind.Formats .f32)
    (hacc : (0x00000000#32 : BitVec 32) = FKind.add.neutral .f32 hφ) (p : Fin 4000) :
    multiReduction .add [1] S4000 src 0x00000000#32 reduces_S4000x128_S4000 hφ hacc (ix1 p) = ∑ k : Fin 128, src (ix2 p k) := by
  refine (Ideal.multiReduction_add_single src 0x00000000#32 reduces_S4000x128_S4000 hφ hacc (ix1 p)).trans ?_
  refine Finset.sum_congr rfl fun k _ => congrArg src ?_
  funext a
  apply Fin.ext
  match a with
  | ⟨0, _⟩ => rfl
  | ⟨1, _⟩ => rfl

/-- What the body stores, at row `p` of the block. -/
theorem pay_at (x0 : Vec Ideal S4000x128 .f32) (x1 : Vec Ideal S1x128 .f32) (x2 : Vec Ideal S1x1 .f32) (p : Fin 4000) :
    k3_pay1 x0 x1 x2 (ix2 p 0) = ∑ k : Fin 128, x0 (ix2 p k) * x1 (ix2 0 k) + x2 (ix2 0 0) := by
  unfold k3_pay1
  simp only [shapeCast_self]
  refine congrArg₂ (· + ·) ?_ ?_
  · refine (shapeCast_apply _ _ (ix2 p 0) (ix1 p) ?_).trans ((rowsum_at _ _ _ p).trans ?_)
    · rw [Shape.rowMajor_val_one, Shape.rowMajor_val_two]
      show p.val = p.val * 1 + 0
      omega
    · exact Finset.sum_congr rfl fun k _ => congrArg (x0 (ix2 p k) * ·)
        (broadcastTo_apply x1 _ (ix2 p k) (ix2 0 k) (fun a => by
          match a with
          | ⟨0, _⟩ => rfl
          | ⟨1, _⟩ => rfl))
  · exact broadcastTo_apply x2 _ (ix2 p 0) (ix2 0 0) (fun a => by
      match a with
      | ⟨0, _⟩ => rfl
      | ⟨1, _⟩ => rfl)

variable (V : (c : Dev nD) → (b : Ref sig .tc) → Buf (Elt Ideal) ((c : Thread nD τ).loc b))

/-- The printed index maps over the 10 points: the feature window and the output move one block per point, the weight
    row and the bias stay. -/
theorem idx_facts : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- The head over whole arrays. -/
def G (h : S40000x128.Idx → EReal) (w : S1x128.Idx → EReal) (b : S1x1.Idx → EReal) : S40000x1.Idx → EReal :=
  fun i => ∑ k : Fin 128, h (ix2 (i 0) k) * w (ix2 0 k) + b (ix2 0 0)

/-- Row `p` of the feature window's block at point `t` is row `4000·t + p` of the feature array. -/
theorem rows_h (c : Dev nD) (t : Fin cfg3.N) (p : Fin 4000) (k : Fin 128) (r : Fin 40000) (hr : r.val = 4000 * t.val + p.val) :
    (iblk3 V c 0 t : Vec Ideal S4000x128 .f32) (ix2 p k) = (V c main_v53 : S40000x128.Idx → EReal) (ix2 r k) := by
  obtain ⟨e0, e1, -⟩ := idx_facts t
  unfold iblk3
  rw [View.read_apply]
  refine congrArg (V c main_v53 : S40000x128.Idx → EReal) ?_
  funext a
  apply Fin.ext
  match a with
  | ⟨0, _⟩ => show win3_0.index t 0 * 4000 + 1 * p.val = r.val; rw [e0, hr]; omega
  | ⟨1, _⟩ => show win3_0.index t 1 * 128 + 1 * k.val = k.val; rw [e1]; omega

theorem whole_w (c : Dev nD) (t : Fin cfg3.N) (k : Fin 128) :
    (iblk3 V c 1 t : Vec Ideal S1x128 .f32) (ix2 0 k) = (V c main_arg11 : S1x128.Idx → EReal) (ix2 0 k) := by
  obtain ⟨-, -, e0, e1, -⟩ := idx_facts t
  unfold iblk3
  rw [View.read_apply]
  refine congrArg (V c main_arg11 : S1x128.Idx → EReal) ?_
  funext a
  apply Fin.ext
  match a with
  | ⟨0, _⟩ => show win3_1.index t 0 * 1 + 1 * 0 = 0; rw [e0]
  | ⟨1, _⟩ => show win3_1.index t 1 * 128 + 1 * k.val = k.val; rw [e1]; omega

theorem whole_b (c : Dev nD) (t : Fin cfg3.N) :
    (iblk3 V c 2 t : Vec Ideal S1x1 .f32) (ix2 0 0) = (V c main_v54 : S1x1.Idx → EReal) (ix2 0 0) := by
  obtain ⟨-, -, -, -, e0, e1, -⟩ := idx_facts t
  unfold iblk3
  rw [View.read_apply]
  refine congrArg (V c main_v54 : S1x1.Idx → EReal) ?_
  funext a
  apply Fin.ext
  match a with
  | ⟨0, _⟩ => show win3_2.index t 0 * 1 + 1 * 0 = 0; rw [e0]
  | ⟨1, _⟩ => show win3_2.index t 1 * 1 + 1 * 0 = 0; rw [e1]

/-- WHAT POINT `t` WRITES BACK is block `t` of the head's formula over the arrays the region finds. -/
theorem flushed_eq (c : Dev nD) (t : Fin cfg3.N) :
    (dat3 V c).flushed 3 t = ((cfg3.win 3).blk t).view.read (Elt Ideal) (G (V c main_v53) (V c main_arg11) (V c main_v54)) := by
  show (cfg3.win 3).cut (grid3.coords t) ((dat3 V c).after 3 t) = _
  rw [after3_3]
  unfold out3_3
  rw [View.canon_unit_zero hz]
  simp only [View.ld_unit_zero (S := S4000x128) hz, View.ld_unit_zero (S := S1x128) hz, View.ld_unit_zero (S := S1x1) hz]
  funext y
  obtain ⟨p, q, rfl⟩ : ∃ (p : Fin 4000) (q : Fin 1), y = ix2 p q := ⟨y 0, y 1, eq_ix2 y⟩
  obtain rfl : q = 0 := Fin.eq_zero q
  obtain ⟨-, -, -, -, -, -, e0, e1⟩ := idx_facts t
  have ht : t.val < 10 := by have := t.isLt; have hN : cfg3.N = 10 := N_3; omega
  have hemb : ((cfg3.win 3).blk t).view.emb (ix2 p 0) = ix2 (⟨4000 * t.val + p.val, by have := p.isLt; omega⟩ : Fin 40000) 0 := by
    funext a
    apply Fin.ext
    match a with
    | ⟨0, _⟩ => show win3_3.index t 0 * 4000 + 1 * p.val = 4000 * t.val + p.val; rw [e0]; omega
    | ⟨1, _⟩ => show win3_3.index t 1 * 1 + 1 * 0 = 0; rw [e1]
  show k3_pay1 (iblk3 V c 0 t) (iblk3 V c 1 t) (iblk3 V c 2 t) (ix2 p 0)
    = G (V c main_v53) (V c main_arg11) (V c main_v54) (((cfg3.win 3).blk t).view.emb (ix2 p 0))
  rw [hemb]
  refine (pay_at _ _ _ p).trans ?_
  unfold G
  refine congrArg₂ (· + ·) ?_ (whole_b V c t)
  exact Finset.sum_congr rfl fun k _ => congrArg₂ (· * ·) (rows_h V c t p k _ rfl) (whole_w V c t k)

/-- Every node's row lies in the block of the point `row / 4000`. -/
theorem cover (i : S40000x1.Idx) : ∃ t : Fin cfg3.N, (cfg3.win 3).flush t = true ∧ i ∈ ((cfg3.win 3).blk t).view.set := by
  have hi0 : (i 0).val < 40000 := (i 0).isLt
  have hi1 : (i 1).val < 1 := (i 1).isLt
  let t : Fin cfg3.N := ⟨(i 0).val / 4000, by rw [show cfg3.N = 10 from N_3]; omega⟩
  obtain ⟨-, -, -, -, -, -, e0, e1⟩ := idx_facts t
  have e0' : win3_3.index t (0 : Fin 2) = (i 0).val / 4000 := e0
  refine ⟨t, flush3_3 t, ?_⟩
  show i ∈ ((View.whole main_v55).slice (win3_3.rect t)).set
  rw [View.set_slice_whole, Rect.mem_set_unit]
  intro a
  match a with
  | ⟨0, _⟩ => show win3_3.index t (0 : Fin 2) * 4000 ≤ (i 0).val ∧ (i 0).val < win3_3.index t (0 : Fin 2) * 4000 + 4000; rw [e0']; omega
  | ⟨1, _⟩ => show win3_3.index t (1 : Fin 2) * 1 ≤ (i 1).val ∧ (i 1).val < win3_3.index t (1 : Fin 2) * 1 + 1; rw [e1]; omega

/-- THE OUTPUT ARRAY after the region: the head's formula of the whole arrays the region was entered with. -/
theorem region_out (c : Dev nD) :
    (dat3 V c).arrAt 3 cfg3.N = G (V c main_v53) (V c main_arg11) (V c main_v54) :=
  (dat3 V c).arrAt_eq_of_cover 3 _ (fun t _ => flushed_eq V c t) cover

end Cert.KernelIdeal.HeadValue

end
-- ==== Proof.KBridge.lean ====
/-
  The kernel program's layers and head are the network's formulas.

  Each matrix-unit region computes  ELU((Σ mean·Wl + Σ h·Wr) + bias row)  with the bias as a [1, 128] row; the
  specification groups the sum as (Σ mean·Wl + bias) + Σ h·Wr and reads the bias as a vector: the two agree by the
  commutativity and associativity of addition on the extended reals. The kernel's mean is the edge sum TIMES the
  reciprocal 1 / d of the clipped degree d = max(1, degree); d is never zero, and off zero the product with the
  reciprocal is the quotient, at the infinities too.
-/
import proofs.«162061_j5377299055106_1_alg».proof.Proof.K0Value
import proofs.«162061_j5377299055106_1_alg».proof.Proof.K1Value
import proofs.«162061_j5377299055106_1_alg».proof.Proof.K2Value
import proofs.«162061_j5377299055106_1_alg».proof.Proof.K3Value

noncomputable section

open Idealize.ShloMosaic Idealize.ShloMosaic.TcCoe Idealize.SL.Sem Idealize.ShloMosaic.ValueIdx

namespace Cert.KernelIdeal.KBridge

open Cert.KernelIdeal Cert.KernelIdeal.Gen

/-- Layer 1: the region's formula over a mean array that is the quotient `a / d`, and a bias row that is the bias vector. -/
theorem layer1_eq (a h mn : S40000x12.Idx → EReal) (d : S40000.Idx → EReal) (Wl Wr : S128x12.Idx → EReal)
    (blrow : S1x128.Idx → EReal) (bl : S128.Idx → EReal)
    (hmn : ∀ (r : Fin 40000) (k : Fin 12), mn (ix2 r k) = Ideal.div (a (ix2 r k)) (d (ix1 r)))
    (hbl : ∀ j : Fin 128, blrow (ix2 0 j) = bl (ix1 j)) :
    Layer1.G mn h Wl Wr blrow = SageSpec.layer a h d Wl Wr bl := by
  funext i
  obtain ⟨r, j, rfl⟩ : ∃ (r : Fin 40000) (j : Fin 128), i = ix2 r j := ⟨i 0, i 1, eq_ix2 i⟩
  show SageSpec.elu ((∑ k : Fin 12, mn (ix2 r k) * Wl (ix2 j k) + ∑ k : Fin 12, h (ix2 r k) * Wr (ix2 j k)) + blrow (ix2 0 j))
    = SageSpec.elu ((∑ k : Fin 12, Ideal.div (a (ix2 r k)) (d (ix1 r)) * Wl (ix2 j k) + bl (ix1 j)) + ∑ k : Fin 12, h (ix2 r k) * Wr (ix2 j k))
  rw [SageSpec.add_group, hbl]
  refine congrArg SageSpec.elu (congrArg₂ (· + ·) (congrArg₂ (· + ·) ?_ rfl) rfl)
  exact Finset.sum_congr rfl fun k _ => by rw [hmn]

theorem layer2_eq (a h mn : S40000x128.Idx → EReal) (d : S40000.Idx → EReal) (Wl Wr : S128x128.Idx → EReal)
    (blrow : S1x128.Idx → EReal) (bl : S128.Idx → EReal)
    (hmn : ∀ (r : Fin 40000) (k : Fin 128), mn (ix2 r k) = Ideal.div (a (ix2 r k)) (d (ix1 r)))
    (hbl : ∀ j : Fin 128, blrow (ix2 0 j) = bl (ix1 j)) :
    Layer2.G mn h Wl Wr blrow = SageSpec.layer a h d Wl Wr bl := by
  funext i
  obtain ⟨r, j, rfl⟩ : ∃ (r : Fin 40000) (j : Fin 128), i = ix2 r j := ⟨i 0, i 1, eq_ix2 i⟩
  show SageSpec.elu ((∑ k : Fin 128, mn (ix2 r k) * Wl (ix2 j k) + ∑ k : Fin 128, h (ix2 r k) * Wr (ix2 j k)) + blrow (ix2 0 j))
    = SageSpec.elu ((∑ k : Fin 128, Ideal.div (a (ix2 r k)) (d (ix1 r)) * Wl (ix2 j k) + bl (ix1 j)) + ∑ k : Fin 128, h (ix2 r k) * Wr (ix2 j k))
  rw [SageSpec.add_group, hbl]
  refine congrArg SageSpec.elu (congrArg₂ (· + ·) (congrArg₂ (· + ·) ?_ rfl) rfl)
  exact Finset.sum_congr rfl fun k _ => by rw [hmn]

theorem layer3_eq (a h mn : S40000x128.Idx → EReal) (d : S40000.Idx → EReal) (Wl Wr : S128x128.Idx → EReal)
    (blrow : S1x128.Idx → EReal) (bl : S128.Idx → EReal)
    (hmn : ∀ (r : Fin 40000) (k : Fin 128), mn (ix2 r k) = Ideal.div (a (ix2 r k)) (d (ix1 r)))
    (hbl : ∀ j : Fin 128, blrow (ix2 0 j) = bl (ix1 j)) :
    Layer3.G mn h Wl Wr blrow = SageSpec.layer a h d Wl Wr bl := by
  funext i
  obtain ⟨r, j, rfl⟩ : ∃ (r : Fin 40000) (j : Fin 128), i = ix2 r j := ⟨i 0, i 1, eq_ix2 i⟩
  show SageSpec.elu ((∑ k : Fin 128, mn (ix2 r k) * Wl (ix2 j k) + ∑ k : Fin 128, h (ix2 r k) * Wr (ix2 j k)) + blrow (ix2 0 j))
    = SageSpec.elu ((∑ k : Fin 128, Ideal.div (a (ix2 r k)) (d (ix1 r)) * Wl (ix2 j k) + bl (ix1 j)) + ∑ k : Fin 128, h (ix2 r k) * Wr (ix2 j k))
  rw [SageSpec.add_group, hbl]
  refine congrArg SageSpec.elu (congrArg₂ (· + ·) (congrArg₂ (· + ·) ?_ rfl) rfl)
  exact Finset.sum_congr rfl fun k _ => by rw [hmn]

/-- The head: the region's formula over a [1, 1] bias that is the one-entry bias vector. -/
theorem head_eq (h : S40000x128.Idx → EReal) (w : S1x128.Idx → EReal) (brow : S1x1.Idx → EReal) (b : S1.Idx → EReal)
    (hb : brow (ix2 0 0) = b (ix1 0)) :
    HeadValue.G h w brow = SageSpec.head h w b := by
  funext i
  obtain ⟨r, q, rfl⟩ : ∃ (r : Fin 40000) (q : Fin 1), i = ix2 r q := ⟨i 0, i 1, eq_ix2 i⟩
  show ∑ k : Fin 128, h (ix2 r k) * w (ix2 0 k) + brow (ix2 0 0) = ∑ k : Fin 128, h (ix2 r k) * w (ix2 0 k) + b (ix1 0)
  rw [hb]

/-! ## The host stretches' pieces at an index -/

/-- The clipped degree is never zero: it is a maximum with one. -/
theorem degClip_ne_zero (t : FVec Ideal S40000 .f32) (r : Fin 40000) :
    maximumf (broadcastInDim S40000 ![] bcast_S_S40000 (id (constant (F := Ideal) S_ .f32 0x3F800000#32))) t (ix1 r) ≠ 0 := by
  show max (broadcastInDim S40000 ![] bcast_S_S40000 (constant (F := Ideal) S_ .f32 0x3F800000#32) (ix1 r)) (t (ix1 r)) ≠ 0
  rw [broadcastInDim_apply _ _ _ (ix1 r) ix0 (fun a => a.elim0)]
  show max (Ideal.ofBits .f32 0x3F800000#32) (t (ix1 r)) ≠ 0
  rw [SageSpec.one_f32]
  exact SageSpec.max_one_ne_zero _

/-- The reciprocal of a nonzero degree, broadcast along 12 features, times the edge sum, is the mean. -/
theorem mean12_at (A : FVec Ideal S40000x12 .f32) (dc : FVec Ideal S40000 .f32) (hd : ∀ r : Fin 40000, dc (ix1 r) ≠ 0)
    (r : Fin 40000) (k : Fin 12) :
    mulf A (broadcastInDim S40000x12 ![0, 1] bcast_S40000x1_S40000x12_0_1 (broadcastInDim S40000x1 ![0] bcast_S40000_S40000x1_0
      (Host.divf (broadcastInDim S40000 ![] bcast_S_S40000 (constant (F := Ideal) S_ .f32 0x3F800000#32)) dc))) (ix2 r k)
      = Ideal.div (A (ix2 r k)) (dc (ix1 r)) := by
  show A (ix2 r k) * _ = _
  rw [broadcastInDim_apply _ _ _ (ix2 r k) (ix2 r 0) (fun a => by
      match a with
      | ⟨0, _⟩ => rfl
      | ⟨1, _⟩ => rfl),
    broadcastInDim_apply _ _ _ (ix2 r 0) (ix1 r) (fun a => by
      match a with
      | ⟨0, _⟩ => rfl)]
  show A (ix2 r k) * Ideal.div (broadcastInDim S40000 ![] bcast_S_S40000 (constant (F := Ideal) S_ .f32 0x3F800000#32) (ix1 r)) (dc (ix1 r)) = _
  rw [broadcastInDim_apply _ _ _ (ix1 r) ix0 (fun a => a.elim0)]
  show A (ix2 r k) * Ideal.div (Ideal.ofBits .f32 0x3F800000#32) (dc (ix1 r)) = _
  rw [SageSpec.one_f32]
  exact SageSpec.mul_div_one (hd r)

theorem mean128_at (A : FVec Ideal S40000x128 .f32) (dc : FVec Ideal S40000 .f32) (hd : ∀ r : Fin 40000, dc (ix1 r) ≠ 0)
    (r : Fin 40000) (k : Fin 128) :
    mulf A (broadcastInDim S40000x128 ![0, 1] bcast_S40000x1_S40000x128_0_1 (broadcastInDim S40000x1 ![0] bcast_S40000_S40000x1_0
      (Host.divf (broadcastInDim S40000 ![] bcast_S_S40000 (constant (F := Ideal) S_ .f32 0x3F800000#32)) dc))) (ix2 r k)
      = Ideal.div (A (ix2 r k)) (dc (ix1 r)) := by
  show A (ix2 r k) * _ = _
  rw [broadcastInDim_apply _ _ _ (ix2 r k) (ix2 r 0) (fun a => by
      match a with
      | ⟨0, _⟩ => rfl
      | ⟨1, _⟩ => rfl),
    broadcastInDim_apply _ _ _ (ix2 r 0) (ix1 r) (fun a => by
      match a with
      | ⟨0, _⟩ => rfl)]
  show A (ix2 r k) * Ideal.div (broadcastInDim S40000 ![] bcast_S_S40000 (constant (F := Ideal) S_ .f32 0x3F800000#32) (ix1 r)) (dc (ix1 r)) = _
  rw [broadcastInDim_apply _ _ _ (ix1 r) ix0 (fun a => a.elim0)]
  show A (ix2 r k) * Ideal.div (Ideal.ofBits .f32 0x3F800000#32) (dc (ix1 r)) = _
  rw [SageSpec.one_f32]
  exact SageSpec.mul_div_one (hd r)

/-- The bias vector recast as a [1, 128] row reads the vector's entries. -/
theorem biasrow_at (b : FVec Ideal S128 .f32) (j : Fin 128) :
    shapeCast S1x128 b shapeCasts_S128_S1x128 (ix2 0 j) = b (ix1 j) :=
  shapeCast_apply b _ (ix2 0 j) (ix1 j) (by
    rw [Shape.rowMajor_val_one, Shape.rowMajor_val_two]
    show j.val = 0 * 128 + j.val
    omega)

/-- The head's bias recast as a [1, 1] array reads its one entry. -/
theorem biasone_at (b : FVec Ideal S1 .f32) :
    shapeCast S1x1 b shapeCasts_S1_S1x1 (ix2 0 0) = b (ix1 0) :=
  shapeCast_apply b _ (ix2 0 0) (ix1 0) (by
    rw [Shape.rowMajor_val_one, Shape.rowMajor_val_two]
    rfl)

end Cert.KernelIdeal.KBridge

end
-- ==== Proof.KNet.lean ====
/-
  The kernel program's result is the network of the specification.

  Each region's output array is, by the region's own value lemma, the layer's (or the head's) formula of the arrays
  the region was entered with; the host stretches identify those arrays as the neighbour mean (the edge sum times the
  reciprocal of the clipped degree), the previous layer's output, the launch weights, and a bias recast as a row.
  The product with the reciprocal of a degree that is a maximum with one is the quotient, so each region is the
  specification's layer over the edge sums and the clipped degree; the three layers and the head compose to the network.
-/
import proofs.«162061_j5377299055106_1_alg».proof.Proof.KStretch
import proofs.«162061_j5377299055106_1_alg».proof.Proof.KBridge

set_option maxRecDepth 16384

noncomputable section

open Idealize.ShloMosaic Idealize.ShloMosaic.TcCoe Idealize.SL.Sem Idealize.ShloMosaic.ValueIdx

namespace Cert.KernelIdeal.KNet

open Cert.KernelIdeal Cert.KernelIdeal.Gen Cert.KernelIdeal.KStretch

/-! ## The stretches' functions at an index -/

/-- The clipped degree is never zero: it is a maximum with one. -/
theorem degClip_ne (e : (⟨S2x640000, .i32⟩ : BufTy).Contents (Elt Ideal)) (r : Fin 40000) : degClip (F := Ideal) e (ix1 r) ≠ 0 :=
  KBridge.degClip_ne_zero _ r

/-- The neighbour mean of 12-column rows is the edge sum divided by the clipped degree of the row's node. -/
theorem mean12_div (x : (⟨S40000x12, .f32⟩ : BufTy).Contents (Elt Ideal)) (e : (⟨S2x640000, .i32⟩ : BufTy).Contents (Elt Ideal)) (r : Fin 40000) (k : Fin 12) :
    mean12 (F := Ideal) x e (ix2 r k) = Ideal.div (agg12 (F := Ideal) x e (ix2 r k)) (degClip (F := Ideal) e (ix1 r)) :=
  KBridge.mean12_at (agg12 (F := Ideal) x e) (degClip (F := Ideal) e) (degClip_ne e) r k

/-- The neighbour mean of 128-column rows is the edge sum divided by the clipped degree of the row's node. -/
theorem mean128_div (h : (⟨S40000x128, .f32⟩ : BufTy).Contents (Elt Ideal)) (e : (⟨S2x640000, .i32⟩ : BufTy).Contents (Elt Ideal)) (r : Fin 40000) (k : Fin 128) :
    mean128 (F := Ideal) h e (ix2 r k) = Ideal.div (agg128 (F := Ideal) h e (ix2 r k)) (degClip (F := Ideal) e (ix1 r)) :=
  KBridge.mean128_at (agg128 (F := Ideal) h e) (degClip (F := Ideal) e) (degClip_ne e) r k

/-- A bias recast as a row reads the bias's entries. -/
theorem row128_at (b : (⟨S128, .f32⟩ : BufTy).Contents (Elt Ideal)) (j : Fin 128) : row128 (F := Ideal) b (ix2 0 j) = b (ix1 j) :=
  KBridge.biasrow_at b j

/-- The head's bias recast as a [1,1] array reads its one entry. -/
theorem cell1_at (b : (⟨S1, .f32⟩ : BufTy).Contents (Elt Ideal)) : cell1 (F := Ideal) b (ix2 0 0) = b (ix1 0) :=
  KBridge.biasone_at b

/-! ## Each region's formula over the stretches' arrays is the specification's layer -/

theorem layer1_spec (x : (⟨S40000x12, .f32⟩ : BufTy).Contents (Elt Ideal)) (e : (⟨S2x640000, .i32⟩ : BufTy).Contents (Elt Ideal)) (Wl Wr : S128x12.Idx → EReal) (bl : S128.Idx → EReal) :
    Layer1.G (mean12 (F := Ideal) x e) x Wl Wr (row128 (F := Ideal) bl)
      = SageSpec.layer (agg12 (F := Ideal) x e) x (degClip (F := Ideal) e) Wl Wr bl :=
  KBridge.layer1_eq (agg12 (F := Ideal) x e) x (mean12 (F := Ideal) x e) (degClip (F := Ideal) e) Wl Wr (row128 (F := Ideal) bl) bl
    (mean12_div x e) (row128_at bl)

theorem layer2_spec (h : (⟨S40000x128, .f32⟩ : BufTy).Contents (Elt Ideal)) (e : (⟨S2x640000, .i32⟩ : BufTy).Contents (Elt Ideal)) (Wl Wr : S128x128.Idx → EReal) (bl : S128.Idx → EReal) :
    Layer2.G (mean128 (F := Ideal) h e) h Wl Wr (row128 (F := Ideal) bl)
      = SageSpec.layer (agg128 (F := Ideal) h e) h (degClip (F := Ideal) e) Wl Wr bl :=
  KBridge.layer2_eq (agg128 (F := Ideal) h e) h (mean128 (F := Ideal) h e) (degClip (F := Ideal) e) Wl Wr (row128 (F := Ideal) bl) bl
    (mean128_div h e) (row128_at bl)

theorem layer3_spec (h : (⟨S40000x128, .f32⟩ : BufTy).Contents (Elt Ideal)) (e : (⟨S2x640000, .i32⟩ : BufTy).Contents (Elt Ideal)) (Wl Wr : S128x128.Idx → EReal) (bl : S128.Idx → EReal) :
    Layer3.G (mean128 (F := Ideal) h e) h Wl Wr (row128 (F := Ideal) bl)
      = SageSpec.layer (agg128 (F := Ideal) h e) h (degClip (F := Ideal) e) Wl Wr bl :=
  KBridge.layer3_eq (agg128 (F := Ideal) h e) h (mean128 (F := Ideal) h e) (degClip (F := Ideal) e) Wl Wr (row128 (F := Ideal) bl) bl
    (mean128_div h e) (row128_at bl)

theorem head_spec (h : S40000x128.Idx → EReal) (w : S1x128.Idx → EReal) (b : (⟨S1, .f32⟩ : BufTy).Contents (Elt Ideal)) :
    HeadValue.G h w (cell1 (F := Ideal) b) = SageSpec.head h w b :=
  KBridge.head_eq h w (cell1 (F := Ideal) b) b (cell1_at b)

/-- The network from its layers named one by one. -/
theorem net_of (A12 : (S40000x12.Idx → EReal) → S40000x12.Idx → EReal) (A128 : (S40000x128.Idx → EReal) → S40000x128.Idx → EReal)
    (d : S40000.Idx → EReal) (x : S40000x12.Idx → EReal)
    (Wl1 : S128x12.Idx → EReal) (bl1 : S128.Idx → EReal) (Wr1 : S128x12.Idx → EReal)
    (Wl2 : S128x128.Idx → EReal) (bl2 : S128.Idx → EReal) (Wr2 : S128x128.Idx → EReal)
    (Wl3 : S128x128.Idx → EReal) (bl3 : S128.Idx → EReal) (Wr3 : S128x128.Idx → EReal)
    (w : S1x128.Idx → EReal) (b : S1.Idx → EReal) (h1 h2 h3 : S40000x128.Idx → EReal)
    (e1 : h1 = SageSpec.layer (A12 x) x d Wl1 Wr1 bl1) (e2 : h2 = SageSpec.layer (A128 h1) h1 d Wl2 Wr2 bl2)
    (e3 : h3 = SageSpec.layer (A128 h2) h2 d Wl3 Wr3 bl3) :
    SageSpec.head h3 w b = SageSpec.net A12 A128 d x Wl1 bl1 Wr1 Wl2 bl2 Wr2 Wl3 bl3 Wr3 w b := by
  subst e1; subst e2; subst e3; rfl

/-! ## The run's boundaries -/

section Run
variable (m : (ℓ : Loc nD τ sig) → Buf (Elt Ideal) ℓ) (ρ : Dev nD → PrngReg) (c : Dev nD)

/-- The first region's output array is the first layer of the node features. -/
theorem h1_eq : (W4 m ρ c (Proc.devRef .tc main_v25) : S40000x128.Idx → EReal)
    = SageSpec.layer (agg12 (F := Ideal) (m ((c : Thread nD τ).loc main_arg0)) (m ((c : Thread nD τ).loc main_arg1))) (m ((c : Thread nD τ).loc main_arg0)) (degClip (F := Ideal) (m ((c : Thread nD τ).loc main_arg1))) (m ((c : Thread nD τ).loc main_arg2)) (m ((c : Thread nD τ).loc main_arg4)) (m ((c : Thread nD τ).loc main_arg3)) :=
  (exit0 m ρ c).trans ((Layer1.region_out (V3 m ρ) c).trans (by
    rw [entry0_mean, entry0_h, entry0_wl, entry0_wr, entry0_bl]
    exact layer1_spec _ _ _ _ _))

/-- The second region's output array is the second layer of the first region's output array. -/
theorem h2_eq : (W6 m ρ c (Proc.devRef .tc main_v39) : S40000x128.Idx → EReal)
    = SageSpec.layer (agg128 (F := Ideal) (W4 m ρ c (Proc.devRef .tc main_v25)) (m ((c : Thread nD τ).loc main_arg1))) (W4 m ρ c (Proc.devRef .tc main_v25))
        (degClip (F := Ideal) (m ((c : Thread nD τ).loc main_arg1))) (m ((c : Thread nD τ).loc main_arg5)) (m ((c : Thread nD τ).loc main_arg7)) (m ((c : Thread nD τ).loc main_arg6)) :=
  (exit1 m ρ c).trans ((Layer2.region_out (V5 m ρ) c).trans (by
    rw [entry1_mean, entry1_h, entry1_wl, entry1_wr, entry1_bl]
    exact layer2_spec _ _ _ _ _))

/-- The third region's output array is the third layer of the second region's output array. -/
theorem h3_eq : (W8 m ρ c (Proc.devRef .tc main_v53) : S40000x128.Idx → EReal)
    = SageSpec.layer (agg128 (F := Ideal) (W6 m ρ c (Proc.devRef .tc main_v39)) (m ((c : Thread nD τ).loc main_arg1))) (W6 m ρ c (Proc.devRef .tc main_v39))
        (degClip (F := Ideal) (m ((c : Thread nD τ).loc main_arg1))) (m ((c : Thread nD τ).loc main_arg8)) (m ((c : Thread nD τ).loc main_arg10)) (m ((c : Thread nD τ).loc main_arg9)) :=
  (exit2 m ρ c).trans ((Layer3.region_out (V7 m ρ) c).trans (by
    rw [entry2_mean, entry2_h, entry2_wl, entry2_wr, entry2_bl]
    exact layer3_spec _ _ _ _ _))

/-- The last region's output array is the head of the third region's output array. -/
theorem out_eq : (W10 m ρ c (Proc.devRef .tc main_v55) : S40000x1.Idx → EReal)
    = SageSpec.head (W8 m ρ c (Proc.devRef .tc main_v53)) (m ((c : Thread nD τ).loc main_arg11)) (m ((c : Thread nD τ).loc main_arg12)) :=
  (exit3 m ρ c).trans ((HeadValue.region_out (V9 m ρ) c).trans (by
    rw [entry3_h, entry3_w, entry3_b]
    exact head_spec _ _ _))

/-- THE RESULT: the program's result array is the network of the launch arrays — three layers over the edge sums and
    the clipped degree the host stretches compute from the edge list, then the head. -/
theorem result_eq : (W10 m ρ c (Proc.devRef .tc main_v55) : S40000x1.Idx → EReal)
    = SageSpec.net (fun x => agg12 (F := Ideal) x (m ((c : Thread nD τ).loc main_arg1))) (fun h => agg128 (F := Ideal) h (m ((c : Thread nD τ).loc main_arg1))) (degClip (F := Ideal) (m ((c : Thread nD τ).loc main_arg1)))
        (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) :=
  (out_eq m ρ c).trans (net_of _ _ _ _ _ _ _ _ _ _ _ _ _ _ _ _ _ _ (h1_eq m ρ c) (h2_eq m ρ c) (h3_eq m ρ c))

end Run

end Cert.KernelIdeal.KNet

end
-- ==== Proof.RefRun.lean ====
/- The reference program's @main as a list of its 156 host operations — the three module-local functions' bodies
   written out at their call sites over each call's buffer record — and its run: every weakly fair execution
   terminates with each buffer at the fold of the operations' results over the launch contents. -/
import proofs.«162061_j5377299055106_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The two rows of the edge table as vectors: slice row 0 and reshape (`main_v1`, the sources), slice row 1 and reshape (`main_v3`, the destinations). -/
abbrev segA : List (HloOp τ sig (Elt F)) :=
  [ StableHlo.unary main_arg1 main_v0 ((extractStridedSlice S1x640000 ![0, 0] · slices_S2x640000_S1x640000_0_0) : (⟨S2x640000, .i32⟩ : BufTy).Contents (Elt F) → (⟨S1x640000, .i32⟩ : BufTy).Contents (Elt F)),
    StableHlo.reshape main_v0 main_v1 rfl shapeCasts_S1x640000_S640000,
    StableHlo.unary main_arg1 main_v2 ((extractStridedSlice S1x640000 ![1, 0] · slices_S2x640000_S1x640000_1_0) : (⟨S2x640000, .i32⟩ : BufTy).Contents (Elt F) → (⟨S1x640000, .i32⟩ : BufTy).Contents (Elt F)),
    StableHlo.reshape main_v2 main_v3 rfl shapeCasts_S1x640000_S640000 ]

/-- The first layer, on 12 input features: the wrapped source indices, the gather, the scatter-add onto a zero array, the in-degree as a scatter-add of ones clipped below at one (@clip inline over `main_call0`), the quotient, the two products with the transposed weights, the bias, and @elu inline over `main_call1` (with @_where and @_where_0 inline over its two nested records), ending in `main_v30`. -/
abbrev segL1 : List (HloOp τ sig (Elt F)) :=
  [ StableHlo.nullary main_c (constantI S_ 32 0#32),
    StableHlo.unary main_c main_v4 (broadcastInDim S640000 ![] bcast_S_S640000 : (⟨S_, .i32⟩ : BufTy).Contents (Elt F) → (⟨S640000, .i32⟩ : BufTy).Contents (Elt F)),
    StableHlo.binary main_v1 main_v4 main_v5 (cmpi .slt : (⟨S640000, .i32⟩ : BufTy).Contents (Elt F) → (⟨S640000, .i32⟩ : BufTy).Contents (Elt F) → (⟨S640000, .i1⟩ : BufTy).Contents (Elt F)),
    StableHlo.nullary main_c_0 (constantI S_ 32 40000#32),
    StableHlo.unary main_c_0 main_v6 (broadcastInDim S640000 ![] bcast_S_S640000 : (⟨S_, .i32⟩ : BufTy).Contents (Elt F) → (⟨S640000, .i32⟩ : BufTy).Contents (Elt F)),
    StableHlo.binary main_v1 main_v6 main_v7 (addi : (⟨S640000, .i32⟩ : BufTy).Contents (Elt F) → (⟨S640000, .i32⟩ : BufTy).Contents (Elt F) → (⟨S640000, .i32⟩ : BufTy).Contents (Elt F)),
    StableHlo.ternary main_v5 main_v7 main_v1 main_v8 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    StableHlo.unary main_v8 main_v9 (broadcastInDim S640000x1 ![0] bcast_S640000_S640000x1_0 : (⟨S640000, .i32⟩ : BufTy).Contents (Elt F) → (⟨S640000x1, .i32⟩ : BufTy).Contents (Elt F)),
    StableHlo.binary main_arg0 main_v9 main_v10 ((fun x i => Host.gather gather_S40000x12_S640000x1_S640000x12_1_0_n_n_0_1_112 x i) : (⟨S40000x12, .f32⟩ : BufTy).Contents (Elt F) → (⟨S640000x1, .i32⟩ : BufTy).Contents (Elt F) → (⟨S640000x12, .f32⟩ : BufTy).Contents (Elt F)),
    StableHlo.nullary main_cst (constant S_ .f32 0x00000000#32),
    StableHlo.unary main_cst main_v11 (broadcastInDim S40000x12 ![] bcast_S_S40000x12 : (⟨S_, .f32⟩ : BufTy).Contents (Elt F) → (⟨S40000x12, .f32⟩ : BufTy).Contents (Elt F)),
    StableHlo.unary main_v3 main_v12 (broadcastInDim S640000x1 ![0] bcast_S640000_S640000x1_0 : (⟨S640000, .i32⟩ : BufTy).Contents (Elt F) → (⟨S640000x1, .i32⟩ : BufTy).Contents (Elt F)),
    StableHlo.ternary main_v11 main_v12 main_v10 main_v13 ((fun x i u => Host.scatterAdd scatter_S40000x12_S640000x1_S640000x12_1_0_0_1 x i u) : (⟨S40000x12, .f32⟩ : BufTy).Contents (Elt F) → (⟨S640000x1, .i32⟩ : BufTy).Contents (Elt F) → (⟨S640000x12, .f32⟩ : BufTy).Contents (Elt F) → (⟨S40000x12, .f32⟩ : BufTy).Contents (Elt F)),
    StableHlo.nullary main_cst_1 (constant S_ .f32 0x3F800000#32),
    StableHlo.unary main_cst_1 main_v14 (broadcastInDim S640000 ![] bcast_S_S640000 : (⟨S_, .f32⟩ : BufTy).Contents (Elt F) → (⟨S640000, .f32⟩ : BufTy).Contents (Elt F)),
    StableHlo.nullary main_cst_2 (constant S_ .f32 0x00000000#32),
    StableHlo.unary main_cst_2 main_v15 (broadcastInDim S40000 ![] bcast_S_S40000 : (⟨S_, .f32⟩ : BufTy).Contents (Elt F) → (⟨S40000, .f32⟩ : BufTy).Contents (Elt F)),
    StableHlo.unary main_v3 main_v16 (broadcastInDim S640000x1 ![0] bcast_S640000_S640000x1_0 : (⟨S640000, .i32⟩ : BufTy).Contents (Elt F) → (⟨S640000x1, .i32⟩ : BufTy).Contents (Elt F)),
    StableHlo.ternary main_v15 main_v16 main_v14 main_v17 ((fun x i u => Host.scatterAdd scatter_S40000_S640000x1_S640000_n_0_0_1 x i u) : (⟨S40000, .f32⟩ : BufTy).Contents (Elt F) → (⟨S640000x1, .i32⟩ : BufTy).Contents (Elt F) → (⟨S640000, .f32⟩ : BufTy).Contents (Elt F) → (⟨S40000, .f32⟩ : BufTy).Contents (Elt F)),
    StableHlo.nullary main_cst_3 (constant S_ .f32 0x3F800000#32),
    StableHlo.TRef.unary (.of main_cst_3 : StableHlo.TRef sig ⟨S_, .f32⟩) main_call0.v0 id,
    StableHlo.TRef.unary main_call0.v0 main_call0.v1 (broadcastInDim S40000 ![] bcast_S_S40000),
    StableHlo.TRef.binary main_call0.v1 (.of main_v17 : StableHlo.TRef sig ⟨S40000, .f32⟩) main_call0.v2 maximumf,
    StableHlo.unary main_v18 main_v19 (broadcastInDim S40000x1 ![0] bcast_S40000_S40000x1_0 : (⟨S40000, .f32⟩ : BufTy).Contents (Elt F) → (⟨S40000x1, .f32⟩ : BufTy).Contents (Elt F)),
    StableHlo.unary main_v19 main_v20 (broadcastInDim S40000x12 ![0, 1] bcast_S40000x1_S40000x12_0_1 : (⟨S40000x1, .f32⟩ : BufTy).Contents (Elt F) → (⟨S40000x12, .f32⟩ : BufTy).Contents (Elt F)),
    StableHlo.binary main_v13 main_v20 main_v21 (Host.divf : (⟨S40000x12, .f32⟩ : BufTy).Contents (Elt F) → (⟨S40000x12, .f32⟩ : BufTy).Contents (Elt F) → (⟨S40000x12, .f32⟩ : BufTy).Contents (Elt F)),
    StableHlo.unary main_arg2 main_v22 ((transpose S12x128 [1, 0] · transposes_S128x12_S12x128_1_0) : (⟨S128x12, .f32⟩ : BufTy).Contents (Elt F) → (⟨S12x128, .f32⟩ : BufTy).Contents (Elt F)),
    StableHlo.binary main_v21 main_v22 main_v23 ((fun l r => Host.dotGeneral dot_S40000x12_S12x128_S40000x128_1_0_0_1_n_n none l r) : (⟨S40000x12, .f32⟩ : BufTy).Contents (Elt F) → (⟨S12x128, .f32⟩ : BufTy).Contents (Elt F) → (⟨S40000x128, .f32⟩ : BufTy).Contents (Elt F)),
    StableHlo.unary main_arg3 main_v24 (broadcastInDim S1x128 ![1] bcast_S128_S1x128_1 : (⟨S128, .f32⟩ : BufTy).Contents (Elt F) → (⟨S1x128, .f32⟩ : BufTy).Contents (Elt F)),
    StableHlo.unary main_v24 main_v25 (broadcastInDim S40000x128 ![0, 1] bcast_S1x128_S40000x128_0_1 : (⟨S1x128, .f32⟩ : BufTy).Contents (Elt F) → (⟨S40000x128, .f32⟩ : BufTy).Contents (Elt F)),
    StableHlo.binary main_v23 main_v25 main_v26 (addf : (⟨S40000x128, .f32⟩ : BufTy).Contents (Elt F) → (⟨S40000x128, .f32⟩ : BufTy).Contents (Elt F) → (⟨S40000x128, .f32⟩ : BufTy).Contents (Elt F)),
    StableHlo.unary main_arg4 main_v27 ((transpose S12x128 [1, 0] · transposes_S128x12_S12x128_1_0) : (⟨S128x12, .f32⟩ : BufTy).Contents (Elt F) → (⟨S12x128, .f32⟩ : BufTy).Contents (Elt F)),
    StableHlo.binary main_arg0 main_v27 main_v28 ((fun l r => Host.dotGeneral dot_S40000x12_S12x128_S40000x128_1_0_0_1_n_n none l r) : (⟨S40000x12, .f32⟩ : BufTy).Contents (Elt F) → (⟨S12x128, .f32⟩ : BufTy).Contents (Elt F) → (⟨S40000x128, .f32⟩ : BufTy).Contents (Elt F)),
    StableHlo.binary main_v26 main_v28 main_v29 (addf : (⟨S40000x128, .f32⟩ : BufTy).Contents (Elt F) → (⟨S40000x128, .f32⟩ : BufTy).Contents (Elt F) → (⟨S40000x128, .f32⟩ : BufTy).Contents (Elt F)),
    StableHlo.TRef.nullary main_call1.cst (constant S_ .f32 0x00000000#32),
    StableHlo.TRef.unary main_call1.cst main_call1.v0 (broadcastInDim S40000x128 ![] bcast_S_S40000x128),
    StableHlo.TRef.binary (.of main_v29 : StableHlo.TRef sig ⟨S40000x128, .f32⟩) main_call1.v0 main_call1.v1 (cmpf .ogt),
    StableHlo.TRef.nullary main_call1.cst_0 (constant S_ .f32 0x00000000#32),
    StableHlo.TRef.unary main_call1.cst_0 main_call1.v2 (broadcastInDim S40000x128 ![] bcast_S_S40000x128),
    StableHlo.TRef.binary (.of main_v29 : StableHlo.TRef sig ⟨S40000x128, .f32⟩) main_call1.v2 main_call1.v3 (cmpf .ogt),
    StableHlo.TRef.nullary main_call1.cst_1 (constant S_ .f32 0x00000000#32),
    StableHlo.TRef.unary main_call1.cst_1 main_call1.call0.v0 id,
    StableHlo.TRef.unary main_call1.call0.v0 main_call1.call0.v1 (broadcastInDim S40000x128 ![] bcast_S_S40000x128),
    StableHlo.TRef.ternary main_call1.v3 main_call1.call0.v1 (.of main_v29 : StableHlo.TRef sig ⟨S40000x128, .f32⟩) main_call1.call0.v2 select,
    StableHlo.TRef.unary main_call1.call0.v2 main_call1.v5 Host.expm1,
    StableHlo.TRef.nullary main_call1.cst_2 (constant S_ .f32 0x3F800000#32),
    StableHlo.TRef.unary main_call1.cst_2 main_call1.v6 (broadcastInDim S40000x128 ![] bcast_S_S40000x128),
    StableHlo.TRef.binary main_call1.v6 main_call1.v5 main_call1.v7 mulf,
    StableHlo.TRef.ternary main_call1.v1 (.of main_v29 : StableHlo.TRef sig ⟨S40000x128, .f32⟩) main_call1.v7 main_call1.call1.v0 select ]

/-- The second layer up to the broadcast degree: indices, gather of `main_v30`, scatter-add, the clipped in-degree (@clip inline over `main_call2`) and its broadcast to 128 columns (`main_v47`). -/
abbrev segL2a : List (HloOp τ sig (Elt F)) :=
  [ StableHlo.nullary main_c_4 (constantI S_ 32 0#32),
    StableHlo.unary main_c_4 main_v31 (broadcastInDim S640000 ![] bcast_S_S640000 : (⟨S_, .i32⟩ : BufTy).Contents (Elt F) → (⟨S640000, .i32⟩ : BufTy).Contents (Elt F)),
    StableHlo.binary main_v1 main_v31 main_v32 (cmpi .slt : (⟨S640000, .i32⟩ : BufTy).Contents (Elt F) → (⟨S640000, .i32⟩ : BufTy).Contents (Elt F) → (⟨S640000, .i1⟩ : BufTy).Contents (Elt F)),
    StableHlo.nullary main_c_5 (constantI S_ 32 40000#32),
    StableHlo.unary main_c_5 main_v33 (broadcastInDim S640000 ![] bcast_S_S640000 : (⟨S_, .i32⟩ : BufTy).Contents (Elt F) → (⟨S640000, .i32⟩ : BufTy).Contents (Elt F)),
    StableHlo.binary main_v1 main_v33 main_v34 (addi : (⟨S640000, .i32⟩ : BufTy).Contents (Elt F) → (⟨S640000, .i32⟩ : BufTy).Contents (Elt F) → (⟨S640000, .i32⟩ : BufTy).Contents (Elt F)),
    StableHlo.ternary main_v32 main_v34 main_v1 main_v35 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    StableHlo.unary main_v35 main_v36 (broadcastInDim S640000x1 ![0] bcast_S640000_S640000x1_0 : (⟨S640000, .i32⟩ : BufTy).Contents (Elt F) → (⟨S640000x1, .i32⟩ : BufTy).Contents (Elt F)),
    StableHlo.binary main_v30 main_v36 main_v37 ((fun x i => Host.gather gather_S40000x128_S640000x1_S640000x128_1_0_n_n_0_1_1128 x i) : (⟨S40000x128, .f32⟩ : BufTy).Contents (Elt F) → (⟨S640000x1, .i32⟩ : BufTy).Contents (Elt F) → (⟨S640000x128, .f32⟩ : BufTy).Contents (Elt F)),
    StableHlo.nullary main_cst_6 (constant S_ .f32 0x00000000#32),
    StableHlo.unary main_cst_6 main_v38 (broadcastInDim S40000x128 ![] bcast_S_S40000x128 : (⟨S_, .f32⟩ : BufTy).Contents (Elt F) → (⟨S40000x128, .f32⟩ : BufTy).Contents (Elt F)),
    StableHlo.unary main_v3 main_v39 (broadcastInDim S640000x1 ![0] bcast_S640000_S640000x1_0 : (⟨S640000, .i32⟩ : BufTy).Contents (Elt F) → (⟨S640000x1, .i32⟩ : BufTy).Contents (Elt F)),
    StableHlo.ternary main_v38 main_v39 main_v37 main_v40 ((fun x i u => Host.scatterAdd scatter_S40000x128_S640000x1_S640000x128_1_0_0_1 x i u) : (⟨S40000x128, .f32⟩ : BufTy).Contents (Elt F) → (⟨S640000x1, .i32⟩ : BufTy).Contents (Elt F) → (⟨S640000x128, .f32⟩ : BufTy).Contents (Elt F) → (⟨S40000x128, .f32⟩ : BufTy).Contents (Elt F)),
    StableHlo.nullary main_cst_7 (constant S_ .f32 0x3F800000#32),
    StableHlo.unary main_cst_7 main_v41 (broadcastInDim S640000 ![] bcast_S_S640000 : (⟨S_, .f32⟩ : BufTy).Contents (Elt F) → (⟨S640000, .f32⟩ : BufTy).Contents (Elt F)),
    StableHlo.nullary main_cst_8 (constant S_ .f32 0x00000000#32),
    StableHlo.unary main_cst_8 main_v42 (broadcastInDim S40000 ![] bcast_S_S40000 : (⟨S_, .f32⟩ : BufTy).Contents (Elt F) → (⟨S40000, .f32⟩ : BufTy).Contents (Elt F)),
    StableHlo.unary main_v3 main_v43 (broadcastInDim S640000x1 ![0] bcast_S640000_S640000x1_0 : (⟨S640000, .i32⟩ : BufTy).Contents (Elt F) → (⟨S640000x1, .i32⟩ : BufTy).Contents (Elt F)),
    StableHlo.ternary main_v42 main_v43 main_v41 main_v44 ((fun x i u => Host.scatterAdd scatter_S40000_S640000x1_S640000_n_0_0_1 x i u) : (⟨S40000, .f32⟩ : BufTy).Contents (Elt F) → (⟨S640000x1, .i32⟩ : BufTy).Contents (Elt F) → (⟨S640000, .f32⟩ : BufTy).Contents (Elt F) → (⟨S40000, .f32⟩ : BufTy).Contents (Elt F)),
    StableHlo.nullary main_cst_9 (constant S_ .f32 0x3F800000#32),
    StableHlo.TRef.unary (.of main_cst_9 : StableHlo.TRef sig ⟨S_, .f32⟩) main_call2.v0 id,
    StableHlo.TRef.unary main_call2.v0 main_call2.v1 (broadcastInDim S40000 ![] bcast_S_S40000),
    StableHlo.TRef.binary main_call2.v1 (.of main_v44 : StableHlo.TRef sig ⟨S40000, .f32⟩) main_call2.v2 maximumf,
    StableHlo.unary main_v45 main_v46 (broadcastInDim S40000x1 ![0] bcast_S40000_S40000x1_0 : (⟨S40000, .f32⟩ : BufTy).Contents (Elt F) → (⟨S40000x1, .f32⟩ : BufTy).Contents (Elt F)),
    StableHlo.unary main_v46 main_v47 (broadcastInDim S40000x128 ![0, 1] bcast_S40000x1_S40000x128_0_1 : (⟨S40000x1, .f32⟩ : BufTy).Contents (Elt F) → (⟨S40000x128, .f32⟩ : BufTy).Contents (Elt F)) ]

/-- The rest of the second layer: the quotient, the two products, the bias and @elu inline over `main_call3`, ending in `main_v57`. -/
abbrev segL2b : List (HloOp τ sig (Elt F)) :=
  [ StableHlo.binary main_v40 main_v47 main_v48 (Host.divf : (⟨S40000x128, .f32⟩ : BufTy).Contents (Elt F) → (⟨S40000x128, .f32⟩ : BufTy).Contents (Elt F) → (⟨S40000x128, .f32⟩ : BufTy).Contents (Elt F)),
    StableHlo.unary main_arg5 main_v49 ((transpose S128x128 [1, 0] · transposes_S128x128_S128x128_1_0) : (⟨S128x128, .f32⟩ : BufTy).Contents (Elt F) → (⟨S128x128, .f32⟩ : BufTy).Contents (Elt F)),
    StableHlo.binary main_v48 main_v49 main_v50 ((fun l r => Host.dotGeneral dot_S40000x128_S128x128_S40000x128_1_0_0_1_n_n none l r) : (⟨S40000x128, .f32⟩ : BufTy).Contents (Elt F) → (⟨S128x128, .f32⟩ : BufTy).Contents (Elt F) → (⟨S40000x128, .f32⟩ : BufTy).Contents (Elt F)),
    StableHlo.unary main_arg6 main_v51 (broadcastInDim S1x128 ![1] bcast_S128_S1x128_1 : (⟨S128, .f32⟩ : BufTy).Contents (Elt F) → (⟨S1x128, .f32⟩ : BufTy).Contents (Elt F)),
    StableHlo.unary main_v51 main_v52 (broadcastInDim S40000x128 ![0, 1] bcast_S1x128_S40000x128_0_1 : (⟨S1x128, .f32⟩ : BufTy).Contents (Elt F) → (⟨S40000x128, .f32⟩ : BufTy).Contents (Elt F)),
    StableHlo.binary main_v50 main_v52 main_v53 (addf : (⟨S40000x128, .f32⟩ : BufTy).Contents (Elt F) → (⟨S40000x128, .f32⟩ : BufTy).Contents (Elt F) → (⟨S40000x128, .f32⟩ : BufTy).Contents (Elt F)),
    StableHlo.unary main_arg7 main_v54 ((transpose S128x128 [1, 0] · transposes_S128x128_S128x128_1_0) : (⟨S128x128, .f32⟩ : BufTy).Contents (Elt F) → (⟨S128x128, .f32⟩ : BufTy).Contents (Elt F)),
    StableHlo.binary main_v30 main_v54 main_v55 ((fun l r => Host.dotGeneral dot_S40000x128_S128x128_S40000x128_1_0_0_1_n_n none l r) : (⟨S40000x128, .f32⟩ : BufTy).Contents (Elt F) → (⟨S128x128, .f32⟩ : BufTy).Contents (Elt F) → (⟨S40000x128, .f32⟩ : BufTy).Contents (Elt F)),
    StableHlo.binary main_v53 main_v55 main_v56 (addf : (⟨S40000x128, .f32⟩ : BufTy).Contents (Elt F) → (⟨S40000x128, .f32⟩ : BufTy).Contents (Elt F) → (⟨S40000x128, .f32⟩ : BufTy).Contents (Elt F)),
    StableHlo.TRef.nullary main_call3.cst (constant S_ .f32 0x00000000#32),
    StableHlo.TRef.unary main_call3.cst main_call3.v0 (broadcastInDim S40000x128 ![] bcast_S_S40000x128),
    StableHlo.TRef.binary (.of main_v56 : StableHlo.TRef sig ⟨S40000x128, .f32⟩) main_call3.v0 main_call3.v1 (cmpf .ogt),
    StableHlo.TRef.nullary main_call3.cst_0 (constant S_ .f32 0x00000000#32),
    StableHlo.TRef.unary main_call3.cst_0 main_call3.v2 (broadcastInDim S40000x128 ![] bcast_S_S40000x128),
    StableHlo.TRef.binary (.of main_v56 : StableHlo.TRef sig ⟨S40000x128, .f32⟩) main_call3.v2 main_call3.v3 (cmpf .ogt),
    StableHlo.TRef.nullary main_call3.cst_1 (constant S_ .f32 0x00000000#32),
    StableHlo.TRef.unary main_call3.cst_1 main_call3.call0.v0 id,
    StableHlo.TRef.unary main_call3.call0.v0 main_call3.call0.v1 (broadcastInDim S40000x128 ![] bcast_S_S40000x128),
    StableHlo.TRef.ternary main_call3.v3 main_call3.call0.v1 (.of main_v56 : StableHlo.TRef sig ⟨S40000x128, .f32⟩) main_call3.call0.v2 select,
    StableHlo.TRef.unary main_call3.call0.v2 main_call3.v5 Host.expm1,
    StableHlo.TRef.nullary main_call3.cst_2 (constant S_ .f32 0x3F800000#32),
    StableHlo.TRef.unary main_call3.cst_2 main_call3.v6 (broadcastInDim S40000x128 ![] bcast_S_S40000x128),
    StableHlo.TRef.binary main_call3.v6 main_call3.v5 main_call3.v7 mulf,
    StableHlo.TRef.ternary main_call3.v1 (.of main_v56 : StableHlo.TRef sig ⟨S40000x128, .f32⟩) main_call3.v7 main_call3.call1.v0 select ]

/-- The third layer, as the second, over `main_v57`, with @clip inline over `main_call4` and @elu over `main_call5`, ending in `main_v84`. -/
abbrev segL3 : List (HloOp τ sig (Elt F)) :=
  [ StableHlo.nullary main_c_10 (constantI S_ 32 0#32),
    StableHlo.unary main_c_10 main_v58 (broadcastInDim S640000 ![] bcast_S_S640000 : (⟨S_, .i32⟩ : BufTy).Contents (Elt F) → (⟨S640000, .i32⟩ : BufTy).Contents (Elt F)),
    StableHlo.binary main_v1 main_v58 main_v59 (cmpi .slt : (⟨S640000, .i32⟩ : BufTy).Contents (Elt F) → (⟨S640000, .i32⟩ : BufTy).Contents (Elt F) → (⟨S640000, .i1⟩ : BufTy).Contents (Elt F)),
    StableHlo.nullary main_c_11 (constantI S_ 32 40000#32),
    StableHlo.unary main_c_11 main_v60 (broadcastInDim S640000 ![] bcast_S_S640000 : (⟨S_, .i32⟩ : BufTy).Contents (Elt F) → (⟨S640000, .i32⟩ : BufTy).Contents (Elt F)),
    StableHlo.binary main_v1 main_v60 main_v61 (addi : (⟨S640000, .i32⟩ : BufTy).Contents (Elt F) → (⟨S640000, .i32⟩ : BufTy).Contents (Elt F) → (⟨S640000, .i32⟩ : BufTy).Contents (Elt F)),
    StableHlo.ternary main_v59 main_v61 main_v1 main_v62 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    StableHlo.unary main_v62 main_v63 (broadcastInDim S640000x1 ![0] bcast_S640000_S640000x1_0 : (⟨S640000, .i32⟩ : BufTy).Contents (Elt F) → (⟨S640000x1, .i32⟩ : BufTy).Contents (Elt F)),
    StableHlo.binary main_v57 main_v63 main_v64 ((fun x i => Host.gather gather_S40000x128_S640000x1_S640000x128_1_0_n_n_0_1_1128 x i) : (⟨S40000x128, .f32⟩ : BufTy).Contents (Elt F) → (⟨S640000x1, .i32⟩ : BufTy).Contents (Elt F) → (⟨S640000x128, .f32⟩ : BufTy).Contents (Elt F)),
    StableHlo.nullary main_cst_12 (constant S_ .f32 0x00000000#32),
    StableHlo.unary main_cst_12 main_v65 (broadcastInDim S40000x128 ![] bcast_S_S40000x128 : (⟨S_, .f32⟩ : BufTy).Contents (Elt F) → (⟨S40000x128, .f32⟩ : BufTy).Contents (Elt F)),
    StableHlo.unary main_v3 main_v66 (broadcastInDim S640000x1 ![0] bcast_S640000_S640000x1_0 : (⟨S640000, .i32⟩ : BufTy).Contents (Elt F) → (⟨S640000x1, .i32⟩ : BufTy).Contents (Elt F)),
    StableHlo.ternary main_v65 main_v66 main_v64 main_v67 ((fun x i u => Host.scatterAdd scatter_S40000x128_S640000x1_S640000x128_1_0_0_1 x i u) : (⟨S40000x128, .f32⟩ : BufTy).Contents (Elt F) → (⟨S640000x1, .i32⟩ : BufTy).Contents (Elt F) → (⟨S640000x128, .f32⟩ : BufTy).Contents (Elt F) → (⟨S40000x128, .f32⟩ : BufTy).Contents (Elt F)),
    StableHlo.nullary main_cst_13 (constant S_ .f32 0x3F800000#32),
    StableHlo.unary main_cst_13 main_v68 (broadcastInDim S640000 ![] bcast_S_S640000 : (⟨S_, .f32⟩ : BufTy).Contents (Elt F) → (⟨S640000, .f32⟩ : BufTy).Contents (Elt F)),
    StableHlo.nullary main_cst_14 (constant S_ .f32 0x00000000#32),
    StableHlo.unary main_cst_14 main_v69 (broadcastInDim S40000 ![] bcast_S_S40000 : (⟨S_, .f32⟩ : BufTy).Contents (Elt F) → (⟨S40000, .f32⟩ : BufTy).Contents (Elt F)),
    StableHlo.unary main_v3 main_v70 (broadcastInDim S640000x1 ![0] bcast_S640000_S640000x1_0 : (⟨S640000, .i32⟩ : BufTy).Contents (Elt F) → (⟨S640000x1, .i32⟩ : BufTy).Contents (Elt F)),
    StableHlo.ternary main_v69 main_v70 main_v68 main_v71 ((fun x i u => Host.scatterAdd scatter_S40000_S640000x1_S640000_n_0_0_1 x i u) : (⟨S40000, .f32⟩ : BufTy).Contents (Elt F) → (⟨S640000x1, .i32⟩ : BufTy).Contents (Elt F) → (⟨S640000, .f32⟩ : BufTy).Contents (Elt F) → (⟨S40000, .f32⟩ : BufTy).Contents (Elt F)),
    StableHlo.nullary main_cst_15 (constant S_ .f32 0x3F800000#32),
    StableHlo.TRef.unary (.of main_cst_15 : StableHlo.TRef sig ⟨S_, .f32⟩) main_call4.v0 id,
    StableHlo.TRef.unary main_call4.v0 main_call4.v1 (broadcastInDim S40000 ![] bcast_S_S40000),
    StableHlo.TRef.binary main_call4.v1 (.of main_v71 : StableHlo.TRef sig ⟨S40000, .f32⟩) main_call4.v2 maximumf,
    StableHlo.unary main_v72 main_v73 (broadcastInDim S40000x1 ![0] bcast_S40000_S40000x1_0 : (⟨S40000, .f32⟩ : BufTy).Contents (Elt F) → (⟨S40000x1, .f32⟩ : BufTy).Contents (Elt F)),
    StableHlo.unary main_v73 main_v74 (broadcastInDim S40000x128 ![0, 1] bcast_S40000x1_S40000x128_0_1 : (⟨S40000x1, .f32⟩ : BufTy).Contents (Elt F) → (⟨S40000x128, .f32⟩ : BufTy).Contents (Elt F)),
    StableHlo.binary main_v67 main_v74 main_v75 (Host.divf : (⟨S40000x128, .f32⟩ : BufTy).Contents (Elt F) → (⟨S40000x128, .f32⟩ : BufTy).Contents (Elt F) → (⟨S40000x128, .f32⟩ : BufTy).Contents (Elt F)),
    StableHlo.unary main_arg8 main_v76 ((transpose S128x128 [1, 0] · transposes_S128x128_S128x128_1_0) : (⟨S128x128, .f32⟩ : BufTy).Contents (Elt F) → (⟨S128x128, .f32⟩ : BufTy).Contents (Elt F)),
    StableHlo.binary main_v75 main_v76 main_v77 ((fun l r => Host.dotGeneral dot_S40000x128_S128x128_S40000x128_1_0_0_1_n_n none l r) : (⟨S40000x128, .f32⟩ : BufTy).Contents (Elt F) → (⟨S128x128, .f32⟩ : BufTy).Contents (Elt F) → (⟨S40000x128, .f32⟩ : BufTy).Contents (Elt F)),
    StableHlo.unary main_arg9 main_v78 (broadcastInDim S1x128 ![1] bcast_S128_S1x128_1 : (⟨S128, .f32⟩ : BufTy).Contents (Elt F) → (⟨S1x128, .f32⟩ : BufTy).Contents (Elt F)),
    StableHlo.unary main_v78 main_v79 (broadcastInDim S40000x128 ![0, 1] bcast_S1x128_S40000x128_0_1 : (⟨S1x128, .f32⟩ : BufTy).Contents (Elt F) → (⟨S40000x128, .f32⟩ : BufTy).Contents (Elt F)),
    StableHlo.binary main_v77 main_v79 main_v80 (addf : (⟨S40000x128, .f32⟩ : BufTy).Contents (Elt F) → (⟨S40000x128, .f32⟩ : BufTy).Contents (Elt F) → (⟨S40000x128, .f32⟩ : BufTy).Contents (Elt F)),
    StableHlo.unary main_arg10 main_v81 ((transpose S128x128 [1, 0] · transposes_S128x128_S128x128_1_0) : (⟨S128x128, .f32⟩ : BufTy).Contents (Elt F) → (⟨S128x128, .f32⟩ : BufTy).Contents (Elt F)),
    StableHlo.binary main_v57 main_v81 main_v82 ((fun l r => Host.dotGeneral dot_S40000x128_S128x128_S40000x128_1_0_0_1_n_n none l r) : (⟨S40000x128, .f32⟩ : BufTy).Contents (Elt F) → (⟨S128x128, .f32⟩ : BufTy).Contents (Elt F) → (⟨S40000x128, .f32⟩ : BufTy).Contents (Elt F)),
    StableHlo.binary main_v80 main_v82 main_v83 (addf : (⟨S40000x128, .f32⟩ : BufTy).Contents (Elt F) → (⟨S40000x128, .f32⟩ : BufTy).Contents (Elt F) → (⟨S40000x128, .f32⟩ : BufTy).Contents (Elt F)),
    StableHlo.TRef.nullary main_call5.cst (constant S_ .f32 0x00000000#32),
    StableHlo.TRef.unary main_call5.cst main_call5.v0 (broadcastInDim S40000x128 ![] bcast_S_S40000x128),
    StableHlo.TRef.binary (.of main_v83 : StableHlo.TRef sig ⟨S40000x128, .f32⟩) main_call5.v0 main_call5.v1 (cmpf .ogt),
    StableHlo.TRef.nullary main_call5.cst_0 (constant S_ .f32 0x00000000#32),
    StableHlo.TRef.unary main_call5.cst_0 main_call5.v2 (broadcastInDim S40000x128 ![] bcast_S_S40000x128),
    StableHlo.TRef.binary (.of main_v83 : StableHlo.TRef sig ⟨S40000x128, .f32⟩) main_call5.v2 main_call5.v3 (cmpf .ogt),
    StableHlo.TRef.nullary main_call5.cst_1 (constant S_ .f32 0x00000000#32),
    StableHlo.TRef.unary main_call5.cst_1 main_call5.call0.v0 id,
    StableHlo.TRef.unary main_call5.call0.v0 main_call5.call0.v1 (broadcastInDim S40000x128 ![] bcast_S_S40000x128),
    StableHlo.TRef.ternary main_call5.v3 main_call5.call0.v1 (.of main_v83 : StableHlo.TRef sig ⟨S40000x128, .f32⟩) main_call5.call0.v2 select,
    StableHlo.TRef.unary main_call5.call0.v2 main_call5.v5 Host.expm1,
    StableHlo.TRef.nullary main_call5.cst_2 (constant S_ .f32 0x3F800000#32),
    StableHlo.TRef.unary main_call5.cst_2 main_call5.v6 (broadcastInDim S40000x128 ![] bcast_S_S40000x128),
    StableHlo.TRef.binary main_call5.v6 main_call5.v5 main_call5.v7 mulf,
    StableHlo.TRef.ternary main_call5.v1 (.of main_v83 : StableHlo.TRef sig ⟨S40000x128, .f32⟩) main_call5.v7 main_call5.call1.v0 select ]

/-- The linear head: the product of `main_v84` with the transposed output weight plus the broadcast bias, `main_v89`. -/
abbrev segH : List (HloOp τ sig (Elt F)) :=
  [ StableHlo.unary main_arg11 main_v85 ((transpose S128x1 [1, 0] · transposes_S1x128_S128x1_1_0) : (⟨S1x128, .f32⟩ : BufTy).Contents (Elt F) → (⟨S128x1, .f32⟩ : BufTy).Contents (Elt F)),
    StableHlo.binary main_v84 main_v85 main_v86 ((fun l r => Host.dotGeneral dot_S40000x128_S128x1_S40000x1_1_0_0_1_n_n none l r) : (⟨S40000x128, .f32⟩ : BufTy).Contents (Elt F) → (⟨S128x1, .f32⟩ : BufTy).Contents (Elt F) → (⟨S40000x1, .f32⟩ : BufTy).Contents (Elt F)),
    StableHlo.unary main_arg12 main_v87 (broadcastInDim S1x1 ![1] bcast_S1_S1x1_1 : (⟨S1, .f32⟩ : BufTy).Contents (Elt F) → (⟨S1x1, .f32⟩ : BufTy).Contents (Elt F)),
    StableHlo.unary main_v87 main_v88 (broadcastInDim S40000x1 ![0, 1] bcast_S1x1_S40000x1_0_1 : (⟨S1x1, .f32⟩ : BufTy).Contents (Elt F) → (⟨S40000x1, .f32⟩ : BufTy).Contents (Elt F)),
    StableHlo.binary main_v86 main_v88 main_v89 (addf : (⟨S40000x1, .f32⟩ : BufTy).Contents (Elt F) → (⟨S40000x1, .f32⟩ : BufTy).Contents (Elt F) → (⟨S40000x1, .f32⟩ : BufTy).Contents (Elt F)) ]

/-- The operations of @main's first 60 statements, in order. -/
abbrev ops0 : List (HloOp τ sig (Elt F)) := segA ++ segL1 ++ segL2a
/-- The operations of @main's statements 61 to 109, in order. -/
abbrev ops1 : List (HloOp τ sig (Elt F)) := segL2b ++ segL3 ++ segH
/-- @main's 156 operations, in order. -/
abbrev ops : List (HloOp τ sig (Elt F)) := ops0 ++ ops1

/-- Every operation of `segA` touches TensorCore references only. -/
theorem segA_sub : (segA : List (HloOp τ sig (Elt F))).Forall fun op => op.bufs ⊆ tcRefs τ sig :=
  ⟨unary_bufs_sub .., reshape_bufs_sub .., unary_bufs_sub .., reshape_bufs_sub ..⟩
/-- No operation of `segA` leaves a result undetermined. -/
theorem segA_fresh : (segA : List (HloOp τ sig (Elt F))).Forall fun op => op.fresh = ∅ :=
  ⟨rfl, rfl, rfl, rfl⟩

/-- Every operation of `segL1` touches TensorCore references only. -/
theorem segL1_sub : (segL1 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., unary_bufs_sub .., binary_bufs_sub .., unary_bufs_sub .., unary_bufs_sub .., binary_bufs_sub .., unary_bufs_sub .., binary_bufs_sub .., unary_bufs_sub .., unary_bufs_sub .., binary_bufs_sub .., unary_bufs_sub .., binary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub ..⟩
/-- No operation of `segL1` leaves a result undetermined. -/
theorem segL1_fresh : (segL1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- Every operation of `segL2a` touches TensorCore references only. -/
theorem segL2a_sub : (segL2a : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., unary_bufs_sub .., binary_bufs_sub .., unary_bufs_sub .., unary_bufs_sub ..⟩
/-- No operation of `segL2a` leaves a result undetermined. -/
theorem segL2a_fresh : (segL2a : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl⟩

/-- Every operation of `segL2b` touches TensorCore references only. -/
theorem segL2b_sub : (segL2b : List (HloOp τ sig (Elt F))).Forall fun op => op.bufs ⊆ tcRefs τ sig :=
  ⟨binary_bufs_sub .., unary_bufs_sub .., binary_bufs_sub .., unary_bufs_sub .., unary_bufs_sub .., binary_bufs_sub .., unary_bufs_sub .., binary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub ..⟩
/-- No operation of `segL2b` leaves a result undetermined. -/
theorem segL2b_fresh : (segL2b : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl⟩

/-- Every operation of `segL3` touches TensorCore references only. -/
theorem segL3_sub : (segL3 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., unary_bufs_sub .., binary_bufs_sub .., unary_bufs_sub .., unary_bufs_sub .., binary_bufs_sub .., unary_bufs_sub .., binary_bufs_sub .., unary_bufs_sub .., unary_bufs_sub .., binary_bufs_sub .., unary_bufs_sub .., binary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub ..⟩
/-- No operation of `segL3` leaves a result undetermined. -/
theorem segL3_fresh : (segL3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- Every operation of `segH` touches TensorCore references only. -/
theorem segH_sub : (segH : List (HloOp τ sig (Elt F))).Forall fun op => op.bufs ⊆ tcRefs τ sig :=
  ⟨unary_bufs_sub .., binary_bufs_sub .., unary_bufs_sub .., unary_bufs_sub .., binary_bufs_sub ..⟩
/-- No operation of `segH` leaves a result undetermined. -/
theorem segH_fresh : (segH : List (HloOp τ sig (Elt F))).Forall fun op => op.fresh = ∅ :=
  ⟨rfl, rfl, rfl, rfl, rfl⟩

set_option maxRecDepth 8192 in
set_option maxHeartbeats 4000000 in
/-- The first 60 statements of @main are the straight line `ops0`: the functions' definitions unfolded at their calls,
    both sides are one chain of `hlo` steps once sequencing is reassociated. -/
theorem part0_eq (c : Dev nD) : main_part0 (F := F) c = seq ops0 := by
  simp only [main_part0, fn_clip.body, fn_elu.body, fn_where.body, fn_where_0.body, ops0, segA, segL1, segL2a,
    List.cons_append, List.nil_append, seq, bind_assoc, pure_bind]
  rfl

set_option maxRecDepth 8192 in
set_option maxHeartbeats 4000000 in
/-- Statements 61 to 109 of @main are the straight line `ops1`. -/
theorem part1_eq (c : Dev nD) : main_part1 (F := F) c = seq ops1 := by
  simp only [main_part1, fn_clip.body, fn_elu.body, fn_where.body, fn_where_0.body, ops1, segL2b, segL3, segH,
    List.cons_append, List.nil_append, seq, bind_assoc, pure_bind]

/-- @main is the straight line `ops`: its two parts in a row are the concatenation run as one. -/
theorem main_eq (c : Dev nD) : main (F := F) c = seq ops := by
  rw [show (ops : List (HloOp τ sig (Elt F))) = ops0 ++ ops1 from rfl, seq_append, ← part0_eq c, ← part1_eq c]
  rfl

/-- The signature scopes no TensorCore buffer. -/
theorem scopedRefs_eq : (Finset.univ.filter fun b : Ref sig .tc => b.isScoped) = ∅ := by decide
/-- The signature scopes no semaphore. -/
theorem scopedSems_eq : (Finset.univ.filter fun sm : SemLoc sig => sm.isScoped .tc) = ∅ := by decide

/-- Every operation of @main touches TensorCore references only. -/
theorem ops_sub : (ops : List (HloOp τ sig (Elt F))).Forall fun op => op.bufs ⊆ tcRefs τ sig :=
  List.forall_iff_forall_mem.mpr fun op h => by
    simp only [ops, ops0, ops1, List.mem_append] at h
    rcases h with ((h | h) | h) | ((h | h) | h)
    exacts [List.forall_iff_forall_mem.mp segA_sub op h, List.forall_iff_forall_mem.mp segL1_sub op h,
      List.forall_iff_forall_mem.mp segL2a_sub op h, List.forall_iff_forall_mem.mp segL2b_sub op h,
      List.forall_iff_forall_mem.mp segL3_sub op h, List.forall_iff_forall_mem.mp segH_sub op h]

/-- No operation of @main leaves a result undetermined. -/
theorem ops_fresh : ∀ op ∈ (ops : List (HloOp τ sig (Elt F))), op.fresh = ∅ := fun op h => by
  simp only [ops, ops0, ops1, List.mem_append] at h
  rcases h with ((h | h) | h) | ((h | h) | h)
  exacts [List.forall_iff_forall_mem.mp segA_fresh op h, List.forall_iff_forall_mem.mp segL1_fresh op h,
    List.forall_iff_forall_mem.mp segL2a_fresh op h, List.forall_iff_forall_mem.mp segL2b_fresh op h,
    List.forall_iff_forall_mem.mp segL3_fresh op h, List.forall_iff_forall_mem.mp segH_fresh op h]

/-- At the compiled mesh, for any float values, from any memory with zero counters: every weakly fair execution of
    @main on the TensorCores terminates, and every final state has each TensorCore buffer at the operations' fold
    over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ (fun _ => ops_fresh)

end Cert.ReferenceIdeal.RefRun

end
-- ==== Proof.RefLayer.lean ====
/-
  The reference's layer and head, as the host operations spell them on whole arrays, are the network's formulas.

  A host contraction  l · rᵀ-free form: the reference transposes each weight matrix and contracts the feature axis, so
  at node r and output feature j it is Σ_k l(r, k) · W(j, k). The mean is the edge sum divided, row by row, by the
  clipped degree broadcast along the features. The bias is broadcast along the nodes. The nonlinearity is the host's
  guarded form  z where 0 < z, else 1 · expm1(0 where 0 < z, else z), which is ELU at every extended real.
-/
import proofs.«162061_j5377299055106_1_alg».proof.ReferenceIdeal
import proofs.«162061_j5377299055106_1_alg».proof.Proof.Gen.ReferenceIdeal
import proofs.«162061_j5377299055106_1_alg».proof.Proof.SageSpec
import Idealize.ShloMosaic.Lib.Pipeline.Value
import Idealize.ShloMosaic.Lib.ValueIdx
import Idealize.ShloMosaic.PureOps.Ideal.Laws

noncomputable section

open Idealize.ShloMosaic Idealize.ShloMosaic.TcCoe Idealize.SL.Sem Idealize.ShloMosaic.ValueIdx

namespace Cert.ReferenceIdeal.RefLayer

open Cert.ReferenceIdeal Cert.ReferenceIdeal.Gen

/-! ## The nonlinearity -/

/-- A scalar constant broadcast to every node and feature reads the constant's value everywhere. -/
theorem splat_apply (b : BitVec 32) (i : S40000x128.Idx) :
    broadcastInDim S40000x128 ![] bcast_S_S40000x128 (constant (F := Ideal) S_ .f32 b) i = Ideal.ofBits .f32 b :=
  broadcastInDim_apply _ _ _ i ix0 (fun a => a.elim0)

theorem expm1_apply {s : Shape} (z : FVec Ideal s .f32) (i : s.Idx) : Host.expm1 z i = Ideal.exp (z i) - 1 := rfl

/-- The host's ELU on an array: the operations of the outlined function with its two selects in place. -/
def eluTerm (z : FVec Ideal S40000x128 .f32) : FVec Ideal S40000x128 .f32 :=
  select (cmpf .ogt z (broadcastInDim S40000x128 ![] bcast_S_S40000x128 (constant (F := Ideal) S_ .f32 0x00000000#32))) z
    (mulf (broadcastInDim S40000x128 ![] bcast_S_S40000x128 (constant (F := Ideal) S_ .f32 0x3F800000#32))
      (Host.expm1 (select (cmpf .ogt z (broadcastInDim S40000x128 ![] bcast_S_S40000x128 (constant (F := Ideal) S_ .f32 0x00000000#32)))
        (broadcastInDim S40000x128 ![] bcast_S_S40000x128 (id (constant (F := Ideal) S_ .f32 0x00000000#32))) z)))

/-- It is ELU at every element. -/
theorem eluTerm_apply (z : FVec Ideal S40000x128 .f32) (i : S40000x128.Idx) : eluTerm z i = SageSpec.elu (z i) := by
  have h0 := splat_apply 0x00000000#32 i
  have h1 := splat_apply 0x3F800000#32 i
  unfold eluTerm
  simp only [select_apply, cmpf_apply, mulf_apply, expm1_apply, id_eq, Ideal.cmpf_def, SageSpec.select_ogt]
  rw [h0, h1, SageSpec.zero_f32, SageSpec.one_f32]
  exact SageSpec.elu_guarded (z i)

/-! ## Contractions, transposes and broadcasts at an index -/

section Dot
variable {sl sr so : Shape} (D : DotDims sl sr so)
end Dot

abbrev D12 := dot_S40000x12_S12x128_S40000x128_1_0_0_1_n_n
abbrev D128 := dot_S40000x128_S128x128_S40000x128_1_0_0_1_n_n
abbrev DH := dot_S40000x128_S128x1_S40000x1_1_0_0_1_n_n

theorem d12_lhs_row (i : S40000x128.Idx) (q : D12.contr.Idx) : (D12.lhsIdx i q 0).val = (i 0).val := by
  unfold DotDims.lhsIdx
  rw [dif_neg (show ¬(0 : Fin S40000x12.rank) ∈ D12.lhsBatch by decide), dif_pos (show (0 : Fin S40000x12.rank) ∈ D12.lhsNonContracting by decide)]
  rfl
theorem d12_lhs_col (i : S40000x128.Idx) (q : D12.contr.Idx) : (D12.lhsIdx i q 1).val = (q ⟨0, by decide⟩).val :=
  D12.lhsIdx_val_of_single rfl i q
theorem d12_rhs_row (i : S40000x128.Idx) (q : D12.contr.Idx) : (D12.rhsIdx i q 0).val = (q ⟨0, by decide⟩).val :=
  D12.rhsIdx_val_of_single rfl i q
theorem d12_rhs_col (i : S40000x128.Idx) (q : D12.contr.Idx) : (D12.rhsIdx i q 1).val = (i 1).val := by
  unfold DotDims.rhsIdx
  rw [dif_neg (show ¬(1 : Fin S12x128.rank) ∈ D12.rhsBatch by decide), dif_pos (show (1 : Fin S12x128.rank) ∈ D12.rhsNonContracting by decide)]
  rfl

/-- Node features [40000, 12] times a [12, 128] matrix, at node `r` and output feature `j`. -/
theorem dot12_at (l : FVec Ideal S40000x12 .f32) (w : FVec Ideal S12x128 .f32) (r : Fin 40000) (j : Fin 128) :
    Host.dotGeneral D12 none l w (ix2 r j) = ∑ k : Fin 12, l (ix2 r k) * w (ix2 k j) := by
  simp only [Host.dotGeneral]
  rw [Ideal.dotGeneral_apply, ← Equiv.sum_comp (contrEquiv1 D12 12 rfl rfl).symm]
  refine Finset.sum_congr rfl fun k _ => ?_
  have hk := contrEquiv1_symm_val D12 12 rfl rfl k
  have el : D12.lhsIdx (ix2 r j) ((contrEquiv1 D12 12 rfl rfl).symm k) = ix2 r k := funext fun a => Fin.ext (by
    match a with
    | ⟨0, _⟩ => exact d12_lhs_row _ _
    | ⟨1, _⟩ => exact (d12_lhs_col _ _).trans hk)
  have er : D12.rhsIdx (ix2 r j) ((contrEquiv1 D12 12 rfl rfl).symm k) = ix2 k j := funext fun a => Fin.ext (by
    match a with
    | ⟨0, _⟩ => exact (d12_rhs_row _ _).trans hk
    | ⟨1, _⟩ => exact d12_rhs_col _ _)
  rw [el, er]

theorem d128_lhs_row (i : S40000x128.Idx) (q : D128.contr.Idx) : (D128.lhsIdx i q 0).val = (i 0).val := by
  unfold DotDims.lhsIdx
  rw [dif_neg (show ¬(0 : Fin S40000x128.rank) ∈ D128.lhsBatch by decide), dif_pos (show (0 : Fin S40000x128.rank) ∈ D128.lhsNonContracting by decide)]
  rfl
theorem d128_lhs_col (i : S40000x128.Idx) (q : D128.contr.Idx) : (D128.lhsIdx i q 1).val = (q ⟨0, by decide⟩).val :=
  D128.lhsIdx_val_of_single rfl i q
theorem d128_rhs_row (i : S40000x128.Idx) (q : D128.contr.Idx) : (D128.rhsIdx i q 0).val = (q ⟨0, by decide⟩).val :=
  D128.rhsIdx_val_of_single rfl i q
theorem d128_rhs_col (i : S40000x128.Idx) (q : D128.contr.Idx) : (D128.rhsIdx i q 1).val = (i 1).val := by
  unfold DotDims.rhsIdx
  rw [dif_neg (show ¬(1 : Fin S128x128.rank) ∈ D128.rhsBatch by decide), dif_pos (show (1 : Fin S128x128.rank) ∈ D128.rhsNonContracting by decide)]
  rfl

/-- Node features [40000, 128] times a [128, 128] matrix. -/
theorem dot128_at (l : FVec Ideal S40000x128 .f32) (w : FVec Ideal S128x128 .f32) (r : Fin 40000) (j : Fin 128) :
    Host.dotGeneral D128 none l w (ix2 r j) = ∑ k : Fin 128, l (ix2 r k) * w (ix2 k j) := by
  simp only [Host.dotGeneral]
  rw [Ideal.dotGeneral_apply, ← Equiv.sum_comp (contrEquiv1 D128 128 rfl rfl).symm]
  refine Finset.sum_congr rfl fun k _ => ?_
  have hk := contrEquiv1_symm_val D128 128 rfl rfl k
  have el : D128.lhsIdx (ix2 r j) ((contrEquiv1 D128 128 rfl rfl).symm k) = ix2 r k := funext fun a => Fin.ext (by
    match a with
    | ⟨0, _⟩ => exact d128_lhs_row _ _
    | ⟨1, _⟩ => exact (d128_lhs_col _ _).trans hk)
  have er : D128.rhsIdx (ix2 r j) ((contrEquiv1 D128 128 rfl rfl).symm k) = ix2 k j := funext fun a => Fin.ext (by
    match a with
    | ⟨0, _⟩ => exact (d128_rhs_row _ _).trans hk
    | ⟨1, _⟩ => exact d128_rhs_col _ _)
  rw [el, er]

theorem dh_lhs_row (i : S40000x1.Idx) (q : DH.contr.Idx) : (DH.lhsIdx i q 0).val = (i 0).val := by
  unfold DotDims.lhsIdx
  rw [dif_neg (show ¬(0 : Fin S40000x128.rank) ∈ DH.lhsBatch by decide), dif_pos (show (0 : Fin S40000x128.rank) ∈ DH.lhsNonContracting by decide)]
  rfl
theorem dh_lhs_col (i : S40000x1.Idx) (q : DH.contr.Idx) : (DH.lhsIdx i q 1).val = (q ⟨0, by decide⟩).val :=
  DH.lhsIdx_val_of_single rfl i q
theorem dh_rhs_row (i : S40000x1.Idx) (q : DH.contr.Idx) : (DH.rhsIdx i q 0).val = (q ⟨0, by decide⟩).val :=
  DH.rhsIdx_val_of_single rfl i q
theorem dh_rhs_col (i : S40000x1.Idx) (q : DH.contr.Idx) : (DH.rhsIdx i q 1).val = (i 1).val := by
  unfold DotDims.rhsIdx
  rw [dif_neg (show ¬(1 : Fin S128x1.rank) ∈ DH.rhsBatch by decide), dif_pos (show (1 : Fin S128x1.rank) ∈ DH.rhsNonContracting by decide)]
  rfl

/-- Node features [40000, 128] times a [128, 1] column. -/
theorem doth_at (l : FVec Ideal S40000x128 .f32) (w : FVec Ideal S128x1 .f32) (r : Fin 40000) :
    Host.dotGeneral DH none l w (ix2 r 0) = ∑ k : Fin 128, l (ix2 r k) * w (ix2 k 0) := by
  simp only [Host.dotGeneral]
  rw [Ideal.dotGeneral_apply, ← Equiv.sum_comp (contrEquiv1 DH 128 rfl rfl).symm]
  refine Finset.sum_congr rfl fun k _ => ?_
  have hk := contrEquiv1_symm_val DH 128 rfl rfl k
  have el : DH.lhsIdx (ix2 r 0) ((contrEquiv1 DH 128 rfl rfl).symm k) = ix2 r k := funext fun a => Fin.ext (by
    match a with
    | ⟨0, _⟩ => exact dh_lhs_row _ _
    | ⟨1, _⟩ => exact (dh_lhs_col _ _).trans hk)
  have er : DH.rhsIdx (ix2 r 0) ((contrEquiv1 DH 128 rfl rfl).symm k) = ix2 k 0 := funext fun a => Fin.ext (by
    match a with
    | ⟨0, _⟩ => exact (dh_rhs_row _ _).trans hk
    | ⟨1, _⟩ => exact dh_rhs_col _ _)
  rw [el, er]

/-- The transposes: entry (k, j) of the transposed matrix is entry (j, k). -/
theorem tr12_at (W : FVec Ideal S128x12 .f32) (k : Fin 12) (j : Fin 128) :
    transpose S12x128 [1, 0] W transposes_S128x12_S12x128_1_0 (ix2 k j) = W (ix2 j k) :=
  transpose_apply _ W _ (ix2 k j) (ix2 j k) (fun b => by
    match b with
    | ⟨0, _⟩ => rfl
    | ⟨1, _⟩ => rfl)

theorem tr128_at (W : FVec Ideal S128x128 .f32) (k : Fin 128) (j : Fin 128) :
    transpose S128x128 [1, 0] W transposes_S128x128_S128x128_1_0 (ix2 k j) = W (ix2 j k) :=
  transpose_apply _ W _ (ix2 k j) (ix2 j k) (fun b => by
    match b with
    | ⟨0, _⟩ => rfl
    | ⟨1, _⟩ => rfl)

theorem trh_at (W : FVec Ideal S1x128 .f32) (k : Fin 128) :
    transpose S128x1 [1, 0] W transposes_S1x128_S128x1_1_0 (ix2 k 0) = W (ix2 0 k) :=
  transpose_apply _ W _ (ix2 k 0) (ix2 0 k) (fun b => by
    match b with
    | ⟨0, _⟩ => rfl
    | ⟨1, _⟩ => rfl)

/-- The clipped degree broadcast along the features reads the node's entry. -/
theorem deg12_at (d : FVec Ideal S40000 .f32) (r : Fin 40000) (k : Fin 12) :
    broadcastInDim S40000x12 ![0, 1] bcast_S40000x1_S40000x12_0_1 (broadcastInDim S40000x1 ![0] bcast_S40000_S40000x1_0 d) (ix2 r k) = d (ix1 r) :=
  (broadcastInDim_apply _ _ _ (ix2 r k) (ix2 r 0) (fun a => by
    match a with
    | ⟨0, _⟩ => rfl
    | ⟨1, _⟩ => rfl)).trans
  (broadcastInDim_apply _ _ d (ix2 r 0) (ix1 r) (fun a => by
    match a with
    | ⟨0, _⟩ => rfl))

theorem deg128_at (d : FVec Ideal S40000 .f32) (r : Fin 40000) (k : Fin 128) :
    broadcastInDim S40000x128 ![0, 1] bcast_S40000x1_S40000x128_0_1 (broadcastInDim S40000x1 ![0] bcast_S40000_S40000x1_0 d) (ix2 r k) = d (ix1 r) :=
  (broadcastInDim_apply _ _ _ (ix2 r k) (ix2 r 0) (fun a => by
    match a with
    | ⟨0, _⟩ => rfl
    | ⟨1, _⟩ => rfl)).trans
  (broadcastInDim_apply _ _ d (ix2 r 0) (ix1 r) (fun a => by
    match a with
    | ⟨0, _⟩ => rfl))

/-- The bias broadcast along the nodes reads the feature's entry. -/
theorem bias_at (b : FVec Ideal S128 .f32) (r : Fin 40000) (j : Fin 128) :
    broadcastInDim S40000x128 ![0, 1] bcast_S1x128_S40000x128_0_1 (broadcastInDim S1x128 ![1] bcast_S128_S1x128_1 b) (ix2 r j) = b (ix1 j) :=
  (broadcastInDim_apply _ _ _ (ix2 r j) (ix2 0 j) (fun a => by
    match a with
    | ⟨0, _⟩ => rfl
    | ⟨1, _⟩ => rfl)).trans
  (broadcastInDim_apply _ _ b (ix2 0 j) (ix1 j) (fun a => by
    match a with
    | ⟨0, _⟩ => rfl))

theorem hbias_at (b : FVec Ideal S1 .f32) (r : Fin 40000) :
    broadcastInDim S40000x1 ![0, 1] bcast_S1x1_S40000x1_0_1 (broadcastInDim S1x1 ![1] bcast_S1_S1x1_1 b) (ix2 r 0) = b (ix1 0) :=
  (broadcastInDim_apply _ _ _ (ix2 r 0) (ix2 0 0) (fun a => by
    match a with
    | ⟨0, _⟩ => rfl
    | ⟨1, _⟩ => rfl)).trans
  (broadcastInDim_apply _ _ b (ix2 0 0) (ix1 0) (fun a => by
    match a with
    | ⟨0, _⟩ => rfl))

/-! ## The layers and the head -/

/-- Layer 1 as the host computes it from the edge sums `A`, the features `x` and the clipped degree `d`. -/
def layerTerm12 (A x : FVec Ideal S40000x12 .f32) (d : FVec Ideal S40000 .f32) (Wl : FVec Ideal S128x12 .f32)
    (bl : FVec Ideal S128 .f32) (Wr : FVec Ideal S128x12 .f32) : FVec Ideal S40000x128 .f32 :=
  eluTerm (addf (addf (Host.dotGeneral D12 none
        (Host.divf A (broadcastInDim S40000x12 ![0, 1] bcast_S40000x1_S40000x12_0_1 (broadcastInDim S40000x1 ![0] bcast_S40000_S40000x1_0 d)))
        (transpose S12x128 [1, 0] Wl transposes_S128x12_S12x128_1_0))
      (broadcastInDim S40000x128 ![0, 1] bcast_S1x128_S40000x128_0_1 (broadcastInDim S1x128 ![1] bcast_S128_S1x128_1 bl)))
    (Host.dotGeneral D12 none x (transpose S12x128 [1, 0] Wr transposes_S128x12_S12x128_1_0)))

theorem layerTerm12_eq (A x : FVec Ideal S40000x12 .f32) (d : FVec Ideal S40000 .f32) (Wl : FVec Ideal S128x12 .f32)
    (bl : FVec Ideal S128 .f32) (Wr : FVec Ideal S128x12 .f32) :
    layerTerm12 A x d Wl bl Wr = SageSpec.layer A x d Wl Wr bl := by
  funext i
  obtain ⟨r, j, rfl⟩ : ∃ (r : Fin 40000) (j : Fin 128), i = ix2 r j := ⟨i 0, i 1, eq_ix2 i⟩
  unfold layerTerm12
  refine (eluTerm_apply _ _).trans (congrArg SageSpec.elu ?_)
  show (Host.dotGeneral D12 none _ _ (ix2 r j) + _) + Host.dotGeneral D12 none _ _ (ix2 r j) = _
  rw [dot12_at, dot12_at, bias_at]
  unfold SageSpec.preAt SageSpec.meanAt
  refine congrArg₂ (· + ·) (congrArg₂ (· + ·) ?_ rfl) ?_
  · refine Finset.sum_congr rfl fun k _ => ?_
    rw [tr12_at]
    refine congrArg (· * Wl (ix2 j k)) ?_
    show Ideal.div (A (ix2 r k)) _ = _
    rw [deg12_at]
  · refine Finset.sum_congr rfl fun k _ => ?_
    rw [tr12_at]

/-- Layers 2 and 3. -/
def layerTerm128 (A h : FVec Ideal S40000x128 .f32) (d : FVec Ideal S40000 .f32) (Wl : FVec Ideal S128x128 .f32)
    (bl : FVec Ideal S128 .f32) (Wr : FVec Ideal S128x128 .f32) : FVec Ideal S40000x128 .f32 :=
  eluTerm (addf (addf (Host.dotGeneral D128 none
        (Host.divf A (broadcastInDim S40000x128 ![0, 1] bcast_S40000x1_S40000x128_0_1 (broadcastInDim S40000x1 ![0] bcast_S40000_S40000x1_0 d)))
        (transpose S128x128 [1, 0] Wl transposes_S128x128_S128x128_1_0))
      (broadcastInDim S40000x128 ![0, 1] bcast_S1x128_S40000x128_0_1 (broadcastInDim S1x128 ![1] bcast_S128_S1x128_1 bl)))
    (Host.dotGeneral D128 none h (transpose S128x128 [1, 0] Wr transposes_S128x128_S128x128_1_0)))

theorem layerTerm128_eq (A h : FVec Ideal S40000x128 .f32) (d : FVec Ideal S40000 .f32) (Wl : FVec Ideal S128x128 .f32)
    (bl : FVec Ideal S128 .f32) (Wr : FVec Ideal S128x128 .f32) :
    layerTerm128 A h d Wl bl Wr = SageSpec.layer A h d Wl Wr bl := by
  funext i
  obtain ⟨r, j, rfl⟩ : ∃ (r : Fin 40000) (j : Fin 128), i = ix2 r j := ⟨i 0, i 1, eq_ix2 i⟩
  unfold layerTerm128
  refine (eluTerm_apply _ _).trans (congrArg SageSpec.elu ?_)
  show (Host.dotGeneral D128 none _ _ (ix2 r j) + _) + Host.dotGeneral D128 none _ _ (ix2 r j) = _
  rw [dot128_at, dot128_at, bias_at]
  unfold SageSpec.preAt SageSpec.meanAt
  refine congrArg₂ (· + ·) (congrArg₂ (· + ·) ?_ rfl) ?_
  · refine Finset.sum_congr rfl fun k _ => ?_
    rw [tr128_at]
    refine congrArg (· * Wl (ix2 j k)) ?_
    show Ideal.div (A (ix2 r k)) _ = _
    rw [deg128_at]
  · refine Finset.sum_congr rfl fun k _ => ?_
    rw [tr128_at]

/-- The head. -/
def headTerm (h : FVec Ideal S40000x128 .f32) (w : FVec Ideal S1x128 .f32) (b : FVec Ideal S1 .f32) : FVec Ideal S40000x1 .f32 :=
  addf (Host.dotGeneral DH none h (transpose S128x1 [1, 0] w transposes_S1x128_S128x1_1_0))
    (broadcastInDim S40000x1 ![0, 1] bcast_S1x1_S40000x1_0_1 (broadcastInDim S1x1 ![1] bcast_S1_S1x1_1 b))

theorem headTerm_eq (h : FVec Ideal S40000x128 .f32) (w : FVec Ideal S1x128 .f32) (b : FVec Ideal S1 .f32) :
    headTerm h w b = SageSpec.head h w b := by
  funext i
  obtain ⟨r, q, rfl⟩ : ∃ (r : Fin 40000) (q : Fin 1), i = ix2 r q := ⟨i 0, i 1, eq_ix2 i⟩
  obtain rfl : q = 0 := Fin.eq_zero q
  unfold headTerm
  show Host.dotGeneral DH none _ _ (ix2 r 0) + _ = _
  rw [doth_at, hbias_at]
  unfold SageSpec.head SageSpec.headAt
  refine congrArg₂ (· + ·) ?_ rfl
  refine Finset.sum_congr rfl fun k _ => ?_
  rw [trh_at]

end Cert.ReferenceIdeal.RefLayer

end
-- ==== Proof.RefRead.lean ====
/- The reference program's result read back as a composition of small array-level definitions — the edge table's two
   index columns, the neighbour sums, the clipped in-degree, the layers and the linear head — at the exact instance.
   The fold of @main's operations is read one stretch at a time from an arbitrary valuation, so that no equation is
   stated between two full-size terms; gathers, scatter-adds and contractions stay folded throughout. -/
import proofs.«162061_j5377299055106_1_alg».proof.Proof.RefRun
import Idealize.ShloMosaic.PureOps.Ideal.Laws
import proofs.«162061_j5377299055106_1_alg».proof.Proof.RefLayer

set_option Elab.async false

noncomputable section

namespace Cert.ReferenceIdeal.RefRead

open Cert.ReferenceIdeal Cert.ReferenceIdeal.Gen Cert.ReferenceIdeal.RefRun Idealize.ShloMosaic Idealize.ShloMosaic.TcCoe Idealize.SL.Sem Idealize.ShloMosaic.StableHlo

/-! ## The definitions -/

/-- Row 0 of the 2 × 640000 edge table as a vector of 640000 entries: each edge's source node as stored. -/
def srcRow (e : (⟨S2x640000, .i32⟩ : BufTy).Contents (Elt Ideal)) : (⟨S640000, .i32⟩ : BufTy).Contents (Elt Ideal) :=
  shapeCast S640000 (extractStridedSlice S1x640000 ![0, 0] e slices_S2x640000_S1x640000_0_0) shapeCasts_S1x640000_S640000
/-- Row 1 of the edge table as a vector: each edge's destination node as stored. -/
def dstRow (e : (⟨S2x640000, .i32⟩ : BufTy).Contents (Elt Ideal)) : (⟨S640000, .i32⟩ : BufTy).Contents (Elt Ideal) :=
  shapeCast S640000 (extractStridedSlice S1x640000 ![1, 0] e slices_S2x640000_S1x640000_1_0) shapeCasts_S1x640000_S640000
/-- A vector of node numbers with the negative ones moved up by 40000 (`s < 0 ? s + 40000 : s`), as one index column. -/
def wrapIdx (s : (⟨S640000, .i32⟩ : BufTy).Contents (Elt Ideal)) : (⟨S640000x1, .i32⟩ : BufTy).Contents (Elt Ideal) :=
  broadcastInDim S640000x1 ![0] bcast_S640000_S640000x1_0
    (select (cmpi .slt s (broadcastInDim S640000 ![] bcast_S_S640000 (constantI S_ 32 0#32)))
      (addi s (broadcastInDim S640000 ![] bcast_S_S640000 (constantI S_ 32 40000#32))) s)
/-- A vector of node numbers as one index column. -/
def colIdx (t : (⟨S640000, .i32⟩ : BufTy).Contents (Elt Ideal)) : (⟨S640000x1, .i32⟩ : BufTy).Contents (Elt Ideal) :=
  broadcastInDim S640000x1 ![0] bcast_S640000_S640000x1_0 t
/-- The gather's index column: the source row, its negative entries wrapped by 40000. -/
def srcIdx (e : (⟨S2x640000, .i32⟩ : BufTy).Contents (Elt Ideal)) : (⟨S640000x1, .i32⟩ : BufTy).Contents (Elt Ideal) := wrapIdx (srcRow e)
/-- The scatter's index column: the destination row. -/
def dstIdx (e : (⟨S2x640000, .i32⟩ : BufTy).Contents (Elt Ideal)) : (⟨S640000x1, .i32⟩ : BufTy).Contents (Elt Ideal) := colIdx (dstRow e)

/-- The neighbour sum on 12 features: the rows of `x` at the source indices, added into a zero array at the destination indices. -/
def agg12 (x : (⟨S40000x12, .f32⟩ : BufTy).Contents (Elt Ideal)) (e : (⟨S2x640000, .i32⟩ : BufTy).Contents (Elt Ideal)) : (⟨S40000x12, .f32⟩ : BufTy).Contents (Elt Ideal) :=
  Host.scatterAdd scatter_S40000x12_S640000x1_S640000x12_1_0_0_1 (broadcastInDim S40000x12 ![] bcast_S_S40000x12 (constant (F := Ideal) S_ .f32 0x00000000#32)) (dstIdx e)
    (Host.gather gather_S40000x12_S640000x1_S640000x12_1_0_n_n_0_1_112 x (srcIdx e))
/-- The neighbour sum on 128 features. -/
def agg128 (h : (⟨S40000x128, .f32⟩ : BufTy).Contents (Elt Ideal)) (e : (⟨S2x640000, .i32⟩ : BufTy).Contents (Elt Ideal)) : (⟨S40000x128, .f32⟩ : BufTy).Contents (Elt Ideal) :=
  Host.scatterAdd scatter_S40000x128_S640000x1_S640000x128_1_0_0_1 (broadcastInDim S40000x128 ![] bcast_S_S40000x128 (constant (F := Ideal) S_ .f32 0x00000000#32)) (dstIdx e)
    (Host.gather gather_S40000x128_S640000x1_S640000x128_1_0_n_n_0_1_1128 h (srcIdx e))
/-- The in-degree, one added per edge at its destination, clipped below at one. -/
def degClip (e : (⟨S2x640000, .i32⟩ : BufTy).Contents (Elt Ideal)) : (⟨S40000, .f32⟩ : BufTy).Contents (Elt Ideal) :=
  maximumf (broadcastInDim S40000 ![] bcast_S_S40000 (id (constant (F := Ideal) S_ .f32 0x3F800000#32)))
    (Host.scatterAdd scatter_S40000_S640000x1_S640000_n_0_0_1 (broadcastInDim S40000 ![] bcast_S_S40000 (constant (F := Ideal) S_ .f32 0x00000000#32)) (dstIdx e)
      (broadcastInDim S640000 ![] bcast_S_S640000 (constant (F := Ideal) S_ .f32 0x3F800000#32)))
/-- The first layer: the host's layer term at the neighbour sum, the features and the clipped degree. -/
def layer12 (x : (⟨S40000x12, .f32⟩ : BufTy).Contents (Elt Ideal)) (e : (⟨S2x640000, .i32⟩ : BufTy).Contents (Elt Ideal)) (Wl : (⟨S128x12, .f32⟩ : BufTy).Contents (Elt Ideal)) (bl : (⟨S128, .f32⟩ : BufTy).Contents (Elt Ideal)) (Wr : (⟨S128x12, .f32⟩ : BufTy).Contents (Elt Ideal)) : (⟨S40000x128, .f32⟩ : BufTy).Contents (Elt Ideal) :=
  RefLayer.layerTerm12 (agg12 x e) x (degClip e) Wl bl Wr
/-- A later layer: the same on 128 input features. -/
def layer128 (h : (⟨S40000x128, .f32⟩ : BufTy).Contents (Elt Ideal)) (e : (⟨S2x640000, .i32⟩ : BufTy).Contents (Elt Ideal)) (Wl : (⟨S128x128, .f32⟩ : BufTy).Contents (Elt Ideal)) (bl : (⟨S128, .f32⟩ : BufTy).Contents (Elt Ideal)) (Wr : (⟨S128x128, .f32⟩ : BufTy).Contents (Elt Ideal)) : (⟨S40000x128, .f32⟩ : BufTy).Contents (Elt Ideal) :=
  RefLayer.layerTerm128 (agg128 h e) h (degClip e) Wl bl Wr
/-- The linear head. -/
def headR (h : (⟨S40000x128, .f32⟩ : BufTy).Contents (Elt Ideal)) (w : (⟨S1x128, .f32⟩ : BufTy).Contents (Elt Ideal)) (b : (⟨S1, .f32⟩ : BufTy).Contents (Elt Ideal)) : (⟨S40000x1, .f32⟩ : BufTy).Contents (Elt Ideal) :=
  RefLayer.headTerm h w b
/-- The network: three layers and the head. -/
def net (x : (⟨S40000x12, .f32⟩ : BufTy).Contents (Elt Ideal)) (e : (⟨S2x640000, .i32⟩ : BufTy).Contents (Elt Ideal))
    (Wl1 : (⟨S128x12, .f32⟩ : BufTy).Contents (Elt Ideal)) (bl1 : (⟨S128, .f32⟩ : BufTy).Contents (Elt Ideal)) (Wr1 : (⟨S128x12, .f32⟩ : BufTy).Contents (Elt Ideal))
    (Wl2 : (⟨S128x128, .f32⟩ : BufTy).Contents (Elt Ideal)) (bl2 : (⟨S128, .f32⟩ : BufTy).Contents (Elt Ideal)) (Wr2 : (⟨S128x128, .f32⟩ : BufTy).Contents (Elt Ideal))
    (Wl3 : (⟨S128x128, .f32⟩ : BufTy).Contents (Elt Ideal)) (bl3 : (⟨S128, .f32⟩ : BufTy).Contents (Elt Ideal)) (Wr3 : (⟨S128x128, .f32⟩ : BufTy).Contents (Elt Ideal))
    (Wout : (⟨S1x128, .f32⟩ : BufTy).Contents (Elt Ideal)) (bout : (⟨S1, .f32⟩ : BufTy).Contents (Elt Ideal)) : (⟨S40000x1, .f32⟩ : BufTy).Contents (Elt Ideal) :=
  headR (layer128 (layer128 (layer12 x e Wl1 bl1 Wr1) e Wl2 bl2 Wr2) e Wl3 bl3 Wr3) Wout bout

/-! ## The layers over the two index rows

A layer's stretch of operations reads the two reshaped rows from their buffers; these are the layers over the rows,
equal to the ones above at the rows of the edge table by unfolding the definitions. -/

/-! ## The pieces' terms -/

/-- Rows of `x` gathered at an index column and added into a zero array at another: 12 features. -/
def gsTerm12 (x : FVec Ideal S40000x12 .f32) (si ti : IVec S640000x1 32) : FVec Ideal S40000x12 .f32 :=
  Host.scatterAdd scatter_S40000x12_S640000x1_S640000x12_1_0_0_1 (broadcastInDim S40000x12 ![] bcast_S_S40000x12 (constant (F := Ideal) S_ .f32 0x00000000#32)) ti
    (Host.gather gather_S40000x12_S640000x1_S640000x12_1_0_n_n_0_1_112 x si)
/-- The same on 128 features. -/
def gsTerm128 (h : FVec Ideal S40000x128 .f32) (si ti : IVec S640000x1 32) : FVec Ideal S40000x128 .f32 :=
  Host.scatterAdd scatter_S40000x128_S640000x1_S640000x128_1_0_0_1 (broadcastInDim S40000x128 ![] bcast_S_S40000x128 (constant (F := Ideal) S_ .f32 0x00000000#32)) ti
    (Host.gather gather_S40000x128_S640000x1_S640000x128_1_0_n_n_0_1_1128 h si)
/-- One added per entry of an index column at the node it names: the in-degree. -/
def cntTerm (ti : IVec S640000x1 32) : FVec Ideal S40000 .f32 :=
  Host.scatterAdd scatter_S40000_S640000x1_S640000_n_0_0_1 (broadcastInDim S40000 ![] bcast_S_S40000 (constant (F := Ideal) S_ .f32 0x00000000#32)) ti
    (broadcastInDim S640000 ![] bcast_S_S640000 (constant (F := Ideal) S_ .f32 0x3F800000#32))
/-- A vector clipped below at one. -/
def clipTerm (u : FVec Ideal S40000 .f32) : FVec Ideal S40000 .f32 :=
  maximumf (broadcastInDim S40000 ![] bcast_S_S40000 (id (constant (F := Ideal) S_ .f32 0x3F800000#32))) u
/-- The in-degree clipped below at one. -/
def degTerm (ti : IVec S640000x1 32) : FVec Ideal S40000 .f32 := clipTerm (cntTerm ti)
/-- A layer before its nonlinearity, from the neighbour sums `A`, the features `x` and the clipped degree `d`: 12 features. -/
def preTerm12 (A x : FVec Ideal S40000x12 .f32) (d : FVec Ideal S40000 .f32) (Wl : FVec Ideal S128x12 .f32) (bl : FVec Ideal S128 .f32) (Wr : FVec Ideal S128x12 .f32) : FVec Ideal S40000x128 .f32 :=
  addf (addf (Host.dotGeneral RefLayer.D12 none
        (Host.divf A (broadcastInDim S40000x12 ![0, 1] bcast_S40000x1_S40000x12_0_1 (broadcastInDim S40000x1 ![0] bcast_S40000_S40000x1_0 d)))
        (transpose S12x128 [1, 0] Wl transposes_S128x12_S12x128_1_0))
      (broadcastInDim S40000x128 ![0, 1] bcast_S1x128_S40000x128_0_1 (broadcastInDim S1x128 ![1] bcast_S128_S1x128_1 bl)))
    (Host.dotGeneral RefLayer.D12 none x (transpose S12x128 [1, 0] Wr transposes_S128x12_S12x128_1_0))
/-- The same on 128 features. -/
def preTerm128 (A h : FVec Ideal S40000x128 .f32) (d : FVec Ideal S40000 .f32) (Wl : FVec Ideal S128x128 .f32) (bl : FVec Ideal S128 .f32) (Wr : FVec Ideal S128x128 .f32) : FVec Ideal S40000x128 .f32 :=
  addf (addf (Host.dotGeneral RefLayer.D128 none
        (Host.divf A (broadcastInDim S40000x128 ![0, 1] bcast_S40000x1_S40000x128_0_1 (broadcastInDim S40000x1 ![0] bcast_S40000_S40000x1_0 d)))
        (transpose S128x128 [1, 0] Wl transposes_S128x128_S128x128_1_0))
      (broadcastInDim S40000x128 ![0, 1] bcast_S1x128_S40000x128_0_1 (broadcastInDim S1x128 ![1] bcast_S128_S1x128_1 bl)))
    (Host.dotGeneral RefLayer.D128 none h (transpose S128x128 [1, 0] Wr transposes_S128x128_S128x128_1_0))

/-- `layer12` over the two index rows. -/
def layer12R (x : (⟨S40000x12, .f32⟩ : BufTy).Contents (Elt Ideal)) (s t : (⟨S640000, .i32⟩ : BufTy).Contents (Elt Ideal)) (Wl : (⟨S128x12, .f32⟩ : BufTy).Contents (Elt Ideal)) (bl : (⟨S128, .f32⟩ : BufTy).Contents (Elt Ideal)) (Wr : (⟨S128x12, .f32⟩ : BufTy).Contents (Elt Ideal)) : (⟨S40000x128, .f32⟩ : BufTy).Contents (Elt Ideal) :=
  RefLayer.layerTerm12 (gsTerm12 x (wrapIdx s) (colIdx t)) x (degTerm (colIdx t)) Wl bl Wr
/-- `layer128` over the two index rows. -/
def layer128R (h : (⟨S40000x128, .f32⟩ : BufTy).Contents (Elt Ideal)) (s t : (⟨S640000, .i32⟩ : BufTy).Contents (Elt Ideal)) (Wl : (⟨S128x128, .f32⟩ : BufTy).Contents (Elt Ideal)) (bl : (⟨S128, .f32⟩ : BufTy).Contents (Elt Ideal)) (Wr : (⟨S128x128, .f32⟩ : BufTy).Contents (Elt Ideal)) : (⟨S40000x128, .f32⟩ : BufTy).Contents (Elt Ideal) :=
  RefLayer.layerTerm128 (gsTerm128 h (wrapIdx s) (colIdx t)) h (degTerm (colIdx t)) Wl bl Wr

/-- At the edge table's rows the row form is `layer12`. -/
theorem layer12R_rows (x : (⟨S40000x12, .f32⟩ : BufTy).Contents (Elt Ideal)) (e : (⟨S2x640000, .i32⟩ : BufTy).Contents (Elt Ideal)) (Wl : (⟨S128x12, .f32⟩ : BufTy).Contents (Elt Ideal)) (bl : (⟨S128, .f32⟩ : BufTy).Contents (Elt Ideal)) (Wr : (⟨S128x12, .f32⟩ : BufTy).Contents (Elt Ideal)) :
    layer12R x (srcRow e) (dstRow e) Wl bl Wr = layer12 x e Wl bl Wr := rfl
/-- At the edge table's rows the row form is `layer128`. -/
theorem layer128R_rows (h : (⟨S40000x128, .f32⟩ : BufTy).Contents (Elt Ideal)) (e : (⟨S2x640000, .i32⟩ : BufTy).Contents (Elt Ideal)) (Wl : (⟨S128x128, .f32⟩ : BufTy).Contents (Elt Ideal)) (bl : (⟨S128, .f32⟩ : BufTy).Contents (Elt Ideal)) (Wr : (⟨S128x128, .f32⟩ : BufTy).Contents (Elt Ideal)) :
    layer128R h (srcRow e) (dstRow e) Wl bl Wr = layer128 h e Wl bl Wr := rfl

/-! ## The stretches, each from an arbitrary valuation -/

/-- The fold over two lines in a row. -/
theorem after_app : ∀ (l₁ l₂ : List (HloOp τ sig (Elt Ideal))) (V : Valuation τ sig (Elt Ideal)), after (l₁ ++ l₂) V = after l₂ (after l₁ V)
  | [], _, _ => rfl
  | op :: l₁, l₂, V => by rw [List.cons_append, after_cons, after_cons, after_app l₁ l₂]

/-- The buffers the operations of `segA` write. -/
abbrev segA_W : List (Ref sig .tc) := [main_v0, main_v1, main_v2, main_v3]
set_option maxRecDepth 8192 in
/-- Each operation of `segA` writes one buffer of that list. -/
theorem segA_writes : (segA : List (HloOp τ sig (Elt Ideal))).Forall fun op => op.writes ⊆ (segA_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that `segA` does not write keeps its contents through it. -/
theorem segA_keep (W : Valuation τ sig (Elt Ideal)) (r : Ref sig .tc) (h : r ∉ segA_W) :
    after segA W (Proc.devRef .tc r) = W (Proc.devRef .tc r) :=
  after_of_writes_sub segA W segA_writes h

/-- The buffers the operations of `segL1` write. -/
abbrev segL1_W : List (Ref sig .tc) := [main_c, main_v4, main_v5, main_c_0, main_v6, main_v7, main_v8, main_v9, main_v10, main_cst, main_v11, main_v12, main_v13, main_cst_1, main_v14, main_cst_2, main_v15, main_v16, main_v17, main_cst_3, main_call0_v0, main_call0_v1, main_v18, main_v19, main_v20, main_v21, main_v22, main_v23, main_v24, main_v25, main_v26, main_v27, main_v28, main_v29, main_call1_cst, main_call1_v0, main_call1_v1, main_call1_cst_0, main_call1_v2, main_call1_v3, main_call1_cst_1, main_call1_call0_v0, main_call1_call0_v1, main_call1_v4, main_call1_v5, main_call1_cst_2, main_call1_v6, main_call1_v7, main_v30]
set_option maxRecDepth 8192 in
/-- Each operation of `segL1` writes one buffer of that list. -/
theorem segL1_writes : (segL1 : List (HloOp τ sig (Elt Ideal))).Forall fun op => op.writes ⊆ (segL1_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that `segL1` does not write keeps its contents through it. -/
theorem segL1_keep (W : Valuation τ sig (Elt Ideal)) (r : Ref sig .tc) (h : r ∉ segL1_W) :
    after segL1 W (Proc.devRef .tc r) = W (Proc.devRef .tc r) :=
  after_of_writes_sub segL1 W segL1_writes h

/-- The buffers the operations of `segL2a` write. -/
abbrev segL2a_W : List (Ref sig .tc) := [main_c_4, main_v31, main_v32, main_c_5, main_v33, main_v34, main_v35, main_v36, main_v37, main_cst_6, main_v38, main_v39, main_v40, main_cst_7, main_v41, main_cst_8, main_v42, main_v43, main_v44, main_cst_9, main_call2_v0, main_call2_v1, main_v45, main_v46, main_v47]
set_option maxRecDepth 8192 in
/-- Each operation of `segL2a` writes one buffer of that list. -/
theorem segL2a_writes : (segL2a : List (HloOp τ sig (Elt Ideal))).Forall fun op => op.writes ⊆ (segL2a_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that `segL2a` does not write keeps its contents through it. -/
theorem segL2a_keep (W : Valuation τ sig (Elt Ideal)) (r : Ref sig .tc) (h : r ∉ segL2a_W) :
    after segL2a W (Proc.devRef .tc r) = W (Proc.devRef .tc r) :=
  after_of_writes_sub segL2a W segL2a_writes h

/-- The buffers the operations of `segL2b` write. -/
abbrev segL2b_W : List (Ref sig .tc) := [main_v48, main_v49, main_v50, main_v51, main_v52, main_v53, main_v54, main_v55, main_v56, main_call3_cst, main_call3_v0, main_call3_v1, main_call3_cst_0, main_call3_v2, main_call3_v3, main_call3_cst_1, main_call3_call0_v0, main_call3_call0_v1, main_call3_v4, main_call3_v5, main_call3_cst_2, main_call3_v6, main_call3_v7, main_v57]
set_option maxRecDepth 8192 in
/-- Each operation of `segL2b` writes one buffer of that list. -/
theorem segL2b_writes : (segL2b : List (HloOp τ sig (Elt Ideal))).Forall fun op => op.writes ⊆ (segL2b_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that `segL2b` does not write keeps its contents through it. -/
theorem segL2b_keep (W : Valuation τ sig (Elt Ideal)) (r : Ref sig .tc) (h : r ∉ segL2b_W) :
    after segL2b W (Proc.devRef .tc r) = W (Proc.devRef .tc r) :=
  after_of_writes_sub segL2b W segL2b_writes h

/-- The buffers the operations of `segL3` write. -/
abbrev segL3_W : List (Ref sig .tc) := [main_c_10, main_v58, main_v59, main_c_11, main_v60, main_v61, main_v62, main_v63, main_v64, main_cst_12, main_v65, main_v66, main_v67, main_cst_13, main_v68, main_cst_14, main_v69, main_v70, main_v71, main_cst_15, main_call4_v0, main_call4_v1, main_v72, main_v73, main_v74, main_v75, main_v76, main_v77, main_v78, main_v79, main_v80, main_v81, main_v82, main_v83, main_call5_cst, main_call5_v0, main_call5_v1, main_call5_cst_0, main_call5_v2, main_call5_v3, main_call5_cst_1, main_call5_call0_v0, main_call5_call0_v1, main_call5_v4, main_call5_v5, main_call5_cst_2, main_call5_v6, main_call5_v7, main_v84]
set_option maxRecDepth 8192 in
/-- Each operation of `segL3` writes one buffer of that list. -/
theorem segL3_writes : (segL3 : List (HloOp τ sig (Elt Ideal))).Forall fun op => op.writes ⊆ (segL3_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that `segL3` does not write keeps its contents through it. -/
theorem segL3_keep (W : Valuation τ sig (Elt Ideal)) (r : Ref sig .tc) (h : r ∉ segL3_W) :
    after segL3 W (Proc.devRef .tc r) = W (Proc.devRef .tc r) :=
  after_of_writes_sub segL3 W segL3_writes h

/-- The buffers the operations of `segH` write. -/
abbrev segH_W : List (Ref sig .tc) := [main_v85, main_v86, main_v87, main_v88, main_v89]
set_option maxRecDepth 8192 in
/-- Each operation of `segH` writes one buffer of that list. -/
theorem segH_writes : (segH : List (HloOp τ sig (Elt Ideal))).Forall fun op => op.writes ⊆ (segH_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that `segH` does not write keeps its contents through it. -/
theorem segH_keep (W : Valuation τ sig (Elt Ideal)) (r : Ref sig .tc) (h : r ∉ segH_W) :
    after segH W (Proc.devRef .tc r) = W (Proc.devRef .tc r) :=
  after_of_writes_sub segH W segH_writes h

set_option maxRecDepth 8192 in
/-- After the first stretch the source row's buffer holds row 0 of the edge table as a vector. -/
theorem segA_v1 (W : Valuation τ sig (Elt Ideal)) : after segA W (main_v1 : DevRef τ sig) = srcRow (W (main_arg1 : DevRef τ sig)) := by
  simp only [segA]
  after_results_simp <;> rfl
set_option maxRecDepth 8192 in
/-- After the first stretch the destination row's buffer holds row 1 of the edge table as a vector. -/
theorem segA_v3 (W : Valuation τ sig (Elt Ideal)) : after segA W (main_v3 : DevRef τ sig) = dstRow (W (main_arg1 : DevRef τ sig)) := by
  simp only [segA]
  after_results_simp <;> rfl

set_option maxRecDepth 8192 in
/-- The head's stretch leaves the result at the head of the last layer's buffer. -/
theorem segH_v89 (W : Valuation τ sig (Elt Ideal)) :
    after segH W (main_v89 : DevRef τ sig) = headR (W (main_v84 : DevRef τ sig)) (W (main_arg11 : DevRef τ sig)) (W (main_arg12 : DevRef τ sig)) := by
  simp only [segH]
  after_results_simp <;> rfl

/-! ### Layer 1 -/

section
variable {F : FTy → Type} [FloatOps F]
/-- Layer 1: the wrapped source indices as a column. -/
abbrev L1i : List (HloOp τ sig (Elt F)) :=
  [ StableHlo.nullary main_c (constantI S_ 32 0#32),
    StableHlo.unary main_c main_v4 (broadcastInDim S640000 ![] bcast_S_S640000 : (⟨S_, .i32⟩ : BufTy).Contents (Elt F) → (⟨S640000, .i32⟩ : BufTy).Contents (Elt F)),
    StableHlo.binary main_v1 main_v4 main_v5 (cmpi .slt : (⟨S640000, .i32⟩ : BufTy).Contents (Elt F) → (⟨S640000, .i32⟩ : BufTy).Contents (Elt F) → (⟨S640000, .i1⟩ : BufTy).Contents (Elt F)),
    StableHlo.nullary main_c_0 (constantI S_ 32 40000#32),
    StableHlo.unary main_c_0 main_v6 (broadcastInDim S640000 ![] bcast_S_S640000 : (⟨S_, .i32⟩ : BufTy).Contents (Elt F) → (⟨S640000, .i32⟩ : BufTy).Contents (Elt F)),
    StableHlo.binary main_v1 main_v6 main_v7 (addi : (⟨S640000, .i32⟩ : BufTy).Contents (Elt F) → (⟨S640000, .i32⟩ : BufTy).Contents (Elt F) → (⟨S640000, .i32⟩ : BufTy).Contents (Elt F)),
    StableHlo.ternary main_v5 main_v7 main_v1 main_v8 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    StableHlo.unary main_v8 main_v9 (broadcastInDim S640000x1 ![0] bcast_S640000_S640000x1_0 : (⟨S640000, .i32⟩ : BufTy).Contents (Elt F) → (⟨S640000x1, .i32⟩ : BufTy).Contents (Elt F)) ]
end
/-- The buffers the operations of `L1i` write. -/
abbrev L1i_W : List (Ref sig .tc) := [main_c, main_v4, main_v5, main_c_0, main_v6, main_v7, main_v8, main_v9]
/-- Each operation of `L1i` writes one buffer of that list. -/
theorem L1i_writes : (L1i : List (HloOp τ sig (Elt Ideal))).Forall fun op => op.writes ⊆ (L1i_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that `L1i` does not write keeps its contents through it. -/
theorem L1i_keep (W : Valuation τ sig (Elt Ideal)) (r : Ref sig .tc) (h : r ∉ L1i_W) :
    after L1i W (Proc.devRef .tc r) = W (Proc.devRef .tc r) :=
  after_of_writes_sub L1i W L1i_writes h

section
variable {F : FTy → Type} [FloatOps F]
/-- Layer 1: the gather at the source column and the scatter-add at the destination column onto zeros. -/
abbrev L1g : List (HloOp τ sig (Elt F)) :=
  [ StableHlo.binary main_arg0 main_v9 main_v10 ((fun x i => Host.gather gather_S40000x12_S640000x1_S640000x12_1_0_n_n_0_1_112 x i) : (⟨S40000x12, .f32⟩ : BufTy).Contents (Elt F) → (⟨S640000x1, .i32⟩ : BufTy).Contents (Elt F) → (⟨S640000x12, .f32⟩ : BufTy).Contents (Elt F)),
    StableHlo.nullary main_cst (constant S_ .f32 0x00000000#32),
    StableHlo.unary main_cst main_v11 (broadcastInDim S40000x12 ![] bcast_S_S40000x12 : (⟨S_, .f32⟩ : BufTy).Contents (Elt F) → (⟨S40000x12, .f32⟩ : BufTy).Contents (Elt F)),
    StableHlo.unary main_v3 main_v12 (broadcastInDim S640000x1 ![0] bcast_S640000_S640000x1_0 : (⟨S640000, .i32⟩ : BufTy).Contents (Elt F) → (⟨S640000x1, .i32⟩ : BufTy).Contents (Elt F)),
    StableHlo.ternary main_v11 main_v12 main_v10 main_v13 ((fun x i u => Host.scatterAdd scatter_S40000x12_S640000x1_S640000x12_1_0_0_1 x i u) : (⟨S40000x12, .f32⟩ : BufTy).Contents (Elt F) → (⟨S640000x1, .i32⟩ : BufTy).Contents (Elt F) → (⟨S640000x12, .f32⟩ : BufTy).Contents (Elt F) → (⟨S40000x12, .f32⟩ : BufTy).Contents (Elt F)) ]
end
/-- The buffers the operations of `L1g` write. -/
abbrev L1g_W : List (Ref sig .tc) := [main_v10, main_cst, main_v11, main_v12, main_v13]
/-- Each operation of `L1g` writes one buffer of that list. -/
theorem L1g_writes : (L1g : List (HloOp τ sig (Elt Ideal))).Forall fun op => op.writes ⊆ (L1g_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that `L1g` does not write keeps its contents through it. -/
theorem L1g_keep (W : Valuation τ sig (Elt Ideal)) (r : Ref sig .tc) (h : r ∉ L1g_W) :
    after L1g W (Proc.devRef .tc r) = W (Proc.devRef .tc r) :=
  after_of_writes_sub L1g W L1g_writes h

section
variable {F : FTy → Type} [FloatOps F]
/-- Layer 1: the in-degree as a scatter-add of ones at the destination column. -/
abbrev L1d1 : List (HloOp τ sig (Elt F)) :=
  [ StableHlo.nullary main_cst_1 (constant S_ .f32 0x3F800000#32),
    StableHlo.unary main_cst_1 main_v14 (broadcastInDim S640000 ![] bcast_S_S640000 : (⟨S_, .f32⟩ : BufTy).Contents (Elt F) → (⟨S640000, .f32⟩ : BufTy).Contents (Elt F)),
    StableHlo.nullary main_cst_2 (constant S_ .f32 0x00000000#32),
    StableHlo.unary main_cst_2 main_v15 (broadcastInDim S40000 ![] bcast_S_S40000 : (⟨S_, .f32⟩ : BufTy).Contents (Elt F) → (⟨S40000, .f32⟩ : BufTy).Contents (Elt F)),
    StableHlo.unary main_v3 main_v16 (broadcastInDim S640000x1 ![0] bcast_S640000_S640000x1_0 : (⟨S640000, .i32⟩ : BufTy).Contents (Elt F) → (⟨S640000x1, .i32⟩ : BufTy).Contents (Elt F)),
    StableHlo.ternary main_v15 main_v16 main_v14 main_v17 ((fun x i u => Host.scatterAdd scatter_S40000_S640000x1_S640000_n_0_0_1 x i u) : (⟨S40000, .f32⟩ : BufTy).Contents (Elt F) → (⟨S640000x1, .i32⟩ : BufTy).Contents (Elt F) → (⟨S640000, .f32⟩ : BufTy).Contents (Elt F) → (⟨S40000, .f32⟩ : BufTy).Contents (Elt F)) ]
end
/-- The buffers the operations of `L1d1` write. -/
abbrev L1d1_W : List (Ref sig .tc) := [main_cst_1, main_v14, main_cst_2, main_v15, main_v16, main_v17]
/-- Each operation of `L1d1` writes one buffer of that list. -/
theorem L1d1_writes : (L1d1 : List (HloOp τ sig (Elt Ideal))).Forall fun op => op.writes ⊆ (L1d1_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that `L1d1` does not write keeps its contents through it. -/
theorem L1d1_keep (W : Valuation τ sig (Elt Ideal)) (r : Ref sig .tc) (h : r ∉ L1d1_W) :
    after L1d1 W (Proc.devRef .tc r) = W (Proc.devRef .tc r) :=
  after_of_writes_sub L1d1 W L1d1_writes h

section
variable {F : FTy → Type} [FloatOps F]
/-- Layer 1: the clip below at one (the clip function's three operations after its constant). -/
abbrev L1d2 : List (HloOp τ sig (Elt F)) :=
  [ StableHlo.nullary main_cst_3 (constant S_ .f32 0x3F800000#32),
    StableHlo.TRef.unary (.of main_cst_3 : StableHlo.TRef sig ⟨S_, .f32⟩) main_call0.v0 id,
    StableHlo.TRef.unary main_call0.v0 main_call0.v1 (broadcastInDim S40000 ![] bcast_S_S40000),
    StableHlo.TRef.binary main_call0.v1 (.of main_v17 : StableHlo.TRef sig ⟨S40000, .f32⟩) main_call0.v2 maximumf ]
end
/-- The buffers the operations of `L1d2` write. -/
abbrev L1d2_W : List (Ref sig .tc) := [main_cst_3, main_call0_v0, main_call0_v1, main_v18]
/-- Each operation of `L1d2` writes one buffer of that list. -/
theorem L1d2_writes : (L1d2 : List (HloOp τ sig (Elt Ideal))).Forall fun op => op.writes ⊆ (L1d2_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that `L1d2` does not write keeps its contents through it. -/
theorem L1d2_keep (W : Valuation τ sig (Elt Ideal)) (r : Ref sig .tc) (h : r ∉ L1d2_W) :
    after L1d2 W (Proc.devRef .tc r) = W (Proc.devRef .tc r) :=
  after_of_writes_sub L1d2 W L1d2_writes h

section
variable {F : FTy → Type} [FloatOps F]
/-- Layer 1: the quotient by the broadcast degree, the two products with the transposed weights and the bias. -/
abbrev L1p : List (HloOp τ sig (Elt F)) :=
  [ StableHlo.unary main_v18 main_v19 (broadcastInDim S40000x1 ![0] bcast_S40000_S40000x1_0 : (⟨S40000, .f32⟩ : BufTy).Contents (Elt F) → (⟨S40000x1, .f32⟩ : BufTy).Contents (Elt F)),
    StableHlo.unary main_v19 main_v20 (broadcastInDim S40000x12 ![0, 1] bcast_S40000x1_S40000x12_0_1 : (⟨S40000x1, .f32⟩ : BufTy).Contents (Elt F) → (⟨S40000x12, .f32⟩ : BufTy).Contents (Elt F)),
    StableHlo.binary main_v13 main_v20 main_v21 (Host.divf : (⟨S40000x12, .f32⟩ : BufTy).Contents (Elt F) → (⟨S40000x12, .f32⟩ : BufTy).Contents (Elt F) → (⟨S40000x12, .f32⟩ : BufTy).Contents (Elt F)),
    StableHlo.unary main_arg2 main_v22 ((transpose S12x128 [1, 0] · transposes_S128x12_S12x128_1_0) : (⟨S128x12, .f32⟩ : BufTy).Contents (Elt F) → (⟨S12x128, .f32⟩ : BufTy).Contents (Elt F)),
    StableHlo.binary main_v21 main_v22 main_v23 ((fun l r => Host.dotGeneral dot_S40000x12_S12x128_S40000x128_1_0_0_1_n_n none l r) : (⟨S40000x12, .f32⟩ : BufTy).Contents (Elt F) → (⟨S12x128, .f32⟩ : BufTy).Contents (Elt F) → (⟨S40000x128, .f32⟩ : BufTy).Contents (Elt F)),
    StableHlo.unary main_arg3 main_v24 (broadcastInDim S1x128 ![1] bcast_S128_S1x128_1 : (⟨S128, .f32⟩ : BufTy).Contents (Elt F) → (⟨S1x128, .f32⟩ : BufTy).Contents (Elt F)),
    StableHlo.unary main_v24 main_v25 (broadcastInDim S40000x128 ![0, 1] bcast_S1x128_S40000x128_0_1 : (⟨S1x128, .f32⟩ : BufTy).Contents (Elt F) → (⟨S40000x128, .f32⟩ : BufTy).Contents (Elt F)),
    StableHlo.binary main_v23 main_v25 main_v26 (addf : (⟨S40000x128, .f32⟩ : BufTy).Contents (Elt F) → (⟨S40000x128, .f32⟩ : BufTy).Contents (Elt F) → (⟨S40000x128, .f32⟩ : BufTy).Contents (Elt F)),
    StableHlo.unary main_arg4 main_v27 ((transpose S12x128 [1, 0] · transposes_S128x12_S12x128_1_0) : (⟨S128x12, .f32⟩ : BufTy).Contents (Elt F) → (⟨S12x128, .f32⟩ : BufTy).Contents (Elt F)),
    StableHlo.binary main_arg0 main_v27 main_v28 ((fun l r => Host.dotGeneral dot_S40000x12_S12x128_S40000x128_1_0_0_1_n_n none l r) : (⟨S40000x12, .f32⟩ : BufTy).Contents (Elt F) → (⟨S12x128, .f32⟩ : BufTy).Contents (Elt F) → (⟨S40000x128, .f32⟩ : BufTy).Contents (Elt F)),
    StableHlo.binary main_v26 main_v28 main_v29 (addf : (⟨S40000x128, .f32⟩ : BufTy).Contents (Elt F) → (⟨S40000x128, .f32⟩ : BufTy).Contents (Elt F) → (⟨S40000x128, .f32⟩ : BufTy).Contents (Elt F)) ]
end
/-- The buffers the operations of `L1p` write. -/
abbrev L1p_W : List (Ref sig .tc) := [main_v19, main_v20, main_v21, main_v22, main_v23, main_v24, main_v25, main_v26, main_v27, main_v28, main_v29]
/-- Each operation of `L1p` writes one buffer of that list. -/
theorem L1p_writes : (L1p : List (HloOp τ sig (Elt Ideal))).Forall fun op => op.writes ⊆ (L1p_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that `L1p` does not write keeps its contents through it. -/
theorem L1p_keep (W : Valuation τ sig (Elt Ideal)) (r : Ref sig .tc) (h : r ∉ L1p_W) :
    after L1p W (Proc.devRef .tc r) = W (Proc.devRef .tc r) :=
  after_of_writes_sub L1p W L1p_writes h

section
variable {F : FTy → Type} [FloatOps F]
/-- Layer 1: the ELU function's fifteen operations. -/
abbrev L1e : List (HloOp τ sig (Elt F)) :=
  [ StableHlo.TRef.nullary main_call1.cst (constant S_ .f32 0x00000000#32),
    StableHlo.TRef.unary main_call1.cst main_call1.v0 (broadcastInDim S40000x128 ![] bcast_S_S40000x128),
    StableHlo.TRef.binary (.of main_v29 : StableHlo.TRef sig ⟨S40000x128, .f32⟩) main_call1.v0 main_call1.v1 (cmpf .ogt),
    StableHlo.TRef.nullary main_call1.cst_0 (constant S_ .f32 0x00000000#32),
    StableHlo.TRef.unary main_call1.cst_0 main_call1.v2 (broadcastInDim S40000x128 ![] bcast_S_S40000x128),
    StableHlo.TRef.binary (.of main_v29 : StableHlo.TRef sig ⟨S40000x128, .f32⟩) main_call1.v2 main_call1.v3 (cmpf .ogt),
    StableHlo.TRef.nullary main_call1.cst_1 (constant S_ .f32 0x00000000#32),
    StableHlo.TRef.unary main_call1.cst_1 main_call1.call0.v0 id,
    StableHlo.TRef.unary main_call1.call0.v0 main_call1.call0.v1 (broadcastInDim S40000x128 ![] bcast_S_S40000x128),
    StableHlo.TRef.ternary main_call1.v3 main_call1.call0.v1 (.of main_v29 : StableHlo.TRef sig ⟨S40000x128, .f32⟩) main_call1.call0.v2 select,
    StableHlo.TRef.unary main_call1.call0.v2 main_call1.v5 Host.expm1,
    StableHlo.TRef.nullary main_call1.cst_2 (constant S_ .f32 0x3F800000#32),
    StableHlo.TRef.unary main_call1.cst_2 main_call1.v6 (broadcastInDim S40000x128 ![] bcast_S_S40000x128),
    StableHlo.TRef.binary main_call1.v6 main_call1.v5 main_call1.v7 mulf,
    StableHlo.TRef.ternary main_call1.v1 (.of main_v29 : StableHlo.TRef sig ⟨S40000x128, .f32⟩) main_call1.v7 main_call1.call1.v0 select ]
end
/-- The buffers the operations of `L1e` write. -/
abbrev L1e_W : List (Ref sig .tc) := [main_call1_cst, main_call1_v0, main_call1_v1, main_call1_cst_0, main_call1_v2, main_call1_v3, main_call1_cst_1, main_call1_call0_v0, main_call1_call0_v1, main_call1_v4, main_call1_v5, main_call1_cst_2, main_call1_v6, main_call1_v7, main_v30]
/-- Each operation of `L1e` writes one buffer of that list. -/
theorem L1e_writes : (L1e : List (HloOp τ sig (Elt Ideal))).Forall fun op => op.writes ⊆ (L1e_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that `L1e` does not write keeps its contents through it. -/
theorem L1e_keep (W : Valuation τ sig (Elt Ideal)) (r : Ref sig .tc) (h : r ∉ L1e_W) :
    after L1e W (Proc.devRef .tc r) = W (Proc.devRef .tc r) :=
  after_of_writes_sub L1e W L1e_writes h

set_option maxRecDepth 8192 in
/-- Layer 1: the index column is the source row wrapped. -/
theorem L1i_val (W : Valuation τ sig (Elt Ideal)) :
    after L1i W (main_v9 : DevRef τ sig)
      = wrapIdx (W (main_v1 : DevRef τ sig)) := by
  simp only [L1i]
  after_results_simp <;> rfl
set_option maxRecDepth 8192 in
/-- Layer 1: the neighbour sums. -/
theorem L1g_val (W : Valuation τ sig (Elt Ideal)) :
    after L1g W (main_v13 : DevRef τ sig)
      = gsTerm12 (W (main_arg0 : DevRef τ sig)) (W (main_v9 : DevRef τ sig)) (colIdx (W (main_v3 : DevRef τ sig))) := by
  simp only [L1g]
  after_results_simp <;> rfl
set_option maxRecDepth 8192 in
/-- Layer 1: the in-degree. -/
theorem L1d1_val (W : Valuation τ sig (Elt Ideal)) :
    after L1d1 W (main_v17 : DevRef τ sig)
      = cntTerm (colIdx (W (main_v3 : DevRef τ sig))) := by
  simp only [L1d1]
  after_results_simp <;> rfl
set_option maxRecDepth 8192 in
/-- Layer 1: the clip, over the in-degree's buffer. -/
theorem L1d2_val (W : Valuation τ sig (Elt Ideal)) :
    after L1d2 W (main_v18 : DevRef τ sig)
      = clipTerm (W (main_v17 : DevRef τ sig)) := by
  simp only [L1d2]
  after_results_simp <;> rfl
set_option maxRecDepth 8192 in
/-- Layer 1: the layer before its nonlinearity. -/
theorem L1p_val (W : Valuation τ sig (Elt Ideal)) :
    after L1p W (main_v29 : DevRef τ sig)
      = preTerm12 (W (main_v13 : DevRef τ sig)) (W (main_arg0 : DevRef τ sig)) (W (main_v18 : DevRef τ sig)) (W (main_arg2 : DevRef τ sig)) (W (main_arg3 : DevRef τ sig)) (W (main_arg4 : DevRef τ sig)) := by
  simp only [L1p]
  after_results_simp <;> rfl
set_option maxRecDepth 8192 in
/-- Layer 1: the nonlinearity. -/
theorem L1e_val (W : Valuation τ sig (Elt Ideal)) :
    after L1e W (main_v30 : DevRef τ sig)
      = RefLayer.eluTerm (W (main_v29 : DevRef τ sig)) := by
  simp only [L1e]
  after_results_simp <;> rfl

/-- The stretch `segL1` is its pieces in a row. -/
theorem segL1_cut {F : FTy → Type} [FloatOps F] : (segL1 : List (HloOp τ sig (Elt F))) = L1i ++ L1g ++ L1d1 ++ L1d2 ++ L1p ++ L1e := rfl

/-- Layer 1's stretch leaves its result at the layer over the two index rows: the pieces composed, each piece's
    inputs read back through the pieces before it. -/
theorem segL1_v30 (W : Valuation τ sig (Elt Ideal)) :
    after segL1 W (main_v30 : DevRef τ sig)
      = layer12R (W (main_arg0 : DevRef τ sig)) (W (main_v1 : DevRef τ sig)) (W (main_v3 : DevRef τ sig)) (W (main_arg2 : DevRef τ sig)) (W (main_arg3 : DevRef τ sig)) (W (main_arg4 : DevRef τ sig)) := by
  rw [segL1_cut]
  simp only [after_app]
  rw [L1e_val, L1p_val]
  rw [L1d2_val, L1d2_keep _ main_v13 (by decide), L1d2_keep _ main_arg0 (by decide), L1d2_keep _ main_arg2 (by decide), L1d2_keep _ main_arg3 (by decide), L1d2_keep _ main_arg4 (by decide)]
  rw [L1d1_val, L1d1_keep _ main_v13 (by decide), L1d1_keep _ main_arg0 (by decide), L1d1_keep _ main_arg2 (by decide), L1d1_keep _ main_arg3 (by decide), L1d1_keep _ main_arg4 (by decide)]
  rw [L1g_val, L1g_keep _ main_v3 (by decide), L1g_keep _ main_arg0 (by decide), L1g_keep _ main_arg2 (by decide), L1g_keep _ main_arg3 (by decide), L1g_keep _ main_arg4 (by decide)]
  rw [L1i_val, L1i_keep _ main_arg0 (by decide), L1i_keep _ main_v3 (by decide), L1i_keep _ main_arg2 (by decide), L1i_keep _ main_arg3 (by decide), L1i_keep _ main_arg4 (by decide)]
  rfl

/-! ### Layer 2 -/

section
variable {F : FTy → Type} [FloatOps F]
/-- Layer 2: the wrapped source indices as a column. -/
abbrev L2i : List (HloOp τ sig (Elt F)) :=
  [ StableHlo.nullary main_c_4 (constantI S_ 32 0#32),
    StableHlo.unary main_c_4 main_v31 (broadcastInDim S640000 ![] bcast_S_S640000 : (⟨S_, .i32⟩ : BufTy).Contents (Elt F) → (⟨S640000, .i32⟩ : BufTy).Contents (Elt F)),
    StableHlo.binary main_v1 main_v31 main_v32 (cmpi .slt : (⟨S640000, .i32⟩ : BufTy).Contents (Elt F) → (⟨S640000, .i32⟩ : BufTy).Contents (Elt F) → (⟨S640000, .i1⟩ : BufTy).Contents (Elt F)),
    StableHlo.nullary main_c_5 (constantI S_ 32 40000#32),
    StableHlo.unary main_c_5 main_v33 (broadcastInDim S640000 ![] bcast_S_S640000 : (⟨S_, .i32⟩ : BufTy).Contents (Elt F) → (⟨S640000, .i32⟩ : BufTy).Contents (Elt F)),
    StableHlo.binary main_v1 main_v33 main_v34 (addi : (⟨S640000, .i32⟩ : BufTy).Contents (Elt F) → (⟨S640000, .i32⟩ : BufTy).Contents (Elt F) → (⟨S640000, .i32⟩ : BufTy).Contents (Elt F)),
    StableHlo.ternary main_v32 main_v34 main_v1 main_v35 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    StableHlo.unary main_v35 main_v36 (broadcastInDim S640000x1 ![0] bcast_S640000_S640000x1_0 : (⟨S640000, .i32⟩ : BufTy).Contents (Elt F) → (⟨S640000x1, .i32⟩ : BufTy).Contents (Elt F)) ]
end
/-- The buffers the operations of `L2i` write. -/
abbrev L2i_W : List (Ref sig .tc) := [main_c_4, main_v31, main_v32, main_c_5, main_v33, main_v34, main_v35, main_v36]
/-- Each operation of `L2i` writes one buffer of that list. -/
theorem L2i_writes : (L2i : List (HloOp τ sig (Elt Ideal))).Forall fun op => op.writes ⊆ (L2i_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that `L2i` does not write keeps its contents through it. -/
theorem L2i_keep (W : Valuation τ sig (Elt Ideal)) (r : Ref sig .tc) (h : r ∉ L2i_W) :
    after L2i W (Proc.devRef .tc r) = W (Proc.devRef .tc r) :=
  after_of_writes_sub L2i W L2i_writes h

section
variable {F : FTy → Type} [FloatOps F]
/-- Layer 2: the gather at the source column and the scatter-add at the destination column onto zeros. -/
abbrev L2g : List (HloOp τ sig (Elt F)) :=
  [ StableHlo.binary main_v30 main_v36 main_v37 ((fun x i => Host.gather gather_S40000x128_S640000x1_S640000x128_1_0_n_n_0_1_1128 x i) : (⟨S40000x128, .f32⟩ : BufTy).Contents (Elt F) → (⟨S640000x1, .i32⟩ : BufTy).Contents (Elt F) → (⟨S640000x128, .f32⟩ : BufTy).Contents (Elt F)),
    StableHlo.nullary main_cst_6 (constant S_ .f32 0x00000000#32),
    StableHlo.unary main_cst_6 main_v38 (broadcastInDim S40000x128 ![] bcast_S_S40000x128 : (⟨S_, .f32⟩ : BufTy).Contents (Elt F) → (⟨S40000x128, .f32⟩ : BufTy).Contents (Elt F)),
    StableHlo.unary main_v3 main_v39 (broadcastInDim S640000x1 ![0] bcast_S640000_S640000x1_0 : (⟨S640000, .i32⟩ : BufTy).Contents (Elt F) → (⟨S640000x1, .i32⟩ : BufTy).Contents (Elt F)),
    StableHlo.ternary main_v38 main_v39 main_v37 main_v40 ((fun x i u => Host.scatterAdd scatter_S40000x128_S640000x1_S640000x128_1_0_0_1 x i u) : (⟨S40000x128, .f32⟩ : BufTy).Contents (Elt F) → (⟨S640000x1, .i32⟩ : BufTy).Contents (Elt F) → (⟨S640000x128, .f32⟩ : BufTy).Contents (Elt F) → (⟨S40000x128, .f32⟩ : BufTy).Contents (Elt F)) ]
end
/-- The buffers the operations of `L2g` write. -/
abbrev L2g_W : List (Ref sig .tc) := [main_v37, main_cst_6, main_v38, main_v39, main_v40]
/-- Each operation of `L2g` writes one buffer of that list. -/
theorem L2g_writes : (L2g : List (HloOp τ sig (Elt Ideal))).Forall fun op => op.writes ⊆ (L2g_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that `L2g` does not write keeps its contents through it. -/
theorem L2g_keep (W : Valuation τ sig (Elt Ideal)) (r : Ref sig .tc) (h : r ∉ L2g_W) :
    after L2g W (Proc.devRef .tc r) = W (Proc.devRef .tc r) :=
  after_of_writes_sub L2g W L2g_writes h

section
variable {F : FTy → Type} [FloatOps F]
/-- Layer 2: the in-degree as a scatter-add of ones at the destination column. -/
abbrev L2d1 : List (HloOp τ sig (Elt F)) :=
  [ StableHlo.nullary main_cst_7 (constant S_ .f32 0x3F800000#32),
    StableHlo.unary main_cst_7 main_v41 (broadcastInDim S640000 ![] bcast_S_S640000 : (⟨S_, .f32⟩ : BufTy).Contents (Elt F) → (⟨S640000, .f32⟩ : BufTy).Contents (Elt F)),
    StableHlo.nullary main_cst_8 (constant S_ .f32 0x00000000#32),
    StableHlo.unary main_cst_8 main_v42 (broadcastInDim S40000 ![] bcast_S_S40000 : (⟨S_, .f32⟩ : BufTy).Contents (Elt F) → (⟨S40000, .f32⟩ : BufTy).Contents (Elt F)),
    StableHlo.unary main_v3 main_v43 (broadcastInDim S640000x1 ![0] bcast_S640000_S640000x1_0 : (⟨S640000, .i32⟩ : BufTy).Contents (Elt F) → (⟨S640000x1, .i32⟩ : BufTy).Contents (Elt F)),
    StableHlo.ternary main_v42 main_v43 main_v41 main_v44 ((fun x i u => Host.scatterAdd scatter_S40000_S640000x1_S640000_n_0_0_1 x i u) : (⟨S40000, .f32⟩ : BufTy).Contents (Elt F) → (⟨S640000x1, .i32⟩ : BufTy).Contents (Elt F) → (⟨S640000, .f32⟩ : BufTy).Contents (Elt F) → (⟨S40000, .f32⟩ : BufTy).Contents (Elt F)) ]
end
/-- The buffers the operations of `L2d1` write. -/
abbrev L2d1_W : List (Ref sig .tc) := [main_cst_7, main_v41, main_cst_8, main_v42, main_v43, main_v44]
/-- Each operation of `L2d1` writes one buffer of that list. -/
theorem L2d1_writes : (L2d1 : List (HloOp τ sig (Elt Ideal))).Forall fun op => op.writes ⊆ (L2d1_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that `L2d1` does not write keeps its contents through it. -/
theorem L2d1_keep (W : Valuation τ sig (Elt Ideal)) (r : Ref sig .tc) (h : r ∉ L2d1_W) :
    after L2d1 W (Proc.devRef .tc r) = W (Proc.devRef .tc r) :=
  after_of_writes_sub L2d1 W L2d1_writes h

section
variable {F : FTy → Type} [FloatOps F]
/-- Layer 2: the clip below at one (the clip function's three operations after its constant). -/
abbrev L2d2 : List (HloOp τ sig (Elt F)) :=
  [ StableHlo.nullary main_cst_9 (constant S_ .f32 0x3F800000#32),
    StableHlo.TRef.unary (.of main_cst_9 : StableHlo.TRef sig ⟨S_, .f32⟩) main_call2.v0 id,
    StableHlo.TRef.unary main_call2.v0 main_call2.v1 (broadcastInDim S40000 ![] bcast_S_S40000),
    StableHlo.TRef.binary main_call2.v1 (.of main_v44 : StableHlo.TRef sig ⟨S40000, .f32⟩) main_call2.v2 maximumf ]
end
/-- The buffers the operations of `L2d2` write. -/
abbrev L2d2_W : List (Ref sig .tc) := [main_cst_9, main_call2_v0, main_call2_v1, main_v45]
/-- Each operation of `L2d2` writes one buffer of that list. -/
theorem L2d2_writes : (L2d2 : List (HloOp τ sig (Elt Ideal))).Forall fun op => op.writes ⊆ (L2d2_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that `L2d2` does not write keeps its contents through it. -/
theorem L2d2_keep (W : Valuation τ sig (Elt Ideal)) (r : Ref sig .tc) (h : r ∉ L2d2_W) :
    after L2d2 W (Proc.devRef .tc r) = W (Proc.devRef .tc r) :=
  after_of_writes_sub L2d2 W L2d2_writes h

section
variable {F : FTy → Type} [FloatOps F]
/-- Layer 2: the clipped degree broadcast to every feature. -/
abbrev L2pa : List (HloOp τ sig (Elt F)) :=
  [ StableHlo.unary main_v45 main_v46 (broadcastInDim S40000x1 ![0] bcast_S40000_S40000x1_0 : (⟨S40000, .f32⟩ : BufTy).Contents (Elt F) → (⟨S40000x1, .f32⟩ : BufTy).Contents (Elt F)),
    StableHlo.unary main_v46 main_v47 (broadcastInDim S40000x128 ![0, 1] bcast_S40000x1_S40000x128_0_1 : (⟨S40000x1, .f32⟩ : BufTy).Contents (Elt F) → (⟨S40000x128, .f32⟩ : BufTy).Contents (Elt F)) ]
end
/-- The buffers the operations of `L2pa` write. -/
abbrev L2pa_W : List (Ref sig .tc) := [main_v46, main_v47]
/-- Each operation of `L2pa` writes one buffer of that list. -/
theorem L2pa_writes : (L2pa : List (HloOp τ sig (Elt Ideal))).Forall fun op => op.writes ⊆ (L2pa_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that `L2pa` does not write keeps its contents through it. -/
theorem L2pa_keep (W : Valuation τ sig (Elt Ideal)) (r : Ref sig .tc) (h : r ∉ L2pa_W) :
    after L2pa W (Proc.devRef .tc r) = W (Proc.devRef .tc r) :=
  after_of_writes_sub L2pa W L2pa_writes h

section
variable {F : FTy → Type} [FloatOps F]
/-- Layer 2: the quotient, the two products with the transposed weights and the bias. -/
abbrev L2pb : List (HloOp τ sig (Elt F)) :=
  [ StableHlo.binary main_v40 main_v47 main_v48 (Host.divf : (⟨S40000x128, .f32⟩ : BufTy).Contents (Elt F) → (⟨S40000x128, .f32⟩ : BufTy).Contents (Elt F) → (⟨S40000x128, .f32⟩ : BufTy).Contents (Elt F)),
    StableHlo.unary main_arg5 main_v49 ((transpose S128x128 [1, 0] · transposes_S128x128_S128x128_1_0) : (⟨S128x128, .f32⟩ : BufTy).Contents (Elt F) → (⟨S128x128, .f32⟩ : BufTy).Contents (Elt F)),
    StableHlo.binary main_v48 main_v49 main_v50 ((fun l r => Host.dotGeneral dot_S40000x128_S128x128_S40000x128_1_0_0_1_n_n none l r) : (⟨S40000x128, .f32⟩ : BufTy).Contents (Elt F) → (⟨S128x128, .f32⟩ : BufTy).Contents (Elt F) → (⟨S40000x128, .f32⟩ : BufTy).Contents (Elt F)),
    StableHlo.unary main_arg6 main_v51 (broadcastInDim S1x128 ![1] bcast_S128_S1x128_1 : (⟨S128, .f32⟩ : BufTy).Contents (Elt F) → (⟨S1x128, .f32⟩ : BufTy).Contents (Elt F)),
    StableHlo.unary main_v51 main_v52 (broadcastInDim S40000x128 ![0, 1] bcast_S1x128_S40000x128_0_1 : (⟨S1x128, .f32⟩ : BufTy).Contents (Elt F) → (⟨S40000x128, .f32⟩ : BufTy).Contents (Elt F)),
    StableHlo.binary main_v50 main_v52 main_v53 (addf : (⟨S40000x128, .f32⟩ : BufTy).Contents (Elt F) → (⟨S40000x128, .f32⟩ : BufTy).Contents (Elt F) → (⟨S40000x128, .f32⟩ : BufTy).Contents (Elt F)),
    StableHlo.unary main_arg7 main_v54 ((transpose S128x128 [1, 0] · transposes_S128x128_S128x128_1_0) : (⟨S128x128, .f32⟩ : BufTy).Contents (Elt F) → (⟨S128x128, .f32⟩ : BufTy).Contents (Elt F)),
    StableHlo.binary main_v30 main_v54 main_v55 ((fun l r => Host.dotGeneral dot_S40000x128_S128x128_S40000x128_1_0_0_1_n_n none l r) : (⟨S40000x128, .f32⟩ : BufTy).Contents (Elt F) → (⟨S128x128, .f32⟩ : BufTy).Contents (Elt F) → (⟨S40000x128, .f32⟩ : BufTy).Contents (Elt F)),
    StableHlo.binary main_v53 main_v55 main_v56 (addf : (⟨S40000x128, .f32⟩ : BufTy).Contents (Elt F) → (⟨S40000x128, .f32⟩ : BufTy).Contents (Elt F) → (⟨S40000x128, .f32⟩ : BufTy).Contents (Elt F)) ]
end
/-- The buffers the operations of `L2pb` write. -/
abbrev L2pb_W : List (Ref sig .tc) := [main_v48, main_v49, main_v50, main_v51, main_v52, main_v53, main_v54, main_v55, main_v56]
/-- Each operation of `L2pb` writes one buffer of that list. -/
theorem L2pb_writes : (L2pb : List (HloOp τ sig (Elt Ideal))).Forall fun op => op.writes ⊆ (L2pb_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that `L2pb` does not write keeps its contents through it. -/
theorem L2pb_keep (W : Valuation τ sig (Elt Ideal)) (r : Ref sig .tc) (h : r ∉ L2pb_W) :
    after L2pb W (Proc.devRef .tc r) = W (Proc.devRef .tc r) :=
  after_of_writes_sub L2pb W L2pb_writes h

section
variable {F : FTy → Type} [FloatOps F]
/-- Layer 2: the ELU function's fifteen operations. -/
abbrev L2e : List (HloOp τ sig (Elt F)) :=
  [ StableHlo.TRef.nullary main_call3.cst (constant S_ .f32 0x00000000#32),
    StableHlo.TRef.unary main_call3.cst main_call3.v0 (broadcastInDim S40000x128 ![] bcast_S_S40000x128),
    StableHlo.TRef.binary (.of main_v56 : StableHlo.TRef sig ⟨S40000x128, .f32⟩) main_call3.v0 main_call3.v1 (cmpf .ogt),
    StableHlo.TRef.nullary main_call3.cst_0 (constant S_ .f32 0x00000000#32),
    StableHlo.TRef.unary main_call3.cst_0 main_call3.v2 (broadcastInDim S40000x128 ![] bcast_S_S40000x128),
    StableHlo.TRef.binary (.of main_v56 : StableHlo.TRef sig ⟨S40000x128, .f32⟩) main_call3.v2 main_call3.v3 (cmpf .ogt),
    StableHlo.TRef.nullary main_call3.cst_1 (constant S_ .f32 0x00000000#32),
    StableHlo.TRef.unary main_call3.cst_1 main_call3.call0.v0 id,
    StableHlo.TRef.unary main_call3.call0.v0 main_call3.call0.v1 (broadcastInDim S40000x128 ![] bcast_S_S40000x128),
    StableHlo.TRef.ternary main_call3.v3 main_call3.call0.v1 (.of main_v56 : StableHlo.TRef sig ⟨S40000x128, .f32⟩) main_call3.call0.v2 select,
    StableHlo.TRef.unary main_call3.call0.v2 main_call3.v5 Host.expm1,
    StableHlo.TRef.nullary main_call3.cst_2 (constant S_ .f32 0x3F800000#32),
    StableHlo.TRef.unary main_call3.cst_2 main_call3.v6 (broadcastInDim S40000x128 ![] bcast_S_S40000x128),
    StableHlo.TRef.binary main_call3.v6 main_call3.v5 main_call3.v7 mulf,
    StableHlo.TRef.ternary main_call3.v1 (.of main_v56 : StableHlo.TRef sig ⟨S40000x128, .f32⟩) main_call3.v7 main_call3.call1.v0 select ]
end
/-- The buffers the operations of `L2e` write. -/
abbrev L2e_W : List (Ref sig .tc) := [main_call3_cst, main_call3_v0, main_call3_v1, main_call3_cst_0, main_call3_v2, main_call3_v3, main_call3_cst_1, main_call3_call0_v0, main_call3_call0_v1, main_call3_v4, main_call3_v5, main_call3_cst_2, main_call3_v6, main_call3_v7, main_v57]
/-- Each operation of `L2e` writes one buffer of that list. -/
theorem L2e_writes : (L2e : List (HloOp τ sig (Elt Ideal))).Forall fun op => op.writes ⊆ (L2e_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that `L2e` does not write keeps its contents through it. -/
theorem L2e_keep (W : Valuation τ sig (Elt Ideal)) (r : Ref sig .tc) (h : r ∉ L2e_W) :
    after L2e W (Proc.devRef .tc r) = W (Proc.devRef .tc r) :=
  after_of_writes_sub L2e W L2e_writes h

set_option maxRecDepth 8192 in
/-- Layer 2: the index column is the source row wrapped. -/
theorem L2i_val (W : Valuation τ sig (Elt Ideal)) :
    after L2i W (main_v36 : DevRef τ sig)
      = wrapIdx (W (main_v1 : DevRef τ sig)) := by
  simp only [L2i]
  after_results_simp <;> rfl
set_option maxRecDepth 8192 in
/-- Layer 2: the neighbour sums. -/
theorem L2g_val (W : Valuation τ sig (Elt Ideal)) :
    after L2g W (main_v40 : DevRef τ sig)
      = gsTerm128 (W (main_v30 : DevRef τ sig)) (W (main_v36 : DevRef τ sig)) (colIdx (W (main_v3 : DevRef τ sig))) := by
  simp only [L2g]
  after_results_simp <;> rfl
set_option maxRecDepth 8192 in
/-- Layer 2: the in-degree. -/
theorem L2d1_val (W : Valuation τ sig (Elt Ideal)) :
    after L2d1 W (main_v44 : DevRef τ sig)
      = cntTerm (colIdx (W (main_v3 : DevRef τ sig))) := by
  simp only [L2d1]
  after_results_simp <;> rfl
set_option maxRecDepth 8192 in
/-- Layer 2: the clip, over the in-degree's buffer. -/
theorem L2d2_val (W : Valuation τ sig (Elt Ideal)) :
    after L2d2 W (main_v45 : DevRef τ sig)
      = clipTerm (W (main_v44 : DevRef τ sig)) := by
  simp only [L2d2]
  after_results_simp <;> rfl
set_option maxRecDepth 8192 in
/-- Layer 2: the layer before its nonlinearity. -/
theorem L2p_val (W : Valuation τ sig (Elt Ideal)) :
    after L2pb (after L2pa W) (main_v56 : DevRef τ sig)
      = preTerm128 (W (main_v40 : DevRef τ sig)) (W (main_v30 : DevRef τ sig)) (W (main_v45 : DevRef τ sig)) (W (main_arg5 : DevRef τ sig)) (W (main_arg6 : DevRef τ sig)) (W (main_arg7 : DevRef τ sig)) := by
  rw [← after_app]
  simp only [L2pa, L2pb, List.cons_append, List.nil_append]
  after_results_simp <;> rfl
set_option maxRecDepth 8192 in
/-- Layer 2: the nonlinearity. -/
theorem L2e_val (W : Valuation τ sig (Elt Ideal)) :
    after L2e W (main_v57 : DevRef τ sig)
      = RefLayer.eluTerm (W (main_v56 : DevRef τ sig)) := by
  simp only [L2e]
  after_results_simp <;> rfl

/-- The stretch `segL2a` is its pieces in a row. -/
theorem segL2a_cut {F : FTy → Type} [FloatOps F] : (segL2a : List (HloOp τ sig (Elt F))) = L2i ++ L2g ++ L2d1 ++ L2d2 ++ L2pa := rfl
/-- The stretch `segL2b` is its pieces in a row. -/
theorem segL2b_cut {F : FTy → Type} [FloatOps F] : (segL2b : List (HloOp τ sig (Elt F))) = L2pb ++ L2e := rfl

/-- Layer 2's stretch leaves its result at the layer over the two index rows: the pieces composed, each piece's
    inputs read back through the pieces before it. -/
theorem segL2_v57 (W : Valuation τ sig (Elt Ideal)) :
    after segL2b (after segL2a W) (main_v57 : DevRef τ sig)
      = layer128R (W (main_v30 : DevRef τ sig)) (W (main_v1 : DevRef τ sig)) (W (main_v3 : DevRef τ sig)) (W (main_arg5 : DevRef τ sig)) (W (main_arg6 : DevRef τ sig)) (W (main_arg7 : DevRef τ sig)) := by
  rw [segL2a_cut, segL2b_cut]
  simp only [after_app]
  rw [L2e_val, L2p_val]
  rw [L2d2_val, L2d2_keep _ main_v40 (by decide), L2d2_keep _ main_v30 (by decide), L2d2_keep _ main_arg5 (by decide), L2d2_keep _ main_arg6 (by decide), L2d2_keep _ main_arg7 (by decide)]
  rw [L2d1_val, L2d1_keep _ main_v40 (by decide), L2d1_keep _ main_v30 (by decide), L2d1_keep _ main_arg5 (by decide), L2d1_keep _ main_arg6 (by decide), L2d1_keep _ main_arg7 (by decide)]
  rw [L2g_val, L2g_keep _ main_v3 (by decide), L2g_keep _ main_v30 (by decide), L2g_keep _ main_arg5 (by decide), L2g_keep _ main_arg6 (by decide), L2g_keep _ main_arg7 (by decide)]
  rw [L2i_val, L2i_keep _ main_v30 (by decide), L2i_keep _ main_v3 (by decide), L2i_keep _ main_arg5 (by decide), L2i_keep _ main_arg6 (by decide), L2i_keep _ main_arg7 (by decide)]
  rfl

/-! ### Layer 3 -/

section
variable {F : FTy → Type} [FloatOps F]
/-- Layer 3: the wrapped source indices as a column. -/
abbrev L3i : List (HloOp τ sig (Elt F)) :=
  [ StableHlo.nullary main_c_10 (constantI S_ 32 0#32),
    StableHlo.unary main_c_10 main_v58 (broadcastInDim S640000 ![] bcast_S_S640000 : (⟨S_, .i32⟩ : BufTy).Contents (Elt F) → (⟨S640000, .i32⟩ : BufTy).Contents (Elt F)),
    StableHlo.binary main_v1 main_v58 main_v59 (cmpi .slt : (⟨S640000, .i32⟩ : BufTy).Contents (Elt F) → (⟨S640000, .i32⟩ : BufTy).Contents (Elt F) → (⟨S640000, .i1⟩ : BufTy).Contents (Elt F)),
    StableHlo.nullary main_c_11 (constantI S_ 32 40000#32),
    StableHlo.unary main_c_11 main_v60 (broadcastInDim S640000 ![] bcast_S_S640000 : (⟨S_, .i32⟩ : BufTy).Contents (Elt F) → (⟨S640000, .i32⟩ : BufTy).Contents (Elt F)),
    StableHlo.binary main_v1 main_v60 main_v61 (addi : (⟨S640000, .i32⟩ : BufTy).Contents (Elt F) → (⟨S640000, .i32⟩ : BufTy).Contents (Elt F) → (⟨S640000, .i32⟩ : BufTy).Contents (Elt F)),
    StableHlo.ternary main_v59 main_v61 main_v1 main_v62 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    StableHlo.unary main_v62 main_v63 (broadcastInDim S640000x1 ![0] bcast_S640000_S640000x1_0 : (⟨S640000, .i32⟩ : BufTy).Contents (Elt F) → (⟨S640000x1, .i32⟩ : BufTy).Contents (Elt F)) ]
end
/-- The buffers the operations of `L3i` write. -/
abbrev L3i_W : List (Ref sig .tc) := [main_c_10, main_v58, main_v59, main_c_11, main_v60, main_v61, main_v62, main_v63]
/-- Each operation of `L3i` writes one buffer of that list. -/
theorem L3i_writes : (L3i : List (HloOp τ sig (Elt Ideal))).Forall fun op => op.writes ⊆ (L3i_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that `L3i` does not write keeps its contents through it. -/
theorem L3i_keep (W : Valuation τ sig (Elt Ideal)) (r : Ref sig .tc) (h : r ∉ L3i_W) :
    after L3i W (Proc.devRef .tc r) = W (Proc.devRef .tc r) :=
  after_of_writes_sub L3i W L3i_writes h

section
variable {F : FTy → Type} [FloatOps F]
/-- Layer 3: the gather at the source column and the scatter-add at the destination column onto zeros. -/
abbrev L3g : List (HloOp τ sig (Elt F)) :=
  [ StableHlo.binary main_v57 main_v63 main_v64 ((fun x i => Host.gather gather_S40000x128_S640000x1_S640000x128_1_0_n_n_0_1_1128 x i) : (⟨S40000x128, .f32⟩ : BufTy).Contents (Elt F) → (⟨S640000x1, .i32⟩ : BufTy).Contents (Elt F) → (⟨S640000x128, .f32⟩ : BufTy).Contents (Elt F)),
    StableHlo.nullary main_cst_12 (constant S_ .f32 0x00000000#32),
    StableHlo.unary main_cst_12 main_v65 (broadcastInDim S40000x128 ![] bcast_S_S40000x128 : (⟨S_, .f32⟩ : BufTy).Contents (Elt F) → (⟨S40000x128, .f32⟩ : BufTy).Contents (Elt F)),
    StableHlo.unary main_v3 main_v66 (broadcastInDim S640000x1 ![0] bcast_S640000_S640000x1_0 : (⟨S640000, .i32⟩ : BufTy).Contents (Elt F) → (⟨S640000x1, .i32⟩ : BufTy).Contents (Elt F)),
    StableHlo.ternary main_v65 main_v66 main_v64 main_v67 ((fun x i u => Host.scatterAdd scatter_S40000x128_S640000x1_S640000x128_1_0_0_1 x i u) : (⟨S40000x128, .f32⟩ : BufTy).Contents (Elt F) → (⟨S640000x1, .i32⟩ : BufTy).Contents (Elt F) → (⟨S640000x128, .f32⟩ : BufTy).Contents (Elt F) → (⟨S40000x128, .f32⟩ : BufTy).Contents (Elt F)) ]
end
/-- The buffers the operations of `L3g` write. -/
abbrev L3g_W : List (Ref sig .tc) := [main_v64, main_cst_12, main_v65, main_v66, main_v67]
/-- Each operation of `L3g` writes one buffer of that list. -/
theorem L3g_writes : (L3g : List (HloOp τ sig (Elt Ideal))).Forall fun op => op.writes ⊆ (L3g_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that `L3g` does not write keeps its contents through it. -/
theorem L3g_keep (W : Valuation τ sig (Elt Ideal)) (r : Ref sig .tc) (h : r ∉ L3g_W) :
    after L3g W (Proc.devRef .tc r) = W (Proc.devRef .tc r) :=
  after_of_writes_sub L3g W L3g_writes h

section
variable {F : FTy → Type} [FloatOps F]
/-- Layer 3: the in-degree as a scatter-add of ones at the destination column. -/
abbrev L3d1 : List (HloOp τ sig (Elt F)) :=
  [ StableHlo.nullary main_cst_13 (constant S_ .f32 0x3F800000#32),
    StableHlo.unary main_cst_13 main_v68 (broadcastInDim S640000 ![] bcast_S_S640000 : (⟨S_, .f32⟩ : BufTy).Contents (Elt F) → (⟨S640000, .f32⟩ : BufTy).Contents (Elt F)),
    StableHlo.nullary main_cst_14 (constant S_ .f32 0x00000000#32),
    StableHlo.unary main_cst_14 main_v69 (broadcastInDim S40000 ![] bcast_S_S40000 : (⟨S_, .f32⟩ : BufTy).Contents (Elt F) → (⟨S40000, .f32⟩ : BufTy).Contents (Elt F)),
    StableHlo.unary main_v3 main_v70 (broadcastInDim S640000x1 ![0] bcast_S640000_S640000x1_0 : (⟨S640000, .i32⟩ : BufTy).Contents (Elt F) → (⟨S640000x1, .i32⟩ : BufTy).Contents (Elt F)),
    StableHlo.ternary main_v69 main_v70 main_v68 main_v71 ((fun x i u => Host.scatterAdd scatter_S40000_S640000x1_S640000_n_0_0_1 x i u) : (⟨S40000, .f32⟩ : BufTy).Contents (Elt F) → (⟨S640000x1, .i32⟩ : BufTy).Contents (Elt F) → (⟨S640000, .f32⟩ : BufTy).Contents (Elt F) → (⟨S40000, .f32⟩ : BufTy).Contents (Elt F)) ]
end
/-- The buffers the operations of `L3d1` write. -/
abbrev L3d1_W : List (Ref sig .tc) := [main_cst_13, main_v68, main_cst_14, main_v69, main_v70, main_v71]
/-- Each operation of `L3d1` writes one buffer of that list. -/
theorem L3d1_writes : (L3d1 : List (HloOp τ sig (Elt Ideal))).Forall fun op => op.writes ⊆ (L3d1_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that `L3d1` does not write keeps its contents through it. -/
theorem L3d1_keep (W : Valuation τ sig (Elt Ideal)) (r : Ref sig .tc) (h : r ∉ L3d1_W) :
    after L3d1 W (Proc.devRef .tc r) = W (Proc.devRef .tc r) :=
  after_of_writes_sub L3d1 W L3d1_writes h

section
variable {F : FTy → Type} [FloatOps F]
/-- Layer 3: the clip below at one (the clip function's three operations after its constant). -/
abbrev L3d2 : List (HloOp τ sig (Elt F)) :=
  [ StableHlo.nullary main_cst_15 (constant S_ .f32 0x3F800000#32),
    StableHlo.TRef.unary (.of main_cst_15 : StableHlo.TRef sig ⟨S_, .f32⟩) main_call4.v0 id,
    StableHlo.TRef.unary main_call4.v0 main_call4.v1 (broadcastInDim S40000 ![] bcast_S_S40000),
    StableHlo.TRef.binary main_call4.v1 (.of main_v71 : StableHlo.TRef sig ⟨S40000, .f32⟩) main_call4.v2 maximumf ]
end
/-- The buffers the operations of `L3d2` write. -/
abbrev L3d2_W : List (Ref sig .tc) := [main_cst_15, main_call4_v0, main_call4_v1, main_v72]
/-- Each operation of `L3d2` writes one buffer of that list. -/
theorem L3d2_writes : (L3d2 : List (HloOp τ sig (Elt Ideal))).Forall fun op => op.writes ⊆ (L3d2_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that `L3d2` does not write keeps its contents through it. -/
theorem L3d2_keep (W : Valuation τ sig (Elt Ideal)) (r : Ref sig .tc) (h : r ∉ L3d2_W) :
    after L3d2 W (Proc.devRef .tc r) = W (Proc.devRef .tc r) :=
  after_of_writes_sub L3d2 W L3d2_writes h

section
variable {F : FTy → Type} [FloatOps F]
/-- Layer 3: the quotient by the broadcast degree, the two products with the transposed weights and the bias. -/
abbrev L3p : List (HloOp τ sig (Elt F)) :=
  [ StableHlo.unary main_v72 main_v73 (broadcastInDim S40000x1 ![0] bcast_S40000_S40000x1_0 : (⟨S40000, .f32⟩ : BufTy).Contents (Elt F) → (⟨S40000x1, .f32⟩ : BufTy).Contents (Elt F)),
    StableHlo.unary main_v73 main_v74 (broadcastInDim S40000x128 ![0, 1] bcast_S40000x1_S40000x128_0_1 : (⟨S40000x1, .f32⟩ : BufTy).Contents (Elt F) → (⟨S40000x128, .f32⟩ : BufTy).Contents (Elt F)),
    StableHlo.binary main_v67 main_v74 main_v75 (Host.divf : (⟨S40000x128, .f32⟩ : BufTy).Contents (Elt F) → (⟨S40000x128, .f32⟩ : BufTy).Contents (Elt F) → (⟨S40000x128, .f32⟩ : BufTy).Contents (Elt F)),
    StableHlo.unary main_arg8 main_v76 ((transpose S128x128 [1, 0] · transposes_S128x128_S128x128_1_0) : (⟨S128x128, .f32⟩ : BufTy).Contents (Elt F) → (⟨S128x128, .f32⟩ : BufTy).Contents (Elt F)),
    StableHlo.binary main_v75 main_v76 main_v77 ((fun l r => Host.dotGeneral dot_S40000x128_S128x128_S40000x128_1_0_0_1_n_n none l r) : (⟨S40000x128, .f32⟩ : BufTy).Contents (Elt F) → (⟨S128x128, .f32⟩ : BufTy).Contents (Elt F) → (⟨S40000x128, .f32⟩ : BufTy).Contents (Elt F)),
    StableHlo.unary main_arg9 main_v78 (broadcastInDim S1x128 ![1] bcast_S128_S1x128_1 : (⟨S128, .f32⟩ : BufTy).Contents (Elt F) → (⟨S1x128, .f32⟩ : BufTy).Contents (Elt F)),
    StableHlo.unary main_v78 main_v79 (broadcastInDim S40000x128 ![0, 1] bcast_S1x128_S40000x128_0_1 : (⟨S1x128, .f32⟩ : BufTy).Contents (Elt F) → (⟨S40000x128, .f32⟩ : BufTy).Contents (Elt F)),
    StableHlo.binary main_v77 main_v79 main_v80 (addf : (⟨S40000x128, .f32⟩ : BufTy).Contents (Elt F) → (⟨S40000x128, .f32⟩ : BufTy).Contents (Elt F) → (⟨S40000x128, .f32⟩ : BufTy).Contents (Elt F)),
    StableHlo.unary main_arg10 main_v81 ((transpose S128x128 [1, 0] · transposes_S128x128_S128x128_1_0) : (⟨S128x128, .f32⟩ : BufTy).Contents (Elt F) → (⟨S128x128, .f32⟩ : BufTy).Contents (Elt F)),
    StableHlo.binary main_v57 main_v81 main_v82 ((fun l r => Host.dotGeneral dot_S40000x128_S128x128_S40000x128_1_0_0_1_n_n none l r) : (⟨S40000x128, .f32⟩ : BufTy).Contents (Elt F) → (⟨S128x128, .f32⟩ : BufTy).Contents (Elt F) → (⟨S40000x128, .f32⟩ : BufTy).Contents (Elt F)),
    StableHlo.binary main_v80 main_v82 main_v83 (addf : (⟨S40000x128, .f32⟩ : BufTy).Contents (Elt F) → (⟨S40000x128, .f32⟩ : BufTy).Contents (Elt F) → (⟨S40000x128, .f32⟩ : BufTy).Contents (Elt F)) ]
end
/-- The buffers the operations of `L3p` write. -/
abbrev L3p_W : List (Ref sig .tc) := [main_v73, main_v74, main_v75, main_v76, main_v77, main_v78, main_v79, main_v80, main_v81, main_v82, main_v83]
/-- Each operation of `L3p` writes one buffer of that list. -/
theorem L3p_writes : (L3p : List (HloOp τ sig (Elt Ideal))).Forall fun op => op.writes ⊆ (L3p_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that `L3p` does not write keeps its contents through it. -/
theorem L3p_keep (W : Valuation τ sig (Elt Ideal)) (r : Ref sig .tc) (h : r ∉ L3p_W) :
    after L3p W (Proc.devRef .tc r) = W (Proc.devRef .tc r) :=
  after_of_writes_sub L3p W L3p_writes h

section
variable {F : FTy → Type} [FloatOps F]
/-- Layer 3: the ELU function's fifteen operations. -/
abbrev L3e : List (HloOp τ sig (Elt F)) :=
  [ StableHlo.TRef.nullary main_call5.cst (constant S_ .f32 0x00000000#32),
    StableHlo.TRef.unary main_call5.cst main_call5.v0 (broadcastInDim S40000x128 ![] bcast_S_S40000x128),
    StableHlo.TRef.binary (.of main_v83 : StableHlo.TRef sig ⟨S40000x128, .f32⟩) main_call5.v0 main_call5.v1 (cmpf .ogt),
    StableHlo.TRef.nullary main_call5.cst_0 (constant S_ .f32 0x00000000#32),
    StableHlo.TRef.unary main_call5.cst_0 main_call5.v2 (broadcastInDim S40000x128 ![] bcast_S_S40000x128),
    StableHlo.TRef.binary (.of main_v83 : StableHlo.TRef sig ⟨S40000x128, .f32⟩) main_call5.v2 main_call5.v3 (cmpf .ogt),
    StableHlo.TRef.nullary main_call5.cst_1 (constant S_ .f32 0x00000000#32),
    StableHlo.TRef.unary main_call5.cst_1 main_call5.call0.v0 id,
    StableHlo.TRef.unary main_call5.call0.v0 main_call5.call0.v1 (broadcastInDim S40000x128 ![] bcast_S_S40000x128),
    StableHlo.TRef.ternary main_call5.v3 main_call5.call0.v1 (.of main_v83 : StableHlo.TRef sig ⟨S40000x128, .f32⟩) main_call5.call0.v2 select,
    StableHlo.TRef.unary main_call5.call0.v2 main_call5.v5 Host.expm1,
    StableHlo.TRef.nullary main_call5.cst_2 (constant S_ .f32 0x3F800000#32),
    StableHlo.TRef.unary main_call5.cst_2 main_call5.v6 (broadcastInDim S40000x128 ![] bcast_S_S40000x128),
    StableHlo.TRef.binary main_call5.v6 main_call5.v5 main_call5.v7 mulf,
    StableHlo.TRef.ternary main_call5.v1 (.of main_v83 : StableHlo.TRef sig ⟨S40000x128, .f32⟩) main_call5.v7 main_call5.call1.v0 select ]
end
/-- The buffers the operations of `L3e` write. -/
abbrev L3e_W : List (Ref sig .tc) := [main_call5_cst, main_call5_v0, main_call5_v1, main_call5_cst_0, main_call5_v2, main_call5_v3, main_call5_cst_1, main_call5_call0_v0, main_call5_call0_v1, main_call5_v4, main_call5_v5, main_call5_cst_2, main_call5_v6, main_call5_v7, main_v84]
/-- Each operation of `L3e` writes one buffer of that list. -/
theorem L3e_writes : (L3e : List (HloOp τ sig (Elt Ideal))).Forall fun op => op.writes ⊆ (L3e_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that `L3e` does not write keeps its contents through it. -/
theorem L3e_keep (W : Valuation τ sig (Elt Ideal)) (r : Ref sig .tc) (h : r ∉ L3e_W) :
    after L3e W (Proc.devRef .tc r) = W (Proc.devRef .tc r) :=
  after_of_writes_sub L3e W L3e_writes h

set_option maxRecDepth 8192 in
/-- Layer 3: the index column is the source row wrapped. -/
theorem L3i_val (W : Valuation τ sig (Elt Ideal)) :
    after L3i W (main_v63 : DevRef τ sig)
      = wrapIdx (W (main_v1 : DevRef τ sig)) := by
  simp only [L3i]
  after_results_simp <;> rfl
set_option maxRecDepth 8192 in
/-- Layer 3: the neighbour sums. -/
theorem L3g_val (W : Valuation τ sig (Elt Ideal)) :
    after L3g W (main_v67 : DevRef τ sig)
      = gsTerm128 (W (main_v57 : DevRef τ sig)) (W (main_v63 : DevRef τ sig)) (colIdx (W (main_v3 : DevRef τ sig))) := by
  simp only [L3g]
  after_results_simp <;> rfl
set_option maxRecDepth 8192 in
/-- Layer 3: the in-degree. -/
theorem L3d1_val (W : Valuation τ sig (Elt Ideal)) :
    after L3d1 W (main_v71 : DevRef τ sig)
      = cntTerm (colIdx (W (main_v3 : DevRef τ sig))) := by
  simp only [L3d1]
  after_results_simp <;> rfl
set_option maxRecDepth 8192 in
/-- Layer 3: the clip, over the in-degree's buffer. -/
theorem L3d2_val (W : Valuation τ sig (Elt Ideal)) :
    after L3d2 W (main_v72 : DevRef τ sig)
      = clipTerm (W (main_v71 : DevRef τ sig)) := by
  simp only [L3d2]
  after_results_simp <;> rfl
set_option maxRecDepth 8192 in
/-- Layer 3: the layer before its nonlinearity. -/
theorem L3p_val (W : Valuation τ sig (Elt Ideal)) :
    after L3p W (main_v83 : DevRef τ sig)
      = preTerm128 (W (main_v67 : DevRef τ sig)) (W (main_v57 : DevRef τ sig)) (W (main_v72 : DevRef τ sig)) (W (main_arg8 : DevRef τ sig)) (W (main_arg9 : DevRef τ sig)) (W (main_arg10 : DevRef τ sig)) := by
  simp only [L3p]
  after_results_simp <;> rfl
set_option maxRecDepth 8192 in
/-- Layer 3: the nonlinearity. -/
theorem L3e_val (W : Valuation τ sig (Elt Ideal)) :
    after L3e W (main_v84 : DevRef τ sig)
      = RefLayer.eluTerm (W (main_v83 : DevRef τ sig)) := by
  simp only [L3e]
  after_results_simp <;> rfl

/-- The stretch `segL3` is its pieces in a row. -/
theorem segL3_cut {F : FTy → Type} [FloatOps F] : (segL3 : List (HloOp τ sig (Elt F))) = L3i ++ L3g ++ L3d1 ++ L3d2 ++ L3p ++ L3e := rfl

/-- Layer 3's stretch leaves its result at the layer over the two index rows: the pieces composed, each piece's
    inputs read back through the pieces before it. -/
theorem segL3_v84 (W : Valuation τ sig (Elt Ideal)) :
    after segL3 W (main_v84 : DevRef τ sig)
      = layer128R (W (main_v57 : DevRef τ sig)) (W (main_v1 : DevRef τ sig)) (W (main_v3 : DevRef τ sig)) (W (main_arg8 : DevRef τ sig)) (W (main_arg9 : DevRef τ sig)) (W (main_arg10 : DevRef τ sig)) := by
  rw [segL3_cut]
  simp only [after_app]
  rw [L3e_val, L3p_val]
  rw [L3d2_val, L3d2_keep _ main_v67 (by decide), L3d2_keep _ main_v57 (by decide), L3d2_keep _ main_arg8 (by decide), L3d2_keep _ main_arg9 (by decide), L3d2_keep _ main_arg10 (by decide)]
  rw [L3d1_val, L3d1_keep _ main_v67 (by decide), L3d1_keep _ main_v57 (by decide), L3d1_keep _ main_arg8 (by decide), L3d1_keep _ main_arg9 (by decide), L3d1_keep _ main_arg10 (by decide)]
  rw [L3g_val, L3g_keep _ main_v3 (by decide), L3g_keep _ main_v57 (by decide), L3g_keep _ main_arg8 (by decide), L3g_keep _ main_arg9 (by decide), L3g_keep _ main_arg10 (by decide)]
  rw [L3i_val, L3i_keep _ main_v57 (by decide), L3i_keep _ main_v3 (by decide), L3i_keep _ main_arg8 (by decide), L3i_keep _ main_arg9 (by decide), L3i_keep _ main_arg10 (by decide)]
  rfl

/-! ## The valuations between the stretches -/

/-- The contents after the rows' stretch. -/
def W1 (V : Valuation τ sig (Elt Ideal)) : Valuation τ sig (Elt Ideal) := after segA V
/-- The contents after the first layer. -/
def W2 (V : Valuation τ sig (Elt Ideal)) : Valuation τ sig (Elt Ideal) := after segL1 (W1 V)
/-- The contents after the second layer. -/
def W3 (V : Valuation τ sig (Elt Ideal)) : Valuation τ sig (Elt Ideal) := after segL2b (after segL2a (W2 V))
/-- The contents after the third layer. -/
def W4 (V : Valuation τ sig (Elt Ideal)) : Valuation τ sig (Elt Ideal) := after segL3 (W3 V)
/-- The contents after the head. -/
def W5 (V : Valuation τ sig (Elt Ideal)) : Valuation τ sig (Elt Ideal) := after segH (W4 V)

/-- The fold of all of @main's operations is the last of these. -/
theorem after_ops (V : Valuation τ sig (Elt Ideal)) : after ops V = W5 V := by
  simp only [ops, ops0, ops1, after_app]
  rfl

/-- A buffer the rows' stretch does not write holds after it what it held at the start. -/
theorem W1_keep (V : Valuation τ sig (Elt Ideal)) (r : Ref sig .tc) (hA : r ∉ segA_W) : W1 V (Proc.devRef .tc r) = V (Proc.devRef .tc r) :=
  segA_keep V r hA
/-- A buffer neither the rows' stretch nor the first layer writes holds after them what it held at the start. -/
theorem W2_keep (V : Valuation τ sig (Elt Ideal)) (r : Ref sig .tc) (hA : r ∉ segA_W) (h1 : r ∉ segL1_W) : W2 V (Proc.devRef .tc r) = V (Proc.devRef .tc r) :=
  (segL1_keep _ r h1).trans (W1_keep V r hA)
/-- A buffer no stretch up to the second layer writes holds after them what it held at the start. -/
theorem W3_keep (V : Valuation τ sig (Elt Ideal)) (r : Ref sig .tc) (hA : r ∉ segA_W) (h1 : r ∉ segL1_W) (h2a : r ∉ segL2a_W) (h2b : r ∉ segL2b_W) :
    W3 V (Proc.devRef .tc r) = V (Proc.devRef .tc r) :=
  (segL2b_keep _ r h2b).trans ((segL2a_keep _ r h2a).trans (W2_keep V r hA h1))
/-- A buffer no stretch up to the third layer writes holds after them what it held at the start. -/
theorem W4_keep (V : Valuation τ sig (Elt Ideal)) (r : Ref sig .tc) (hA : r ∉ segA_W) (h1 : r ∉ segL1_W) (h2a : r ∉ segL2a_W) (h2b : r ∉ segL2b_W)
    (h3 : r ∉ segL3_W) : W4 V (Proc.devRef .tc r) = V (Proc.devRef .tc r) :=
  (segL3_keep _ r h3).trans (W3_keep V r hA h1 h2a h2b)
/-- A buffer no operation of @main writes holds at the end what it held at the start. -/
theorem W5_keep (V : Valuation τ sig (Elt Ideal)) (r : Ref sig .tc) (hA : r ∉ segA_W) (h1 : r ∉ segL1_W) (h2a : r ∉ segL2a_W) (h2b : r ∉ segL2b_W)
    (h3 : r ∉ segL3_W) (hH : r ∉ segH_W) : W5 V (Proc.devRef .tc r) = V (Proc.devRef .tc r) :=
  (segH_keep _ r hH).trans (W4_keep V r hA h1 h2a h2b h3)

/-- The source row's buffer, written once by the first stretch, holds the edge table's row 0 from then on. -/
theorem W1_v1 (V : Valuation τ sig (Elt Ideal)) : W1 V (main_v1 : DevRef τ sig) = srcRow (V (main_arg1 : DevRef τ sig)) := segA_v1 V
/-- The destination row's buffer after the rows' stretch: row 1 of the edge table. -/
theorem W1_v3 (V : Valuation τ sig (Elt Ideal)) : W1 V (main_v3 : DevRef τ sig) = dstRow (V (main_arg1 : DevRef τ sig)) := segA_v3 V
/-- The first layer leaves the source row's buffer as it was. -/
theorem W2_v1 (V : Valuation τ sig (Elt Ideal)) : W2 V (main_v1 : DevRef τ sig) = srcRow (V (main_arg1 : DevRef τ sig)) :=
  (segL1_keep _ main_v1 (by decide)).trans (W1_v1 V)
/-- The first layer leaves the destination row's buffer as it was. -/
theorem W2_v3 (V : Valuation τ sig (Elt Ideal)) : W2 V (main_v3 : DevRef τ sig) = dstRow (V (main_arg1 : DevRef τ sig)) :=
  (segL1_keep _ main_v3 (by decide)).trans (W1_v3 V)
/-- The second layer leaves the source row's buffer as it was. -/
theorem W3_v1 (V : Valuation τ sig (Elt Ideal)) : W3 V (main_v1 : DevRef τ sig) = srcRow (V (main_arg1 : DevRef τ sig)) :=
  (segL2b_keep _ main_v1 (by decide)).trans ((segL2a_keep _ main_v1 (by decide)).trans (W2_v1 V))
/-- The second layer leaves the destination row's buffer as it was. -/
theorem W3_v3 (V : Valuation τ sig (Elt Ideal)) : W3 V (main_v3 : DevRef τ sig) = dstRow (V (main_arg1 : DevRef τ sig)) :=
  (segL2b_keep _ main_v3 (by decide)).trans ((segL2a_keep _ main_v3 (by decide)).trans (W2_v3 V))

/-- After the first layer its buffer holds `layer12` of the arguments. -/
theorem W2_v30 (V : Valuation τ sig (Elt Ideal)) :
    W2 V (main_v30 : DevRef τ sig) = layer12 (V (main_arg0 : DevRef τ sig)) (V (main_arg1 : DevRef τ sig)) (V (main_arg2 : DevRef τ sig)) (V (main_arg3 : DevRef τ sig)) (V (main_arg4 : DevRef τ sig)) := by
  unfold W2
  rw [segL1_v30, W1_v1, W1_v3, W1_keep V main_arg0 (by decide), W1_keep V main_arg2 (by decide), W1_keep V main_arg3 (by decide),
    W1_keep V main_arg4 (by decide)]
  exact layer12R_rows _ _ _ _ _

/-- After the second layer its buffer holds `layer128` of the first layer's result. -/
theorem W3_v57 (V : Valuation τ sig (Elt Ideal)) :
    W3 V (main_v57 : DevRef τ sig)
      = layer128 (layer12 (V (main_arg0 : DevRef τ sig)) (V (main_arg1 : DevRef τ sig)) (V (main_arg2 : DevRef τ sig)) (V (main_arg3 : DevRef τ sig)) (V (main_arg4 : DevRef τ sig)))
          (V (main_arg1 : DevRef τ sig)) (V (main_arg5 : DevRef τ sig)) (V (main_arg6 : DevRef τ sig)) (V (main_arg7 : DevRef τ sig)) := by
  unfold W3
  rw [segL2_v57, W2_v30, W2_v1, W2_v3, W2_keep V main_arg5 (by decide) (by decide), W2_keep V main_arg6 (by decide) (by decide),
    W2_keep V main_arg7 (by decide) (by decide)]
  exact layer128R_rows _ _ _ _ _

/-- After the third layer its buffer holds `layer128` of the second layer's result. -/
theorem W4_v84 (V : Valuation τ sig (Elt Ideal)) :
    W4 V (main_v84 : DevRef τ sig)
      = layer128 (layer128 (layer12 (V (main_arg0 : DevRef τ sig)) (V (main_arg1 : DevRef τ sig)) (V (main_arg2 : DevRef τ sig)) (V (main_arg3 : DevRef τ sig)) (V (main_arg4 : DevRef τ sig)))
            (V (main_arg1 : DevRef τ sig)) (V (main_arg5 : DevRef τ sig)) (V (main_arg6 : DevRef τ sig)) (V (main_arg7 : DevRef τ sig)))
          (V (main_arg1 : DevRef τ sig)) (V (main_arg8 : DevRef τ sig)) (V (main_arg9 : DevRef τ sig)) (V (main_arg10 : DevRef τ sig)) := by
  unfold W4
  rw [segL3_v84, W3_v57, W3_v1, W3_v3, W3_keep V main_arg8 (by decide) (by decide) (by decide) (by decide),
    W3_keep V main_arg9 (by decide) (by decide) (by decide) (by decide), W3_keep V main_arg10 (by decide) (by decide) (by decide) (by decide)]
  exact layer128R_rows _ _ _ _ _

/-! ## The result and the arguments -/

/-- The fold of @main's operations at the result buffer is the network of the thirteen arguments. -/
theorem out_eq (V : Valuation τ sig (Elt Ideal)) :
    after ops V (main_v89 : DevRef τ sig)
      = net (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig)) := by
  rw [after_ops]
  unfold W5
  rw [segH_v89, W4_v84, W4_keep V main_arg11 (by decide) (by decide) (by decide) (by decide) (by decide),
    W4_keep V main_arg12 (by decide) (by decide) (by decide) (by decide) (by decide)]
  rfl

/-- Argument 0 is written by no operation: the fold leaves it as it was. -/
theorem arg0_eq (V : Valuation τ sig (Elt Ideal)) : after ops V (main_arg0 : DevRef τ sig) = V (main_arg0 : DevRef τ sig) := by
  rw [after_ops]; exact W5_keep V main_arg0 (by decide) (by decide) (by decide) (by decide) (by decide) (by decide)
/-- Argument 1 is written by no operation: the fold leaves it as it was. -/
theorem arg1_eq (V : Valuation τ sig (Elt Ideal)) : after ops V (main_arg1 : DevRef τ sig) = V (main_arg1 : DevRef τ sig) := by
  rw [after_ops]; exact W5_keep V main_arg1 (by decide) (by decide) (by decide) (by decide) (by decide) (by decide)
/-- Argument 2 is written by no operation: the fold leaves it as it was. -/
theorem arg2_eq (V : Valuation τ sig (Elt Ideal)) : after ops V (main_arg2 : DevRef τ sig) = V (main_arg2 : DevRef τ sig) := by
  rw [after_ops]; exact W5_keep V main_arg2 (by decide) (by decide) (by decide) (by decide) (by decide) (by decide)
/-- Argument 3 is written by no operation: the fold leaves it as it was. -/
theorem arg3_eq (V : Valuation τ sig (Elt Ideal)) : after ops V (main_arg3 : DevRef τ sig) = V (main_arg3 : DevRef τ sig) := by
  rw [after_ops]; exact W5_keep V main_arg3 (by decide) (by decide) (by decide) (by decide) (by decide) (by decide)
/-- Argument 4 is written by no operation: the fold leaves it as it was. -/
theorem arg4_eq (V : Valuation τ sig (Elt Ideal)) : after ops V (main_arg4 : DevRef τ sig) = V (main_arg4 : DevRef τ sig) := by
  rw [after_ops]; exact W5_keep V main_arg4 (by decide) (by decide) (by decide) (by decide) (by decide) (by decide)
/-- Argument 5 is written by no operation: the fold leaves it as it was. -/
theorem arg5_eq (V : Valuation τ sig (Elt Ideal)) : after ops V (main_arg5 : DevRef τ sig) = V (main_arg5 : DevRef τ sig) := by
  rw [after_ops]; exact W5_keep V main_arg5 (by decide) (by decide) (by decide) (by decide) (by decide) (by decide)
/-- Argument 6 is written by no operation: the fold leaves it as it was. -/
theorem arg6_eq (V : Valuation τ sig (Elt Ideal)) : after ops V (main_arg6 : DevRef τ sig) = V (main_arg6 : DevRef τ sig) := by
  rw [after_ops]; exact W5_keep V main_arg6 (by decide) (by decide) (by decide) (by decide) (by decide) (by decide)
/-- Argument 7 is written by no operation: the fold leaves it as it was. -/
theorem arg7_eq (V : Valuation τ sig (Elt Ideal)) : after ops V (main_arg7 : DevRef τ sig) = V (main_arg7 : DevRef τ sig) := by
  rw [after_ops]; exact W5_keep V main_arg7 (by decide) (by decide) (by decide) (by decide) (by decide) (by decide)
/-- Argument 8 is written by no operation: the fold leaves it as it was. -/
theorem arg8_eq (V : Valuation τ sig (Elt Ideal)) : after ops V (main_arg8 : DevRef τ sig) = V (main_arg8 : DevRef τ sig) := by
  rw [after_ops]; exact W5_keep V main_arg8 (by decide) (by decide) (by decide) (by decide) (by decide) (by decide)
/-- Argument 9 is written by no operation: the fold leaves it as it was. -/
theorem arg9_eq (V : Valuation τ sig (Elt Ideal)) : after ops V (main_arg9 : DevRef τ sig) = V (main_arg9 : DevRef τ sig) := by
  rw [after_ops]; exact W5_keep V main_arg9 (by decide) (by decide) (by decide) (by decide) (by decide) (by decide)
/-- Argument 10 is written by no operation: the fold leaves it as it was. -/
theorem arg10_eq (V : Valuation τ sig (Elt Ideal)) : after ops V (main_arg10 : DevRef τ sig) = V (main_arg10 : DevRef τ sig) := by
  rw [after_ops]; exact W5_keep V main_arg10 (by decide) (by decide) (by decide) (by decide) (by decide) (by decide)
/-- Argument 11 is written by no operation: the fold leaves it as it was. -/
theorem arg11_eq (V : Valuation τ sig (Elt Ideal)) : after ops V (main_arg11 : DevRef τ sig) = V (main_arg11 : DevRef τ sig) := by
  rw [after_ops]; exact W5_keep V main_arg11 (by decide) (by decide) (by decide) (by decide) (by decide) (by decide)
/-- Argument 12 is written by no operation: the fold leaves it as it was. -/
theorem arg12_eq (V : Valuation τ sig (Elt Ideal)) : after ops V (main_arg12 : DevRef τ sig) = V (main_arg12 : DevRef τ sig) := by
  rw [after_ops]; exact W5_keep V main_arg12 (by decide) (by decide) (by decide) (by decide) (by decide) (by decide)

/-- At the compiled mesh, at the exact instance, from any memory with zero counters: every weakly fair execution of @main
    terminates with the result buffer at the network of the arguments' launch contents and the thirteen arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v89)
          = net (m ((c.tc : Thread nD τ).loc main_arg0))
              (m ((c.tc : Thread nD τ).loc main_arg1))
              (m ((c.tc : Thread nD τ).loc main_arg2))
              (m ((c.tc : Thread nD τ).loc main_arg3))
              (m ((c.tc : Thread nD τ).loc main_arg4))
              (m ((c.tc : Thread nD τ).loc main_arg5))
              (m ((c.tc : Thread nD τ).loc main_arg6))
              (m ((c.tc : Thread nD τ).loc main_arg7))
              (m ((c.tc : Thread nD τ).loc main_arg8))
              (m ((c.tc : Thread nD τ).loc main_arg9))
              (m ((c.tc : Thread nD τ).loc main_arg10))
              (m ((c.tc : Thread nD τ).loc main_arg11))
              (m ((c.tc : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run (defs (F := Ideal)) _ _).mono (fun _ h c => ⟨(h c main_v89).trans (out_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _),
      (h c main_arg8).trans (arg8_eq _),
      (h c main_arg9).trans (arg9_eq _),
      (h c main_arg10).trans (arg10_eq _),
      (h c main_arg11).trans (arg11_eq _),
      (h c main_arg12).trans (arg12_eq _)⟩)
    (run_main m ρ)

end Cert.ReferenceIdeal.RefRead

end
-- ==== Proof.NetBridge.lean ====
/-
  The reference's network is the specification's, over the SAME edge sums and clipped degree the kernel program computes.

  Both programs build the gather's and the scatter's index columns, the edge sums and the clipped degree with the same
  host operations on the edge table; the two printed copies differ only in the side-condition proofs they carry, so the
  terms are equal as they stand. With the reference's three layers and head rewritten to the network's formulas, its
  result is the specification's network at those edge sums and that degree.
-/
import proofs.«162061_j5377299055106_1_alg».proof.Proof.RefRead
import proofs.«162061_j5377299055106_1_alg».proof.Proof.KStretch
import proofs.«162061_j5377299055106_1_alg».proof.Proof.SageSpec

noncomputable section

open Idealize.ShloMosaic Idealize.ShloMosaic.TcCoe Idealize.SL.Sem

namespace Cert.Proof.NetBridge

/-- The edge table's contents. -/
abbrev Edges := (⟨Cert.KernelIdeal.S2x640000, .i32⟩ : BufTy).Contents (Elt Ideal)

/-- The gather's index column is one term in both programs. -/
theorem srcIdx_eq (e : Edges) : Cert.ReferenceIdeal.RefRead.srcIdx e = Cert.KernelIdeal.KStretch.srcIdx (F := Ideal) e := rfl

/-- The scatter's index column likewise. -/
theorem dstIdx_eq (e : Edges) : Cert.ReferenceIdeal.RefRead.dstIdx e = Cert.KernelIdeal.KStretch.dstIdx (F := Ideal) e := rfl

/-- The edge sums over 12 features. -/
theorem agg12_eq (x : (⟨Cert.KernelIdeal.S40000x12, .f32⟩ : BufTy).Contents (Elt Ideal)) (e : Edges) :
    Cert.ReferenceIdeal.RefRead.agg12 x e = Cert.KernelIdeal.KStretch.agg12 (F := Ideal) x e := by
  unfold Cert.ReferenceIdeal.RefRead.agg12 Cert.KernelIdeal.KStretch.agg12
  rw [srcIdx_eq, dstIdx_eq]
  rfl

/-- The edge sums over 128 features. -/
theorem agg128_eq (h : (⟨Cert.KernelIdeal.S40000x128, .f32⟩ : BufTy).Contents (Elt Ideal)) (e : Edges) :
    Cert.ReferenceIdeal.RefRead.agg128 h e = Cert.KernelIdeal.KStretch.agg128 (F := Ideal) h e := by
  unfold Cert.ReferenceIdeal.RefRead.agg128 Cert.KernelIdeal.KStretch.agg128
  rw [srcIdx_eq, dstIdx_eq]
  rfl

/-- The clipped degree. -/
theorem degClip_eq (e : Edges) : Cert.ReferenceIdeal.RefRead.degClip e = Cert.KernelIdeal.KStretch.degClip (F := Ideal) e := by
  unfold Cert.ReferenceIdeal.RefRead.degClip Cert.KernelIdeal.KStretch.degClip
  rw [dstIdx_eq]
  rfl

/-- The reference's network is the specification's at the kernel program's edge sums and clipped degree. -/
theorem net_eq (x : (⟨Cert.KernelIdeal.S40000x12, .f32⟩ : BufTy).Contents (Elt Ideal)) (e : Edges)
    (Wl1 : (⟨Cert.KernelIdeal.S128x12, .f32⟩ : BufTy).Contents (Elt Ideal)) (bl1 : (⟨Cert.KernelIdeal.S128, .f32⟩ : BufTy).Contents (Elt Ideal))
    (Wr1 : (⟨Cert.KernelIdeal.S128x12, .f32⟩ : BufTy).Contents (Elt Ideal))
    (Wl2 : (⟨Cert.KernelIdeal.S128x128, .f32⟩ : BufTy).Contents (Elt Ideal)) (bl2 : (⟨Cert.KernelIdeal.S128, .f32⟩ : BufTy).Contents (Elt Ideal))
    (Wr2 : (⟨Cert.KernelIdeal.S128x128, .f32⟩ : BufTy).Contents (Elt Ideal))
    (Wl3 : (⟨Cert.KernelIdeal.S128x128, .f32⟩ : BufTy).Contents (Elt Ideal)) (bl3 : (⟨Cert.KernelIdeal.S128, .f32⟩ : BufTy).Contents (Elt Ideal))
    (Wr3 : (⟨Cert.KernelIdeal.S128x128, .f32⟩ : BufTy).Contents (Elt Ideal))
    (Wout : (⟨Cert.KernelIdeal.S1x128, .f32⟩ : BufTy).Contents (Elt Ideal)) (bout : (⟨Cert.KernelIdeal.S1, .f32⟩ : BufTy).Contents (Elt Ideal)) :
    Cert.ReferenceIdeal.RefRead.net x e Wl1 bl1 Wr1 Wl2 bl2 Wr2 Wl3 bl3 Wr3 Wout bout
      = SageSpec.net (fun y => Cert.KernelIdeal.KStretch.agg12 (F := Ideal) y e) (fun y => Cert.KernelIdeal.KStretch.agg128 (F := Ideal) y e) (Cert.KernelIdeal.KStretch.degClip (F := Ideal) e)
          x Wl1 bl1 Wr1 Wl2 bl2 Wr2 Wl3 bl3 Wr3 Wout bout := by
  unfold Cert.ReferenceIdeal.RefRead.net Cert.ReferenceIdeal.RefRead.headR Cert.ReferenceIdeal.RefRead.layer128 Cert.ReferenceIdeal.RefRead.layer12
  rw [Cert.ReferenceIdeal.RefLayer.headTerm_eq, Cert.ReferenceIdeal.RefLayer.layerTerm128_eq, Cert.ReferenceIdeal.RefLayer.layerTerm128_eq, Cert.ReferenceIdeal.RefLayer.layerTerm12_eq]
  simp only [agg12_eq, agg128_eq, degClip_eq]
  rfl

end Cert.Proof.NetBridge

end
-- ==== Proof.lean ====
/-
  Three graph-convolution layers with mean aggregation and ELU, and a linear head: the kernel program against its
  plain reference, as exact functions on the extended reals.

  Both programs gather node features along the edges, add them at the destination nodes and count the edges per node on
  the host, with the same operations. They differ in how a layer uses these: the kernel program multiplies the edge sum by
  the reciprocal 1 / max(1, degree) and runs  ELU((mean·Wlᵀ + h·Wrᵀ) + b)  on the matrix unit, block by block, writing
  ELU as  z  or  exp z − 1; the reference divides by  max(1, degree), adds  (mean·Wlᵀ + b) + h·Wrᵀ  on whole arrays and
  writes ELU with a guarded expm1. The head is a lane sum of products in the kernel and a contraction in the reference.
  On the extended reals all of these agree with no condition on the inputs: the degree's maximum with one is not zero, and off
  zero the product with the reciprocal IS the quotient; addition is commutative and associative; expm1 is exp − 1; a
  product accumulated into zero and a lane sum from zero are plain sums. Each side is brought to ONE function of the
  arguments (SageSpec.net), the kernel side through its four regions' block-to-array lemmas and the reads of the host
  stretches between them, the reference through its run read back operation by operation.

  The three frame claims: the two kernel programs' are the generated frames; the reference's is its run with the result
  dropped. The idealization rewrote nothing, so the preservation claim is trivial.
-/
import proofs.«162061_j5377299055106_1_alg».proof.Defs
import proofs.«162061_j5377299055106_1_alg».proof.Proof.Gen.Kernel
import proofs.«162061_j5377299055106_1_alg».proof.Proof.Gen.Kernel.Frame
import proofs.«162061_j5377299055106_1_alg».proof.Proof.Gen.KernelIdeal
import proofs.«162061_j5377299055106_1_alg».proof.Proof.Gen.KernelIdeal.Frame
import proofs.«162061_j5377299055106_1_alg».proof.Proof.Gen.ReferenceIdeal
import proofs.«162061_j5377299055106_1_alg».proof.Proof.Gen.Pre_finite_inputs
import proofs.«162061_j5377299055106_1_alg».proof.Proof.KRun
import proofs.«162061_j5377299055106_1_alg».proof.Proof.KNet
import proofs.«162061_j5377299055106_1_alg».proof.Proof.RefRead
import proofs.«162061_j5377299055106_1_alg».proof.Proof.NetBridge
import Idealize.ShloMosaic.Adequacy
import Idealize.ShloMosaic.Init

noncomputable section

namespace Cert.Proof

open Idealize.ShloMosaic Idealize.ShloMosaic.TcCoe Idealize.SL.Sem

/-- The word-level kernel program runs and leaves its arguments as launched. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and leaves its arguments as launched: its run, the result forgotten. -/
theorem frame_ri : Cert.frame_ReferenceIdeal := fun m ρ _ =>
  (θ_run Cert.ReferenceIdeal.defs _ _).mono (fun _ h c => (h c).2) (Cert.ReferenceIdeal.RefRead.run m ρ)

/-- The idealization rewrote no operation. -/
theorem preserves : Cert.preserves_Kernel_KernelIdeal := trivial

/-- From memories agreeing on the arguments both programs end with the network's value of the arguments. -/
theorem algebraic : Cert.algebraic_KernelIdeal_ReferenceIdeal := by
  intro m ρ m' ρ' _ hagree
  refine ⟨fun c => SageSpec.net (fun y => Cert.KernelIdeal.KStretch.agg12 (F := Ideal) y (m ((c.tc : Thread Cert.KernelIdeal.nD Cert.KernelIdeal.τ).loc Cert.KernelIdeal.main_arg1))) (fun y => Cert.KernelIdeal.KStretch.agg128 (F := Ideal) y (m ((c.tc : Thread Cert.KernelIdeal.nD Cert.KernelIdeal.τ).loc Cert.KernelIdeal.main_arg1)))
      (Cert.KernelIdeal.KStretch.degClip (F := Ideal) (m ((c.tc : Thread Cert.KernelIdeal.nD Cert.KernelIdeal.τ).loc Cert.KernelIdeal.main_arg1))) (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)), ?_, ?_⟩
  · exact (θ_run Cert.KernelIdeal.defs _ _).mono
      (fun r h c => ⟨(h c).1.trans (Cert.KernelIdeal.KNet.result_eq m ρ c), (h c).2⟩)
      (Cert.KernelIdeal.KRun.run_value (F := Ideal) m ρ)
  · refine (θ_run Cert.ReferenceIdeal.defs _ _).mono (fun r h c => ⟨(h c).1.trans ?_, (h c).2⟩)
      (Cert.ReferenceIdeal.RefRead.run m' ρ')
    obtain ⟨e0, e1, e2, e3, e4, e5, e6, e7, e8, e9, e10, e11, e12⟩ := hagree c
    rw [e0, e1, e2, e3, e4, e5, e6, e7, e8, e9, e10, e11, e12]
    exact Cert.Proof.NetBridge.net_eq _ _ _ _ _ _ _ _ _ _ _ _ _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
